-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S262144 : Shape := ⟨1, ![262144]⟩
abbrev S128x64 : Shape := ⟨2, ![128, 64]⟩
abbrev S64 : Shape := ⟨1, ![64]⟩
abbrev S128x128 : Shape := ⟨2, ![128, 128]⟩
abbrev S128 : Shape := ⟨1, ![128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8192 : S_.BroadcastsInDim S8192 (![] : Fin 0 → Fin S8192.rank)
  reducesTo_S8192_S_d0 : S8192.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S64 .f32) (main_arg10 : FVec F S8192 .f32) (main_arg11 : FVec F S64 .f32) (main_arg12 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S8192 .f32 := Host.absf main_arg10
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128x128 .f32) (main_arg7 : FVec F S128 .f32) (main_arg8 : FVec F S128x64 .f32) (main_arg9 : FVec F S64 .f32) (main_arg10 : FVec F S8192 .f32) (main_arg11 : FVec F S64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S8192x128 .f32) (main_arg1 : FVec F S8192x8192 .f32) (main_arg2 : IVec S262144 32) (main_arg3 : IVec S262144 32) (main_arg4 : FVec F S128x64 .f32) (main_arg5 : FVec F S64 .f32) (main_arg6 : FVec F S128x128 .f32) (main_arg7 : FVec F S128 .f32) (main_arg8 : FVec F S128x64 .f32) (main_arg9 : FVec F S64 .f32) (main_arg10 : FVec F S8192 .f32) (main_arg11 : FVec F S64 .f32) (main_arg12 : FVec F S64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_v13 main_v16
-- ==== Kernel.lean ====
abbrev S8192x128 : Shape := ⟨2, ![8192, 128]⟩
abbrev S8192x8192 : Shape := ⟨2, ![8192, 8192]⟩
abbrev S262144 : Shape := ⟨1, ![262144]⟩
abbrev S128x64 : Shape := ⟨2, ![128, 64]⟩
abbrev S64 : Shape := ⟨1, ![64]⟩
abbrev S128x128 : Shape := ⟨2, ![128, 128]⟩
abbrev S128 : Shape := ⟨1, ![128]⟩
abbrev S8192 : Shape := ⟨1, ![8192]⟩
abbrev S_ : Shape := ⟨0, ![]⟩
abbrev S262144x1 : Shape := ⟨2, ![262144, 1]⟩
abbrev S262144x128 : Shape := ⟨2, ![262144, 128]⟩
abbrev S8192x64 : Shape := ⟨2, ![8192, 64]⟩
abbrev S1024x128 : Shape := ⟨2, ![1024, 128]⟩
abbrev S1024x64 : Shape := ⟨2, ![1024, 64]⟩
abbrev S1x64 : Shape := ⟨2, ![1, 64]⟩
abbrev S1x128 : Shape := ⟨2, ![1, 128]⟩
abbrev S8192x1 : Shape := ⟨2, ![8192, 1]⟩
abbrev S1024x1 : Shape := ⟨2, ![1024, 1]⟩
abbrev S1024x1024 : Shape := ⟨2, ![1024, 1024]⟩
abbrev S64x1024 : Shape := ⟨2, ![64, 1024]⟩
abbrev S128x1024 : Shape := ⟨2, ![128, 1024]⟩

abbrev nBuf : Space → Nat
  | .hbm => 88
  | .vmem => 32
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S262144, .i32⟩
  | .hbm, ⟨3, _⟩ => ⟨S262144, .i32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S8192, .f32⟩
  | .hbm, ⟨11, _⟩ => ⟨S64, .f32⟩
  | .hbm, ⟨12, _⟩ => ⟨S64, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x128, .f32⟩
  | .hbm, ⟨22, _⟩ => ⟨S_, .f32⟩
  | .hbm, ⟨23, _⟩ => ⟨S8192x128, .f32⟩
  | .hbm, ⟨24, _⟩ => ⟨S262144x1, .i32⟩
  | .hbm, ⟨25, _⟩ => ⟨S8192x128, .f32⟩
  | .hbm, ⟨26, _⟩ => ⟨S8192x64, .f32⟩
  | .hbm, ⟨27, _⟩ => ⟨S8192x128, .f32⟩
  | .hbm, ⟨28, _⟩ => ⟨S_, .i32⟩
  | .hbm, ⟨29, _⟩ => ⟨S262144, .i32⟩
  | .hbm, ⟨30, _⟩ => ⟨S262144, .i1⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144, .i32⟩
  | .hbm, ⟨35, _⟩ => ⟨S262144x1, .i32⟩
  | .hbm, ⟨36, _⟩ => ⟨S262144x128, .f32⟩
  | .hbm, ⟨37, _⟩ => ⟨S_, .f32⟩
  | .hbm, ⟨38, _⟩ => ⟨S8192x128, .f32⟩
  | .hbm, ⟨39, _⟩ => ⟨S262144x1, .i32⟩
  | .hbm, ⟨40, _⟩ => ⟨S8192x128, .f32⟩
  | .hbm, ⟨41, _⟩ => ⟨S8192x1, .f32⟩
  | .hbm, ⟨42, _⟩ => ⟨S8192x64, .f32⟩
  | .hbm, ⟨43, _⟩ => ⟨S_, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .i32⟩
  | .hbm, ⟨49, _⟩ => ⟨S_, .f32⟩
  | .hbm, ⟨50, _⟩ => ⟨S64, .f32⟩
  | .hbm, ⟨51, _⟩ => ⟨S1x64, .f32⟩
  | .hbm, ⟨52, _⟩ => ⟨S_, .f32⟩
  | .hbm, ⟨53, _⟩ => ⟨S1x64, .f32⟩
  | .hbm, ⟨54, _⟩ => ⟨S1x64, .f32⟩
  | .hbm, ⟨55, _⟩ => ⟨S8192x64, .f32⟩
  | .hbm, ⟨56, _⟩ => ⟨S8192x64, .f32⟩
  | .hbm, ⟨57, _⟩ => ⟨S8192x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S1x64, .f32⟩
  | .hbm, ⟨72, _⟩ => ⟨S8192x64, .f32⟩
  | .hbm, ⟨73, _⟩ => ⟨S8192x64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S1x64, .f32⟩
  | .hbm, ⟨79, _⟩ => ⟨S8192x64, .f32⟩
  | .hbm, ⟨80, _⟩ => ⟨S8192x64, .f32⟩
  | .hbm, ⟨81, _⟩ => ⟨S1x64, .f32⟩
  | .hbm, ⟨82, _⟩ => ⟨S8192x64, .f32⟩
  | .hbm, ⟨83, _⟩ => ⟨S8192x64, .f32⟩
  | .hbm, ⟨84, _⟩ => ⟨S1x64, .f32⟩
  | .hbm, ⟨85, _⟩ => ⟨S8192x64, .f32⟩
  | .hbm, ⟨86, _⟩ => ⟨S8192x64, .f32⟩
  | .hbm, ⟨87, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S128x64, .f32⟩
  | .local _ .vmem, ⟨5, _⟩ => ⟨S64, .f32⟩
  | .local _ .vmem, ⟨6, _⟩ => ⟨S128x128, .f32⟩
  | .local _ .vmem, ⟨7, _⟩ => ⟨S128, .f32⟩
  | .local _ .vmem, ⟨8, _⟩ => ⟨S1024x64, .f32⟩
  | .local _ .vmem, ⟨9, _⟩ => ⟨S1024x64, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S128x64, .f32⟩
  | .local _ .vmem, ⟨15, _⟩ => ⟨S64, .f32⟩
  | .local _ .vmem, ⟨16, _⟩ => ⟨S1024x64, .f32⟩
  | .local _ .vmem, ⟨17, _⟩ => ⟨S1024x64, .f32⟩
  | .local _ .vmem, ⟨18, _⟩ => ⟨S1024x1, .f32⟩
  | .local _ .vmem, ⟨19, _⟩ => ⟨S1024x1, .f32⟩
  | .local _ .vmem, ⟨20, _⟩ => ⟨S1024x64, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S1024x128, .f32⟩
  | .local _ .vmem, ⟨25, _⟩ => ⟨S1024x128, .f32⟩
  | .local _ .vmem, ⟨26, _⟩ => ⟨S1024x64, .f32⟩
  | .local _ .vmem, ⟨27, _⟩ => ⟨S1024x64, .f32⟩
  | .local _ .vmem, ⟨28, _⟩ => ⟨S1024x128, .f32⟩
  | .local _ .vmem, ⟨29, _⟩ => ⟨S1024x128, .f32⟩
  | .local _ .vmem, ⟨30, _⟩ => ⟨S1024x1024, .f32⟩
  | .local _ .vmem, ⟨31, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_7 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S8192x128 : S_.BroadcastsInDim S8192x128 (![] : Fin 0 → Fin S8192x128.rank)
  inb_S1024x128_S1024x128_0_0 : ∀ a, (![0, 0] : Fin 2 → Nat) a + S1024x128.size a ≤ S1024x128.size a
  h_S1024x128 : 0 < S1024x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x64_S1024x64_0_0 : ∀ a, (![0, 0] : Fin 2 → Nat) a + S1024x64.size a ≤ S1024x64.size a
  h_S1024x64 : 0 < S1024x64.numel
  bcast_S8192_S8192x1_0 : S8192.BroadcastsInDim S8192x1 (![0] : Fin 1 → Fin S8192x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x64_S1024x64 : S1024x64.ShapeCasts S1024x64
  broadcasts_S1024x1_S1024x64 : S1024x1.Broadcasts S1024x64
  reducesTo_S8192x64_S64_d0 : S8192x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S8192x64_0_1 : S1x64.BroadcastsInDim S8192x64 (![0, 1] : Fin 2 → Fin S8192x64.rank)
  bitsLt_bf16_f32 : FTy.bits .bf16 < FTy.bits .f32
  transposes_S1024x64_p1_0_S64x1024 : S1024x64.Transposes [1, 0] S64x1024
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S1024x128_S128x64_S1024x64_1_0_0_1_n_n_wf : DotDims.WF S1024x128 S128x64 S1024x64 [1] [0] [0] [1] [] []
  dot_S1024x128_S128x128_S1024x128_1_0_0_1_n_n_wf : DotDims.WF S1024x128 S128x128 S1024x128 [1] [0] [0] [1] [] []
  dot_S1024x64_S64x1024_S1024x1024_1_0_0_1_n_n_wf : DotDims.WF S1024x64 S64x1024 S1024x1024 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S8192x64.size a
  hwx0_6 : ∀ i : grid0.Coords, EltTy.bits .f32 = 32 ∨ (Rect.block (s := S8192x64) S1024x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x128.size a
  hwx0_7 : ∀ i : grid0.Coords, EltTy.bits .f32 = 32 ∨ (Rect.block (s := S8192x128) S1024x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .f32 = 32 ∨ (Rect.block (s := S8192x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S8192x64.size a
  hwx1_5 : ∀ i : grid1.Coords, EltTy.bits .f32 = 32 ∨ (Rect.block (s := S8192x64) S1024x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S8192x64.size a
  hwx2_2 : ∀ i : grid2.Coords, EltTy.bits .f32 = 32 ∨ (Rect.block (s := S8192x64) S1024x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x8192.size a
  hwx2_4 : ∀ i : grid2.Coords, EltTy.bits .f32 = 32 ∨ (Rect.block (s := S8192x8192) S1024x1024.size (cc2_transform_4 i) (hinb2_4 i)).WholeWords (EltTy.packing .f32)

variable [Facts₀]

def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S1024x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10_0) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S1024x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S262144 : Shape := ⟨1, ![262144]⟩
abbrev S128x64 : Shape := ⟨2, ![128, 64]⟩
abbrev S64 : Shape := ⟨1, ![64]⟩
abbrev S128x128 : Shape := ⟨2, ![128, 128]⟩
abbrev S128 : Shape := ⟨1, ![128]⟩
abbrev S8192 : Shape := ⟨1, ![8192]⟩
abbrev S8192x64 : Shape := ⟨2, ![8192, 64]⟩
abbrev S1x64 : Shape := ⟨2, ![1, 64]⟩
abbrev S_ : Shape := ⟨0, ![]⟩
abbrev S262144x1 : Shape := ⟨2, ![262144, 1]⟩
abbrev S262144x128 : Shape := ⟨2, ![262144, 128]⟩
abbrev S1x128 : Shape := ⟨2, ![1, 128]⟩
abbrev S8192x1 : Shape := ⟨2, ![8192, 1]⟩
abbrev S64x8192 : Shape := ⟨2, ![64, 8192]⟩
abbrev S128x8192 : Shape := ⟨2, ![128, 8192]⟩

abbrev nBuf : Space → Nat
  | .hbm => 115
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S262144, .i32⟩
  | .hbm, ⟨3, _⟩ => ⟨S262144, .i32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S8192, .f32⟩
  | .hbm, ⟨11, _⟩ => ⟨S64, .f32⟩
  | .hbm, ⟨12, _⟩ => ⟨S64, .f32⟩
  | .hbm, ⟨13, _⟩ => ⟨S8192x64, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x128, .f32⟩
  | .hbm, ⟨26, _⟩ => ⟨S_, .f32⟩
  | .hbm, ⟨27, _⟩ => ⟨S8192x128, .f32⟩
  | .hbm, ⟨28, _⟩ => ⟨S262144x1, .i32⟩
  | .hbm, ⟨29, _⟩ => ⟨S8192x128, .f32⟩
  | .hbm, ⟨30, _⟩ => ⟨S8192x128, .f32⟩
  | .hbm, ⟨31, _⟩ => ⟨S1x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S262144, .i32⟩
  | .hbm, ⟨44, _⟩ => ⟨S262144x1, .i32⟩
  | .hbm, ⟨45, _⟩ => ⟨S262144x128, .f32⟩
  | .hbm, ⟨46, _⟩ => ⟨S_, .f32⟩
  | .hbm, ⟨47, _⟩ => ⟨S8192x128, .f32⟩
  | .hbm, ⟨48, _⟩ => ⟨S262144x1, .i32⟩
  | .hbm, ⟨49, _⟩ => ⟨S8192x128, .f32⟩
  | .hbm, ⟨50, _⟩ => ⟨S8192x64, .f32⟩
  | .hbm, ⟨51, _⟩ => ⟨S1x64, .f32⟩
  | .hbm, ⟨52, _⟩ => ⟨S8192x64, .f32⟩
  | .hbm, ⟨53, _⟩ => ⟨S8192x64, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x64, .f32⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S8192x64, .f32⟩
  | .hbm, ⟨63, _⟩ => ⟨S64x8192, .f32⟩
  | .hbm, ⟨64, _⟩ => ⟨S8192x8192, .f32⟩
  | .hbm, ⟨65, _⟩ => ⟨S128x8192, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .i32⟩
  | .hbm, ⟨77, _⟩ => ⟨S_, .f32⟩
  | .hbm, ⟨78, _⟩ => ⟨S64, .f32⟩
  | .hbm, ⟨79, _⟩ => ⟨S1x64, .f32⟩
  | .hbm, ⟨80, _⟩ => ⟨S_, .f32⟩
  | .hbm, ⟨81, _⟩ => ⟨S1x64, .f32⟩
  | .hbm, ⟨82, _⟩ => ⟨S1x64, .f32⟩
  | .hbm, ⟨83, _⟩ => ⟨S8192x64, .f32⟩
  | .hbm, ⟨84, _⟩ => ⟨S8192x64, .f32⟩
  | .hbm, ⟨85, _⟩ => ⟨S8192x64, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S1x64, .f32⟩
  | .hbm, ⟨100, _⟩ => ⟨S8192x64, .f32⟩
  | .hbm, ⟨101, _⟩ => ⟨S8192x64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S1x64, .f32⟩
  | .hbm, ⟨107, _⟩ => ⟨S8192x64, .f32⟩
  | .hbm, ⟨108, _⟩ => ⟨S8192x64, .f32⟩
  | .hbm, ⟨109, _⟩ => ⟨S1x64, .f32⟩
  | .hbm, ⟨110, _⟩ => ⟨S8192x64, .f32⟩
  | .hbm, ⟨111, _⟩ => ⟨S8192x64, .f32⟩
  | .hbm, ⟨112, _⟩ => ⟨S1x64, .f32⟩
  | .hbm, ⟨113, _⟩ => ⟨S8192x64, .f32⟩
  | .hbm, ⟨114, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_cst : Ref sig .tc := ⟨.hbm, 34, rfl⟩
abbrev main_call0_v0 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_c_8 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_cst_3 : Ref sig .tc := ⟨.hbm, 93, rfl⟩
abbrev main_call1_v12 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_9 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S262144 : S_.BroadcastsInDim S262144 (![] : Fin 0 → Fin S262144.rank)
  bcast_S262144_S262144x1_0 : S262144.BroadcastsInDim S262144x1 (![0] : Fin 1 → Fin S262144x1.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  transposes_S8192x128_S128x8192_1_0 : S8192x128.Transposes [1, 0] S128x8192
  bcast_S_S8192x8192 : S_.BroadcastsInDim S8192x8192 (![] : Fin 0 → Fin S8192x8192.rank)
  reducesTo_S8192x64_S64_d0 : S8192x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  dot_S8192x128_S128x64_S8192x64_1_0_0_1_n_n_wf : DotDims.WF S8192x128 S128x64 S8192x64 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x128_S8192x128_1_0_0_1_n_n_wf : DotDims.WF S8192x128 S128x128 S8192x128 [1] [0] [0] [1] [] []
  dot_S8192x64_S64x8192_S8192x8192_1_0_0_1_n_n_wf : DotDims.WF S8192x64 S64x8192 S8192x8192 [1] [0] [0] [1] [] []
  dot_S8192x128_S128x8192_S8192x8192_1_0_0_1_n_n_wf : DotDims.WF S8192x128 S128x8192 S8192x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Dats.lean ====
/-
  The three kernel regions of the word-level program, as data: for each region, the block a window's array
  shows at a grid point, what the body leaves in each output window's staging buffer as a function of the
  input blocks (the body's one store per output, over the skeleton's payloads), and the pipeline's proof
  data built from them — the arrays as the region finds them, every input buffer at its block, every output
  buffer at the stored payload, nothing owed, the class invariant. Everything is a definition over the
  buffer contents `V` at the region's entry; the runs and the value lemmas are in the sibling modules.

  Region 0 (rows in blocks of 1024): outputs  x·fc_w + fc_b  and  max(ns_x·w1 + w1_b, 0).
  Region 1 (rows in blocks of 1024): output  (1 − eps)·h1 + eps·(ns_h2·w2 + w2_b).
  Region 2 (an 8 × 8 grid of 1024 × 1024 tiles): output  (h_i·h_jᵀ + x_i·x_jᵀ)·½; its row and column
  operands are the same two arrays, each read through two windows, so each window holds half of the array's share.
-/
import proofs.«117717_j23003844838035_1_alg».proof.Proof.Gen.Kernel.Launch
import proofs.«117717_j23003844838035_1_alg».proof.Proof.Gen.Kernel.Skeleton
import proofs.«117717_j23003844838035_1_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-- The buffer contents a region is entered from, per core and reference. -/
abbrev Entry (F : FTy → Type) : Type := (c : Dev nD) → (b : Ref sig .tc) → Buf (Elt F) ((c : Thread nD τ).loc b)

variable (V : Entry F)

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA_1024x128 : Rect S1024x128 := Rect.unit (s := S1024x128) ![0, 0] S1024x128.size inb_S1024x128_S1024x128_0_0
abbrev rA_128x64 : Rect S128x64 := Rect.unit (s := S128x64) ![0, 0] S128x64.size inb_S128x64_S128x64_0_0
abbrev rA_64 : Rect S64 := Rect.unit (s := S64) ![0] S64.size inb_S64_S64_0
abbrev rA_128x128 : Rect S128x128 := Rect.unit (s := S128x128) ![0, 0] S128x128.size inb_S128x128_S128x128_0_0
abbrev rA_128 : Rect S128 := Rect.unit (s := S128) ![0] S128.size inb_S128_S128_0
abbrev rA_1024x64 : Rect S1024x64 := Rect.unit (s := S1024x64) ![0, 0] S1024x64.size inb_S1024x64_S1024x64_0_0
abbrev rA_1024x1 : Rect S1024x1 := Rect.unit (s := S1024x1) ![0, 0] S1024x1.size inb_S1024x1_S1024x1_0_0
abbrev rA_1024x1024 : Rect S1024x1024 := Rect.unit (s := S1024x1024) ![0, 0] S1024x1024.size inb_S1024x1024_S1024x1024_0_0

/-- Output window 6 (h1's row block) after the body: the one store of  x_blk·fc_w + fc_b. -/
def out0_6 (x0 : Vec F S1024x128 .f32) (x2 : Vec F S128x64 .f32) (x3 : Vec F S64 .f32) : Vec F S1024x64 .f32 :=
  View.canon [⟨rA_1024x64, k0_pay1 (View.ld x0 rA_1024x128) (View.ld x2 rA_128x64) (View.ld x3 rA_64)⟩]

/-- Output window 7 (h2a's row block) after the body: the one store of  max(nsx_blk·w1 + w1_b, 0). -/
def out0_7 (x1 : Vec F S1024x128 .f32) (x4 : Vec F S128x128 .f32) (x5 : Vec F S128 .f32) : Vec F S1024x128 .f32 :=
  View.canon [⟨rA_1024x128, k0_pay2 (View.ld x1 rA_1024x128) (View.ld x4 rA_128x128) (View.ld x5 rA_128)⟩]

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Output window 5 (h's row block) after the body: the one store of  (1 − eps)·h1 + eps·(nsh_blk·w2 + w2_b). -/
def out1_5 (x0 : Vec F S1024x128 .f32) (x1 : Vec F S128x64 .f32) (x2 : Vec F S64 .f32) (x3 : Vec F S1024x64 .f32) (x4 : Vec F S1024x1 .f32) : Vec F S1024x64 .f32 :=
  View.canon [⟨rA_1024x64, k1_pay1 (View.ld x0 rA_1024x128) (View.ld x1 rA_128x64) (View.ld x2 rA_64) (View.ld x4 rA_1024x1) (View.ld x3 rA_1024x64)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-! ## Region 2 -/

/-- Window `w`'s block at point `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Output window 4 (the tile of the result) after the body: the one store of  (h_i·h_jᵀ + x_i·x_jᵀ)·½. -/
def out2_4 (x0 : Vec F S1024x64 .f32) (x1 : Vec F S1024x128 .f32) (x2 : Vec F S1024x64 .f32) (x3 : Vec F S1024x128 .f32) : Vec F S1024x1024 .f32 :=
  View.canon [⟨rA_1024x1024, k2_pay1 (View.ld x0 rA_1024x64) (View.ld x1 rA_1024x128) (View.ld x2 rA_1024x64) (View.ld x3 rA_1024x128)⟩]

/-- Region 2's proof data on core `c`: windows 0 and 2 read one array (h), windows 1 and 3 another (x); each
    of a pair holds one half of the array's share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

end Cert.Kernel.Hand

end
-- ==== Proof.K.Chain.lean ====
/-
  The contents of every unscoped buffer of the word-level program at each boundary of @main's eight segments — five
  stretches of host operations and the three kernel regions. They are a fold from the launch memory: a host
  stretch applies its operations, a region replaces its output arrays by what its write-backs leave and keeps
  everything else.
-/
import proofs.«117717_j23003844838035_1_alg».proof.Proof.K.Dats
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the neighbour sum of x): region 0's entry. -/
abbrev W1 : Dev nD → Valuation τ sig (Elt F) := fun c => StableHlo.after hostOps0 (W0 m ρ c)
abbrev V1 : Entry F := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : Entry F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the neighbour sum of h2a, eps as a column): region 1's entry. -/
abbrev W3 : Dev nD → Valuation τ sig (Elt F) := fun c => StableHlo.after hostOps1 (W2 m ρ c)
abbrev V3 : Entry F := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : Entry F := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the three stretches of the batch normalisation (the column mean, the variance, the affine tail): region 2's entry. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev V7 : Entry F := fun c b => W7 m ρ c b
/-- What region 2 leaves in its one output array. -/
abbrev res42 (c : Dev nD) : Buf (Elt F) ((c : Thread nD τ).loc main_v42) := (dat2 (V7 m ρ) c).arrAt 4 cfg2.N
/-- At region 2's exit (the return): the result array at what the pipeline leaves, every other buffer as entered. -/
def W8 (c : Dev nD) : Valuation τ sig (Elt F) :=
  Function.update (W7 m ρ c) (Proc.devRef .tc main_v42) (res42 m ρ c)
abbrev V8 : Entry F := fun c b => W8 m ρ c b
theorem W8_v42 (c : Dev nD) : W8 m ρ c (Proc.devRef .tc main_v42) = res42 m ρ c := by
  unfold W8; exact Function.update_self _ _ _
theorem W8_of_ne (c : Dev nD) (b : Ref sig .tc) (hb : b ≠ main_v42) :
    W8 m ρ c (Proc.devRef .tc b) = W7 m ρ c (Proc.devRef .tc b) := by
  unfold W8; exact Function.update_of_ne (StableHlo.devRef_ne_of_ne hb) _ _

end Cert.Kernel.Hand

end
-- ==== Proof.K.Share2.lean ====
/-
  Region 2 reads each of its two operand arrays through two windows. The unscoped buffers behind the region's
  windows are three: h, x and the result. Held whole, they are the pipeline's windowed arrays when each operand's
  ownership is halved between its row window and its column window — and conversely the five windows' holdings
  join back into the three whole buffers.
-/
import proofs.«117717_j23003844838035_1_alg».proof.Proof.K.Dats
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-- The shares region 2's proof data holds its five windows' arrays at. -/
theorem share2_0 (V : Entry F) (c : Dev nD) : (dat2 V c).share 0 = fullShare.left := by
  unfold Dat.share; rw [if_neg (by decide)]; dsimp only [dat2]
theorem share2_1 (V : Entry F) (c : Dev nD) : (dat2 V c).share 1 = fullShare.left := by
  unfold Dat.share; rw [if_neg (by decide)]; dsimp only [dat2]
theorem share2_2 (V : Entry F) (c : Dev nD) : (dat2 V c).share 2 = fullShare.right := by
  unfold Dat.share; rw [if_neg (by decide)]; dsimp only [dat2]
theorem share2_3 (V : Entry F) (c : Dev nD) : (dat2 V c).share 3 = fullShare.right := by
  unfold Dat.share; rw [if_neg (by decide)]; dsimp only [dat2]
theorem share2_4 (V : Entry F) (c : Dev nD) : (dat2 V c).share 4 = fullShare := by
  unfold Dat.share; rw [if_pos (by decide)]

variable (V : Entry F) (c : Dev nD) (V' : (b : Ref sig .tc) → Buf (Elt F) ((c : Thread nD τ).loc b))
    (G : (w : Fin cfg2.W) → Buf (Elt F) ((cfg2.win w).arr.view.loc (c : Thread nD τ)))
    (hG0 : G 0 = V' (Pipeline.arrRef spec2 0)) (hG1 : G 1 = V' (Pipeline.arrRef spec2 1)) (hG2 : G 2 = V' (Pipeline.arrRef spec2 2))
    (hG3 : G 3 = V' (Pipeline.arrRef spec2 3)) (hG4 : G 4 = V' (Pipeline.arrRef spec2 4))

include hG0 in
/-- Each window's holding, spelt over its buffer: the whole array at the window's share. -/
theorem piece2_0 : ((cfg2.win 0).arr.view.loc (c : Thread nD τ) ↦[(cfg2.win 0).arr.view.set]{(dat2 V c).share 0} G 0 : sProp 𝕄)
    = ((c : Thread nD τ).loc main_v22 ↦{fullShare.left} V' main_v22) := by
  rw [(arr_whole2 0).set_eq_univ, share2_0 V c, hG0]
include hG1 in
theorem piece2_1 : ((cfg2.win 1).arr.view.loc (c : Thread nD τ) ↦[(cfg2.win 1).arr.view.set]{(dat2 V c).share 1} G 1 : sProp 𝕄)
    = ((c : Thread nD τ).loc main_arg0 ↦{fullShare.left} V' main_arg0) := by
  rw [(arr_whole2 1).set_eq_univ, share2_1 V c, hG1]
include hG2 in
theorem piece2_2 : ((cfg2.win 2).arr.view.loc (c : Thread nD τ) ↦[(cfg2.win 2).arr.view.set]{(dat2 V c).share 2} G 2 : sProp 𝕄)
    = ((c : Thread nD τ).loc main_v22 ↦{fullShare.right} V' main_v22) := by
  rw [(arr_whole2 2).set_eq_univ, share2_2 V c, hG2]
include hG3 in
theorem piece2_3 : ((cfg2.win 3).arr.view.loc (c : Thread nD τ) ↦[(cfg2.win 3).arr.view.set]{(dat2 V c).share 3} G 3 : sProp 𝕄)
    = ((c : Thread nD τ).loc main_arg0 ↦{fullShare.right} V' main_arg0) := by
  rw [(arr_whole2 3).set_eq_univ, share2_3 V c, hG3]
include hG4 in
theorem piece2_4 : ((cfg2.win 4).arr.view.loc (c : Thread nD τ) ↦[(cfg2.win 4).arr.view.set]{(dat2 V c).share 4} G 4 : sProp 𝕄)
    = ((c : Thread nD τ).loc main_v42 ↦{fullShare} V' main_v42) := by
  rw [(arr_whole2 4).set_eq_univ, share2_4 V c, hG4]

include hG0 hG1 hG2 hG3 hG4 in
/-- The five windows' holdings as one chain over the three buffers. -/
theorem arrays2_eq : ((dat2 V c).arrays G : sProp 𝕄)
    = iprop(((c : Thread nD τ).loc main_v22 ↦{fullShare.left} V' main_v22) ∗ ((c : Thread nD τ).loc main_arg0 ↦{fullShare.left} V' main_arg0)
      ∗ ((c : Thread nD τ).loc main_v22 ↦{fullShare.right} V' main_v22) ∗ ((c : Thread nD τ).loc main_arg0 ↦{fullShare.right} V' main_arg0)
      ∗ ((c : Thread nD τ).loc main_v42 ↦{fullShare} V' main_v42)) := by
  unfold Dat.arrays
  rw [bigSep_W2]
  exact congrArg₂ _ (piece2_0 V c V' G hG0) (congrArg₂ _ (piece2_1 V c V' G hG1) (congrArg₂ _ (piece2_2 V c V' G hG2)
    (congrArg₂ _ (piece2_3 V c V' G hG3) (piece2_4 V c V' G hG4))))

/-- The three buffers behind the windows, whole. -/
theorem arrBufs2_eq : (Pipeline.arrBufs spec2 c V' : sProp 𝕄)
    = iprop(((c : Thread nD τ).loc main_v22 ↦{fullShare} V' main_v22) ∗ ((c : Thread nD τ).loc main_arg0 ↦{fullShare} V' main_arg0)
      ∗ ((c : Thread nD τ).loc main_v42 ↦{fullShare} V' main_v42)) := by
  unfold Pipeline.arrBufs
  rw [bigSep_eq_bigSepL_of_eq [main_v22, main_arg0, main_v42] (by decide) (by decide)]
  rfl

include hG0 hG1 hG2 hG3 hG4 in
/-- Entry: the whole buffers halve into the windows' holdings. -/
theorem arrays2_of_bufs : (Pipeline.arrBufs spec2 c V' : sProp 𝕄) ⊢ (dat2 V c).arrays G := by
  rw [arrays2_eq V c V' G hG0 hG1 hG2 hG3 hG4, arrBufs2_eq c V']
  iintro ⟨Hh, Hx, Ho⟩
  ihave Hh' := (pointsTo_share (PosShare.mem_left_op_right fullShare)).1 $$ Hh
  icases Hh' with ⟨Hh1, Hh2⟩
  ihave Hx' := (pointsTo_share (PosShare.mem_left_op_right fullShare)).1 $$ Hx
  icases Hx' with ⟨Hx1, Hx2⟩
  isplitl [Hh1]; · iexact Hh1
  isplitl [Hx1]; · iexact Hx1
  isplitl [Hh2]; · iexact Hh2
  isplitl [Hx2]; · iexact Hx2
  iexact Ho

include hG0 hG1 hG2 hG3 hG4 in
/-- Exit: the windows' holdings join into the whole buffers. -/
theorem bufs_of_arrays2 : ((dat2 V c).arrays G : sProp 𝕄) ⊢ Pipeline.arrBufs spec2 c V' := by
  rw [arrays2_eq V c V' G hG0 hG1 hG2 hG3 hG4, arrBufs2_eq c V']
  iintro ⟨Hh1, Hx1, Hh2, Hx2, Ho⟩
  isplitl [Hh1 Hh2]
  · iapply (pointsTo_share (PosShare.mem_left_op_right fullShare)).2
    isplitl [Hh1]; · iexact Hh1
    iexact Hh2
  isplitl [Hx1 Hx2]
  · iapply (pointsTo_share (PosShare.mem_left_op_right fullShare)).2
    isplitl [Hx1]; · iexact Hx1
    iexact Hx2
  iexact Ho

end Cert.Kernel.Hand

end
-- ==== Proof.K.Body0.lean ====
/-
  Region 0's kernel body. Run on whole staging buffers — the six input buffers reading their blocks, the two output
  buffers holding anything — it returns the inputs as they were and each output at its one store's payload over
  the loaded inputs:  x_blk·fc_w + fc_b  in window 6,  max(nsx_blk·w1 + w1_b, 0)  in window 7. At a grid point of
  the pipeline every input buffer holds its block (the weights and biases, fetched at the first point only, still
  hold theirs), which gives the body obligation of the region's proof data.
-/
import proofs.«117717_j23003844838035_1_alg».proof.Proof.K.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-buffer rectangle of these extents is looked up structurally, one step per coordinate of
-- the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input windows' buffers at a point -/

/-- Input window 0's current staging buffer holds its block at every point, whether the pipeline fetched it
    there or not (unfetched, the block index has not moved since the fetch), for any proof data over the entry
    contents `V` whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, whether the pipeline fetched it
    there or not (unfetched, the block index has not moved since the fetch), for any proof data over the entry
    contents `V` whose body leaves the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, whether the pipeline fetched it
    there or not (unfetched, the block index has not moved since the fetch), for any proof data over the entry
    contents `V` whose body leaves the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point, whether the pipeline fetched it
    there or not (unfetched, the block index has not moved since the fetch), for any proof data over the entry
    contents `V` whose body leaves the block in place; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point, whether the pipeline fetched it
    there or not (unfetched, the block index has not moved since the fetch), for any proof data over the entry
    contents `V` whose body leaves the block in place; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_4 (c : Dev nD) (t : Fin cfg0.N) (d) : (dat0 V c).before 4 t d = iblk0 V c 4 t :=
  before0_4_of V (dat0 V c) (A_eq0 V c 4) (after0_4 V c) t d

/-- Input window 5's current staging buffer holds its block at every point, whether the pipeline fetched it
    there or not (unfetched, the block index has not moved since the fetch), for any proof data over the entry
    contents `V` whose body leaves the block in place; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_5 (c : Dev nD) (t : Fin cfg0.N) (d) : (dat0 V c).before 5 t d = iblk0 V c 5 t :=
  before0_5_of V (dat0 V c) (A_eq0 V c 5) (after0_5 V c) t d

/-! ## The body's stores cover the output buffers -/

/-- Output window 6's one store is through the whole-buffer rectangle, which tiles the buffer (one tile), so it
    covers it. -/
theorem storeCover0_6 (p0 : Vec F S1024x64 .f32) (y : S1024x64.Idx) :
    ∃ pc ∈ ([⟨rA_1024x64, p0⟩] : List (View.Piece (Elt F) S1024x64 .f32)), y ∈ pc.1.set :=
  View.cover_of_tiled [⟨rA_1024x64, p0⟩] S1024x64.size (by rfl) y

/-- Output window 7's one store is through the whole-buffer rectangle, which tiles the buffer (one tile), so it
    covers it. -/
theorem storeCover0_7 (p0 : Vec F S1024x128 .f32) (y : S1024x128.Idx) :
    ∃ pc ∈ ([⟨rA_1024x128, p0⟩] : List (View.Piece (Elt F) S1024x128 .f32)), y ∈ pc.1.set :=
  View.cover_of_tiled [⟨rA_1024x128, p0⟩] S1024x128.size (by rfl) y

/-! ## The body's triple -/

set_option maxHeartbeats 1000000 in
/-- The kernel body on whole staging buffers, the inputs' reading `x_w` and the outputs' holding anything, runs to
    the continuation with the inputs' as they were and each output's at its store's payload over the loaded inputs
    (`out0_w`). The function is its skeleton of loads and stores over the named payloads; the loads read the
    buffers' contents through the whole-buffer rectangle, the load of an output buffer before its store reads a
    value nothing uses, and a buffer written whole reads as the canonical contents of its one piece. -/
theorem sound_kernel0 (c : Dev nD) (E : Set ℕ) (i : grid0.Coords) (arg1 : Memref sig .tc .vmem S1024x128 .f32) (harg1 : arg1.IsWhole) (arg2 : Memref sig .tc .vmem S1024x128 .f32) (harg2 : arg2.IsWhole) (arg3 : Memref sig .tc .vmem S128x64 .f32) (harg3 : arg3.IsWhole) (arg4 : Memref sig .tc .vmem S64 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1024x64 .f32) (harg7 : arg7.IsWhole) (arg8 : Memref sig .tc .vmem S1024x128 .f32) (harg8 : arg8.IsWhole)
    (x0 : Vec F S1024x128 .f32) (x1 : Vec F S1024x128 .f32) (x2 : Vec F S128x64 .f32) (x3 : Vec F S64 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x2 x3) ∗ owns (c : Thread nD τ) arg8 fullShare (out0_7 x1 x4 x5)) -∗ K ⟨⟩))
      ⊢ wp frame (wpE (defs₀ (F := F)) Variants.none c none) E (cc0__kernelA i arg1 harg1 arg2 harg2 arg3 harg3 arg4 harg4 arg5 harg5 arg6 harg6 arg7 harg7 arg8 harg8) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (storeCover0_6 _)
  iexists _; isplitr
  swap; · iexact H7
  ipureintro
  exact View.read_writes_eq_canon _ _ _ (storeCover0_7 _)

/-! ## The body obligation, at a generic point -/

/-- What the body is called with at point `t`: the class invariant, what the core owes, and every window's current
    staging buffer, whole, at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same, every buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks (`before0_w`), so the body's triple applies at the
    blocks; the invariant and what the core owes do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation for region 0's proof data, at every point: the windows conjoined one by one. -/
theorem body_obligation0 (V : Entry F) (c : Dev nD) : Pipeline.BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1's kernel body. Run on whole staging buffers — the five input buffers reading their blocks, the output
  buffer holding anything — it returns the inputs as they were and the output at its one store's payload over the
  loaded inputs:  (1 − eps)·h1_blk + eps·(nsh_blk·w2 + w2_b)  in window 5. At a grid point of the pipeline every
  input buffer holds its block (the weight and the bias, fetched at the first point only, still hold theirs),
  which gives the body obligation of the region's proof data.
-/
import proofs.«117717_j23003844838035_1_alg».proof.Proof.K.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-buffer rectangle of these extents is looked up structurally, one step per coordinate of
-- the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input windows' buffers at a point -/

/-- Input window 0's current staging buffer holds its block at every point, whether the pipeline fetched it
    there or not (unfetched, the block index has not moved since the fetch), for any proof data over the entry
    contents `V` whose body leaves the block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, whether the pipeline fetched it
    there or not (unfetched, the block index has not moved since the fetch), for any proof data over the entry
    contents `V` whose body leaves the block in place; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, whether the pipeline fetched it
    there or not (unfetched, the block index has not moved since the fetch), for any proof data over the entry
    contents `V` whose body leaves the block in place; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, whether the pipeline fetched it
    there or not (unfetched, the block index has not moved since the fetch), for any proof data over the entry
    contents `V` whose body leaves the block in place; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, whether the pipeline fetched it
    there or not (unfetched, the block index has not moved since the fetch), for any proof data over the entry
    contents `V` whose body leaves the block in place; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_4 (c : Dev nD) (t : Fin cfg1.N) (d) : (dat1 V c).before 4 t d = iblk1 V c 4 t :=
  before1_4_of V (dat1 V c) (A_eq1 V c 4) (after1_4 V c) t d

/-! ## The body's stores cover the output buffers -/

/-- Output window 5's one store is through the whole-buffer rectangle, which tiles the buffer (one tile), so it
    covers it. -/
theorem storeCover1_5 (p0 : Vec F S1024x64 .f32) (y : S1024x64.Idx) :
    ∃ pc ∈ ([⟨rA_1024x64, p0⟩] : List (View.Piece (Elt F) S1024x64 .f32)), y ∈ pc.1.set :=
  View.cover_of_tiled [⟨rA_1024x64, p0⟩] S1024x64.size (by rfl) y

/-! ## The body's triple -/

set_option maxHeartbeats 1000000 in
/-- The kernel body on whole staging buffers, the inputs' reading `x_w` and the outputs' holding anything, runs to
    the continuation with the inputs' as they were and each output's at its store's payload over the loaded inputs
    (`out1_w`). The function is its skeleton of loads and stores over the named payloads; the loads read the
    buffers' contents through the whole-buffer rectangle, the load of an output buffer before its store reads a
    value nothing uses, and a buffer written whole reads as the canonical contents of its one piece. -/
theorem sound_kernel1 (c : Dev nD) (E : Set ℕ) (i : grid1.Coords) (arg1 : Memref sig .tc .vmem S1024x128 .f32) (harg1 : arg1.IsWhole) (arg2 : Memref sig .tc .vmem S128x64 .f32) (harg2 : arg2.IsWhole) (arg3 : Memref sig .tc .vmem S64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole)
    (x0 : Vec F S1024x128 .f32) (x1 : Vec F S128x64 .f32) (x2 : Vec F S64 .f32) (x3 : Vec F S1024x64 .f32) (x4 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__kernelB i arg1 harg1 arg2 harg2 arg3 harg3 arg4 harg4 arg5 harg5 arg6 harg6) K := by
  simp only [cc1__kernelB_eq_skeleton]; unfold cc1__kernelB_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCover1_5 _)

/-! ## The body obligation, at a generic point -/

/-- What the body is called with at point `t`: the class invariant, what the core owes, and every window's current
    staging buffer, whole, at what it then holds; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same, every buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks (`before1_w`), so the body's triple applies at the
    blocks; the invariant and what the core owes do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for region 1's proof data, at every point: the windows conjoined one by one. -/
theorem body_obligation1 (V : Entry F) (c : Dev nD) : Pipeline.BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2's kernel body. Run on whole staging buffers — the four input buffers reading their blocks (the row
  blocks h_i, x_i and the column blocks h_j, x_j), the output buffer holding anything — it returns the inputs as
  they were and the output at its one store's payload over the loaded inputs:  (h_i·h_jᵀ + x_i·x_jᵀ)·½  in
  window 4. At a grid point of the pipeline every input buffer holds its block (a row block, fetched once per row
  of the grid, still holds it along the row), which gives the body obligation of the region's proof data. The
  staging buffers are held whole; that two windows read one array shows only in the arrays' shares, which the
  body does not touch.
-/
import proofs.«117717_j23003844838035_1_alg».proof.Proof.K.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-buffer rectangle of these extents is looked up structurally, one step per coordinate of
-- the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input windows' buffers at a point -/

/-- Input window 0's current staging buffer holds its block at every point, whether the pipeline fetched it
    there or not (unfetched, the block index has not moved since the fetch), for any proof data over the entry
    contents `V` whose body leaves the block in place; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

/-- Input window 1's current staging buffer holds its block at every point, whether the pipeline fetched it
    there or not (unfetched, the block index has not moved since the fetch), for any proof data over the entry
    contents `V` whose body leaves the block in place; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

/-- Input window 2's current staging buffer holds its block at every point, whether the pipeline fetched it
    there or not (unfetched, the block index has not moved since the fetch), for any proof data over the entry
    contents `V` whose body leaves the block in place; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

/-- Input window 3's current staging buffer holds its block at every point, whether the pipeline fetched it
    there or not (unfetched, the block index has not moved since the fetch), for any proof data over the entry
    contents `V` whose body leaves the block in place; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_3 (c : Dev nD) (t : Fin cfg2.N) (d) : (dat2 V c).before 3 t d = iblk2 V c 3 t :=
  before2_3_of V (dat2 V c) (A_eq2 V c 3) (after2_3 V c) t d

/-! ## The body's stores cover the output buffers -/

/-- Output window 4's one store is through the whole-buffer rectangle, which tiles the buffer (one tile), so it
    covers it. -/
theorem storeCover2_4 (p0 : Vec F S1024x1024 .f32) (y : S1024x1024.Idx) :
    ∃ pc ∈ ([⟨rA_1024x1024, p0⟩] : List (View.Piece (Elt F) S1024x1024 .f32)), y ∈ pc.1.set :=
  View.cover_of_tiled [⟨rA_1024x1024, p0⟩] S1024x1024.size (by rfl) y

/-! ## The body's triple -/

set_option maxHeartbeats 1000000 in
/-- The kernel body on whole staging buffers, the inputs' reading `x_w` and the outputs' holding anything, runs to
    the continuation with the inputs' as they were and each output's at its store's payload over the loaded inputs
    (`out2_w`). The function is its skeleton of loads and stores over the named payloads; the loads read the
    buffers' contents through the whole-buffer rectangle, the load of an output buffer before its store reads a
    value nothing uses, and a buffer written whole reads as the canonical contents of its one piece. -/
theorem sound_kernel2 (c : Dev nD) (E : Set ℕ) (i : grid2.Coords) (arg2 : Memref sig .tc .vmem S1024x64 .f32) (harg2 : arg2.IsWhole) (arg3 : Memref sig .tc .vmem S1024x128 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole)
    (x0 : Vec F S1024x64 .f32) (x1 : Vec F S1024x128 .f32) (x2 : Vec F S1024x64 .f32) (x3 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__kernelC i arg2 harg2 arg3 harg3 arg4 harg4 arg5 harg5 arg6 harg6) K := by
  simp only [cc2__kernelC_eq_skeleton]; unfold cc2__kernelC_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (storeCover2_4 _)

/-! ## The body obligation, at a generic point -/

/-- What the body is called with at point `t`: the class invariant, what the core owes, and every window's current
    staging buffer, whole, at what it then holds; -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: the same, every buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks (`before2_w`), so the body's triple applies at the
    blocks; the invariant and what the core owes do not depend on the point and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation for region 2's proof data, at every point: the windows conjoined one by one. -/
theorem body_obligation2 (V : Entry F) (c : Dev nD) : Pipeline.BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the word-level program: @main as eight segments — five stretches of host operations and the three
  kernel regions — from the launch memory to the return. Each region is a record around the thread state "every
  unscoped buffer at the boundary's contents, the generator register at some state, nothing owed": its arrays are
  split out of the unscoped buffers at entry and put back at exit. In region 2 the row and the column operand are
  windows onto ONE array (h, and likewise x): at entry that array's ownership is halved between its two windows,
  and at exit the halves are joined again.
  The result: every weakly fair execution terminates, nothing faults, and every unscoped buffer ends at the last
  boundary's contents.
-/
import proofs.«117717_j23003844838035_1_alg».proof.Proof.K.Chain
import proofs.«117717_j23003844838035_1_alg».proof.Proof.K.Share2
import proofs.«117717_j23003844838035_1_alg».proof.Proof.K.Body0
import proofs.«117717_j23003844838035_1_alg».proof.Proof.K.Body1
import proofs.«117717_j23003844838035_1_alg».proof.Proof.K.Body2
import proofs.«117717_j23003844838035_1_alg».proof.Proof.Gen.Kernel.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W8 m ρ c) ∗ ∃ r, prngReg c r)

/-! ## The regions as segments -/

set_option maxHeartbeats 2000000 in
set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2: one array behind two windows -/

/-- At region 2's exit every window's array holds what the last boundary says: the result what the write-backs leave,
    an operand what it held at entry. -/
theorem hF2_0 (c : Dev nD) : (dat2 (V7 m ρ) c).arrAt 0 cfg2.N = V8 m ρ c (Pipeline.arrRef spec2 0) :=
  ((dat2 (V7 m ρ) c).arrAt_in 0 rfl _).trans (W8_of_ne m ρ c main_v22 (by decide)).symm
theorem hF2_1 (c : Dev nD) : (dat2 (V7 m ρ) c).arrAt 1 cfg2.N = V8 m ρ c (Pipeline.arrRef spec2 1) :=
  ((dat2 (V7 m ρ) c).arrAt_in 1 rfl _).trans (W8_of_ne m ρ c main_arg0 (by decide)).symm
theorem hF2_2 (c : Dev nD) : (dat2 (V7 m ρ) c).arrAt 2 cfg2.N = V8 m ρ c (Pipeline.arrRef spec2 2) :=
  ((dat2 (V7 m ρ) c).arrAt_in 2 rfl _).trans (W8_of_ne m ρ c main_v22 (by decide)).symm
theorem hF2_3 (c : Dev nD) : (dat2 (V7 m ρ) c).arrAt 3 cfg2.N = V8 m ρ c (Pipeline.arrRef spec2 3) :=
  ((dat2 (V7 m ρ) c).arrAt_in 3 rfl _).trans (W8_of_ne m ρ c main_arg0 (by decide)).symm
theorem hF2_4 (c : Dev nD) : (dat2 (V7 m ρ) c).arrAt 4 cfg2.N = V8 m ρ c (Pipeline.arrRef spec2 4) :=
  (W8_v42 m ρ c).symm
theorem hrest2 (c : Dev nD) : ∀ b, b ∉ Finset.univ.image (Pipeline.arrRef spec2) → V8 m ρ c b = V7 m ρ c b :=
  fun b hb => W8_of_ne m ρ c b fun e => hb (Finset.mem_image.mpr ⟨4, Finset.mem_univ _, e.symm⟩)

set_option maxHeartbeats 2000000 in
set_option backward.isDefEq.respectTransparency.types false in
/-- Region 2 over the thread state: entered from every unscoped buffer at `W7`, left at `W8` (what the launch reads
    at the end). The three buffers behind its five windows are split out of the unscoped buffers, each operand's
    ownership halved between its two windows; at the exit the halves are joined and the buffers put back. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hub := Pipeline.unscopedBufs_split₀ (Ix := Unit) (Name := ℕ) (U := UR sig nD τ) (Lvl := ℕ) (Val := Elt F) cfgs 2
      winFacts₀2.arr_unscoped c (V7 m ρ c)
    rw [Pipeline.unscopedBufs_held] at hub
    have harr : (Pipeline.arrBufs spec2 c (V7 m ρ c) : sProp 𝕄) ⊢ (pdats m ρ 2 c).arrays ((pdats m ρ 2 c).arrAt · 0) :=
      arrays2_of_bufs (V7 m ρ) c (V7 m ρ c) ((dat2 (V7 m ρ) c).arrAt · 0) rfl rfl rfl rfl rfl
    iintro ⟨⟨Hub, Hp, HO⟩, -, -⟩
    ihave H := (Entails.of_eq hub) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) (Val := Elt F) cfgs 2
      winFacts₀2.arr_unscoped c (V8 m ρ c)
    rw [Pipeline.unscopedBufs_held] at hub
    have hbufs : ((pdats m ρ 2 c).arrays ((pdats m ρ 2 c).arrAt · (Pipeline.pin (pcfgs (F := F)) adm 2).N) : sProp 𝕄)
        ⊢ Pipeline.arrBufs spec2 c (V8 m ρ c) :=
      bufs_of_arrays2 (V7 m ρ) c (V8 m ρ c) ((dat2 (V7 m ρ) c).arrAt · cfg2.N) (hF2_0 m ρ c) (hF2_1 m ρ c) (hF2_2 m ρ c) (hF2_3 m ρ c) (hF2_4 m ρ c)
    have hrest : (Pipeline.unscopedRest (Ix := Unit) (Name := ℕ) (U := UR sig nD τ) (Lvl := ℕ) spec2 c (V7 m ρ c) : sProp 𝕄)
        = Pipeline.unscopedRest spec2 c (V8 m ρ c) := by
      unfold Pipeline.unscopedRest
      exact bigSep_congr fun b hb => by rw [hrest2 m ρ c b (Finset.mem_sdiff.mp hb).2]
    iintro ⟨Ha, HO, HY, Hrest⟩
    ihave Hb := hbufs $$ Ha
    ihave Hrest' := (Entails.of_eq hrest) $$ Hrest
    imodintro
    isplitl [Hb Hrest' HY]
    · isplitl [Hb Hrest']
      · iapply (Entails.of_eq hub.symm); isplitl [Hb] <;> iassumption
      iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ) ]

/-- @main is the run of the segments: the printed chain of its items, item by item. -/
theorem main_run (c : Dev nD) : main (F := F) c = Pipeline.Seg.run (segs m ρ) := by
  rw [main_chain c, Pipeline.Seg.run_eq_chain]
  rfl

set_option backward.isDefEq.respectTransparency.types false in
/-- THE RUN. From any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.Kernel.Hand

end
-- ==== Proof.K.Args.lean ====
/-
  No segment of @main changes an argument: the word-level program's thirteen argument arrays hold their launch
  contents at the return. A host stretch keeps every reference it does not write; a kernel region keeps every
  array that is not one of its output windows' (an input window's array is never written back; any other
  buffer is not touched at all). Stated as lemmas for any reference, so that the same steps also carry the
  intermediate arrays from where they are made to where they are read.
-/
import proofs.«117717_j23003844838035_1_alg».proof.Proof.K.Chain
import proofs.«117717_j23003844838035_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each segment keeps -/

/-- The launch contents are the memory's. -/
theorem W0_eq (c : Dev nD) (b : Ref sig .tc) : W0 m ρ c (Proc.devRef .tc b) = m ((c : Thread nD τ).loc b) := rfl

/-- The first host stretch keeps a reference it does not write. -/
theorem W1_keep (c : Dev nD) (b : Ref sig .tc) (h : b ∉ (hostOps0_W : List (Ref sig .tc))) :
    W1 m ρ c (Proc.devRef .tc b) = W0 m ρ c (Proc.devRef .tc b) :=
  StableHlo.after_of_writes_sub hostOps0 _ hostOps0_writes h

/-- Region 0's output windows' arrays are `main_v10_0` and `main_v10_1`. -/
theorem out0_refs : ∀ w : Fin cfg0.W, (cfg0.win w).isOut = true →
    Pipeline.arrRef spec0 w = main_v10_0 ∨ Pipeline.arrRef spec0 w = main_v10_1 := by decide

/-- Region 0 keeps every buffer but its two output arrays: an input window's array is never written back, and a
    buffer that is no window's array is not touched. -/
theorem W2_keep (c : Dev nD) (b : Ref sig .tc) (h6 : b ≠ main_v10_0) (h7 : b ≠ main_v10_1) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true =>
        rcases out0_refs w hw with e | e
        · exact absurd e h6
        · exact absurd e h7
    exact (W2_arr m ρ c w).trans (((dat0 (V1 m ρ) c).arrAt_in w hin _).trans (A_eq0 (V1 m ρ) c w))
  · exact W2_of_ne m ρ c b fun w e => h ⟨w, e⟩

/-- The second host stretch keeps a reference it does not write. -/
theorem W3_keep (c : Dev nD) (b : Ref sig .tc) (h : b ∉ (hostOps1_W : List (Ref sig .tc))) :
    W3 m ρ c (Proc.devRef .tc b) = W2 m ρ c (Proc.devRef .tc b) :=
  StableHlo.after_of_writes_sub hostOps1 _ hostOps1_writes h

/-- Region 1's output window's array is `main_v22`. -/
theorem out1_refs : ∀ w : Fin cfg1.W, (cfg1.win w).isOut = true → Pipeline.arrRef spec1 w = main_v22 := by decide

/-- Region 1 keeps every buffer but its output array. -/
theorem W4_keep (c : Dev nD) (b : Ref sig .tc) (h : b ≠ main_v22) :
    W4 m ρ c (Proc.devRef .tc b) = W3 m ρ c (Proc.devRef .tc b) := by
  by_cases hb : ∃ w, Pipeline.arrRef spec1 w = b
  · obtain ⟨w, rfl⟩ := hb
    have hin : (cfg1.win w).isOut = false := by
      cases hw : (cfg1.win w).isOut with
      | false => rfl
      | true => exact absurd (out1_refs w hw) h
    exact (W4_arr m ρ c w).trans (((dat1 (V3 m ρ) c).arrAt_in w hin _).trans (A_eq1 (V3 m ρ) c w))
  · exact W4_of_ne m ρ c b fun w e => hb ⟨w, e⟩

/-- The three host stretches of the batch normalisation keep a reference none of them writes. -/
theorem W7_keep (c : Dev nD) (b : Ref sig .tc) (h2 : b ∉ (hostOps2_W : List (Ref sig .tc)))
    (h21 : b ∉ (hostOps2_1_W : List (Ref sig .tc))) (h22 : b ∉ (hostOps2_2_W : List (Ref sig .tc))) :
    W7 m ρ c (Proc.devRef .tc b) = W4 m ρ c (Proc.devRef .tc b) :=
  (StableHlo.after_of_writes_sub hostOps2_2 _ hostOps2_2_writes h22).trans <|
    (StableHlo.after_of_writes_sub hostOps2_1 _ hostOps2_1_writes h21).trans
      (StableHlo.after_of_writes_sub hostOps2 _ hostOps2_writes h2)

/-! ## A reference nothing before a boundary writes holds its launch contents there -/

theorem W1_launch (c : Dev nD) (b : Ref sig .tc) (h0 : b ∉ (hostOps0_W : List (Ref sig .tc))) :
    W1 m ρ c (Proc.devRef .tc b) = m ((c : Thread nD τ).loc b) :=
  (W1_keep m ρ c b h0).trans (W0_eq m ρ c b)

theorem W2_launch (c : Dev nD) (b : Ref sig .tc) (h0 : b ∉ (hostOps0_W : List (Ref sig .tc)))
    (h6 : b ≠ main_v10_0) (h7 : b ≠ main_v10_1) : W2 m ρ c (Proc.devRef .tc b) = m ((c : Thread nD τ).loc b) :=
  (W2_keep m ρ c b h6 h7).trans (W1_launch m ρ c b h0)

theorem W3_launch (c : Dev nD) (b : Ref sig .tc) (h0 : b ∉ (hostOps0_W : List (Ref sig .tc)))
    (h6 : b ≠ main_v10_0) (h7 : b ≠ main_v10_1) (h1 : b ∉ (hostOps1_W : List (Ref sig .tc))) :
    W3 m ρ c (Proc.devRef .tc b) = m ((c : Thread nD τ).loc b) :=
  (W3_keep m ρ c b h1).trans (W2_launch m ρ c b h0 h6 h7)

theorem W4_launch (c : Dev nD) (b : Ref sig .tc) (h0 : b ∉ (hostOps0_W : List (Ref sig .tc)))
    (h6 : b ≠ main_v10_0) (h7 : b ≠ main_v10_1) (h1 : b ∉ (hostOps1_W : List (Ref sig .tc))) (h22 : b ≠ main_v22) :
    W4 m ρ c (Proc.devRef .tc b) = m ((c : Thread nD τ).loc b) :=
  (W4_keep m ρ c b h22).trans (W3_launch m ρ c b h0 h6 h7 h1)

theorem W7_launch (c : Dev nD) (b : Ref sig .tc) (h0 : b ∉ (hostOps0_W : List (Ref sig .tc)))
    (h6 : b ≠ main_v10_0) (h7 : b ≠ main_v10_1) (h1 : b ∉ (hostOps1_W : List (Ref sig .tc))) (h22 : b ≠ main_v22)
    (h2 : b ∉ (hostOps2_W : List (Ref sig .tc))) (h21 : b ∉ (hostOps2_1_W : List (Ref sig .tc)))
    (h2' : b ∉ (hostOps2_2_W : List (Ref sig .tc))) : W7 m ρ c (Proc.devRef .tc b) = m ((c : Thread nD τ).loc b) :=
  (W7_keep m ρ c b h2 h21 h2').trans (W4_launch m ρ c b h0 h6 h7 h1 h22)

/-! ## The arguments at the return -/

/-- `main_arg0` reaches the return as launched. -/
theorem W8_main_arg0 (c : Dev nD) : W8 m ρ c (Proc.devRef .tc main_arg0) = m ((c : Thread nD τ).loc main_arg0) :=
  (W8_of_ne m ρ c main_arg0 (by decide)).trans <| (W7_keep m ρ c main_arg0 (by decide) (by decide) (by decide)).trans <|
    (W4_keep m ρ c main_arg0 (by decide)).trans <| (W3_keep m ρ c main_arg0 (by decide)).trans <|
    (W2_keep m ρ c main_arg0 (by decide) (by decide)).trans <| (W1_keep m ρ c main_arg0 (by decide)).trans (W0_eq m ρ c main_arg0)

/-- `main_arg1` reaches the return as launched. -/
theorem W8_main_arg1 (c : Dev nD) : W8 m ρ c (Proc.devRef .tc main_arg1) = m ((c : Thread nD τ).loc main_arg1) :=
  (W8_of_ne m ρ c main_arg1 (by decide)).trans <| (W7_keep m ρ c main_arg1 (by decide) (by decide) (by decide)).trans <|
    (W4_keep m ρ c main_arg1 (by decide)).trans <| (W3_keep m ρ c main_arg1 (by decide)).trans <|
    (W2_keep m ρ c main_arg1 (by decide) (by decide)).trans <| (W1_keep m ρ c main_arg1 (by decide)).trans (W0_eq m ρ c main_arg1)

/-- `main_arg2` reaches the return as launched. -/
theorem W8_main_arg2 (c : Dev nD) : W8 m ρ c (Proc.devRef .tc main_arg2) = m ((c : Thread nD τ).loc main_arg2) :=
  (W8_of_ne m ρ c main_arg2 (by decide)).trans <| (W7_keep m ρ c main_arg2 (by decide) (by decide) (by decide)).trans <|
    (W4_keep m ρ c main_arg2 (by decide)).trans <| (W3_keep m ρ c main_arg2 (by decide)).trans <|
    (W2_keep m ρ c main_arg2 (by decide) (by decide)).trans <| (W1_keep m ρ c main_arg2 (by decide)).trans (W0_eq m ρ c main_arg2)

/-- `main_arg3` reaches the return as launched. -/
theorem W8_main_arg3 (c : Dev nD) : W8 m ρ c (Proc.devRef .tc main_arg3) = m ((c : Thread nD τ).loc main_arg3) :=
  (W8_of_ne m ρ c main_arg3 (by decide)).trans <| (W7_keep m ρ c main_arg3 (by decide) (by decide) (by decide)).trans <|
    (W4_keep m ρ c main_arg3 (by decide)).trans <| (W3_keep m ρ c main_arg3 (by decide)).trans <|
    (W2_keep m ρ c main_arg3 (by decide) (by decide)).trans <| (W1_keep m ρ c main_arg3 (by decide)).trans (W0_eq m ρ c main_arg3)

/-- `main_arg4` reaches the return as launched. -/
theorem W8_main_arg4 (c : Dev nD) : W8 m ρ c (Proc.devRef .tc main_arg4) = m ((c : Thread nD τ).loc main_arg4) :=
  (W8_of_ne m ρ c main_arg4 (by decide)).trans <| (W7_keep m ρ c main_arg4 (by decide) (by decide) (by decide)).trans <|
    (W4_keep m ρ c main_arg4 (by decide)).trans <| (W3_keep m ρ c main_arg4 (by decide)).trans <|
    (W2_keep m ρ c main_arg4 (by decide) (by decide)).trans <| (W1_keep m ρ c main_arg4 (by decide)).trans (W0_eq m ρ c main_arg4)

/-- `main_arg5` reaches the return as launched. -/
theorem W8_main_arg5 (c : Dev nD) : W8 m ρ c (Proc.devRef .tc main_arg5) = m ((c : Thread nD τ).loc main_arg5) :=
  (W8_of_ne m ρ c main_arg5 (by decide)).trans <| (W7_keep m ρ c main_arg5 (by decide) (by decide) (by decide)).trans <|
    (W4_keep m ρ c main_arg5 (by decide)).trans <| (W3_keep m ρ c main_arg5 (by decide)).trans <|
    (W2_keep m ρ c main_arg5 (by decide) (by decide)).trans <| (W1_keep m ρ c main_arg5 (by decide)).trans (W0_eq m ρ c main_arg5)

/-- `main_arg6` reaches the return as launched. -/
theorem W8_main_arg6 (c : Dev nD) : W8 m ρ c (Proc.devRef .tc main_arg6) = m ((c : Thread nD τ).loc main_arg6) :=
  (W8_of_ne m ρ c main_arg6 (by decide)).trans <| (W7_keep m ρ c main_arg6 (by decide) (by decide) (by decide)).trans <|
    (W4_keep m ρ c main_arg6 (by decide)).trans <| (W3_keep m ρ c main_arg6 (by decide)).trans <|
    (W2_keep m ρ c main_arg6 (by decide) (by decide)).trans <| (W1_keep m ρ c main_arg6 (by decide)).trans (W0_eq m ρ c main_arg6)

/-- `main_arg7` reaches the return as launched. -/
theorem W8_main_arg7 (c : Dev nD) : W8 m ρ c (Proc.devRef .tc main_arg7) = m ((c : Thread nD τ).loc main_arg7) :=
  (W8_of_ne m ρ c main_arg7 (by decide)).trans <| (W7_keep m ρ c main_arg7 (by decide) (by decide) (by decide)).trans <|
    (W4_keep m ρ c main_arg7 (by decide)).trans <| (W3_keep m ρ c main_arg7 (by decide)).trans <|
    (W2_keep m ρ c main_arg7 (by decide) (by decide)).trans <| (W1_keep m ρ c main_arg7 (by decide)).trans (W0_eq m ρ c main_arg7)

/-- `main_arg8` reaches the return as launched. -/
theorem W8_main_arg8 (c : Dev nD) : W8 m ρ c (Proc.devRef .tc main_arg8) = m ((c : Thread nD τ).loc main_arg8) :=
  (W8_of_ne m ρ c main_arg8 (by decide)).trans <| (W7_keep m ρ c main_arg8 (by decide) (by decide) (by decide)).trans <|
    (W4_keep m ρ c main_arg8 (by decide)).trans <| (W3_keep m ρ c main_arg8 (by decide)).trans <|
    (W2_keep m ρ c main_arg8 (by decide) (by decide)).trans <| (W1_keep m ρ c main_arg8 (by decide)).trans (W0_eq m ρ c main_arg8)

/-- `main_arg9` reaches the return as launched. -/
theorem W8_main_arg9 (c : Dev nD) : W8 m ρ c (Proc.devRef .tc main_arg9) = m ((c : Thread nD τ).loc main_arg9) :=
  (W8_of_ne m ρ c main_arg9 (by decide)).trans <| (W7_keep m ρ c main_arg9 (by decide) (by decide) (by decide)).trans <|
    (W4_keep m ρ c main_arg9 (by decide)).trans <| (W3_keep m ρ c main_arg9 (by decide)).trans <|
    (W2_keep m ρ c main_arg9 (by decide) (by decide)).trans <| (W1_keep m ρ c main_arg9 (by decide)).trans (W0_eq m ρ c main_arg9)

/-- `main_arg10` reaches the return as launched. -/
theorem W8_main_arg10 (c : Dev nD) : W8 m ρ c (Proc.devRef .tc main_arg10) = m ((c : Thread nD τ).loc main_arg10) :=
  (W8_of_ne m ρ c main_arg10 (by decide)).trans <| (W7_keep m ρ c main_arg10 (by decide) (by decide) (by decide)).trans <|
    (W4_keep m ρ c main_arg10 (by decide)).trans <| (W3_keep m ρ c main_arg10 (by decide)).trans <|
    (W2_keep m ρ c main_arg10 (by decide) (by decide)).trans <| (W1_keep m ρ c main_arg10 (by decide)).trans (W0_eq m ρ c main_arg10)

/-- `main_arg11` reaches the return as launched. -/
theorem W8_main_arg11 (c : Dev nD) : W8 m ρ c (Proc.devRef .tc main_arg11) = m ((c : Thread nD τ).loc main_arg11) :=
  (W8_of_ne m ρ c main_arg11 (by decide)).trans <| (W7_keep m ρ c main_arg11 (by decide) (by decide) (by decide)).trans <|
    (W4_keep m ρ c main_arg11 (by decide)).trans <| (W3_keep m ρ c main_arg11 (by decide)).trans <|
    (W2_keep m ρ c main_arg11 (by decide) (by decide)).trans <| (W1_keep m ρ c main_arg11 (by decide)).trans (W0_eq m ρ c main_arg11)

/-- `main_arg12` reaches the return as launched. -/
theorem W8_main_arg12 (c : Dev nD) : W8 m ρ c (Proc.devRef .tc main_arg12) = m ((c : Thread nD τ).loc main_arg12) :=
  (W8_of_ne m ρ c main_arg12 (by decide)).trans <| (W7_keep m ρ c main_arg12 (by decide) (by decide) (by decide)).trans <|
    (W4_keep m ρ c main_arg12 (by decide)).trans <| (W3_keep m ρ c main_arg12 (by decide)).trans <|
    (W2_keep m ρ c main_arg12 (by decide) (by decide)).trans <| (W1_keep m ρ c main_arg12 (by decide)).trans (W0_eq m ρ c main_arg12)

end Cert.Kernel.Hand

end
-- ==== Proof.KI.Dats.lean ====
/-
  The three kernel regions of the idealized program, as data: for each region, the block a window's array
  shows at a grid point, what the body leaves in each output window's staging buffer as a function of the
  input blocks (the body's one store per output, over the skeleton's payloads), and the pipeline's proof
  data built from them — the arrays as the region finds them, every input buffer at its block, every output
  buffer at the stored payload, nothing owed, the class invariant. Everything is a definition over the
  buffer contents `V` at the region's entry; the runs and the value lemmas are in the sibling modules.

  Region 0 (rows in blocks of 1024): outputs  x·fc_w + fc_b  and  max(ns_x·w1 + w1_b, 0).
  Region 1 (rows in blocks of 1024): output  (1 − eps)·h1 + eps·(ns_h2·w2 + w2_b).
  Region 2 (an 8 × 8 grid of 1024 × 1024 tiles): output  (h_i·h_jᵀ + x_i·x_jᵀ)·½; its row and column
  operands are the same two arrays, each read through two windows, so each window holds half of the array's share.
-/
import proofs.«117717_j23003844838035_1_alg».proof.Proof.Gen.KernelIdeal.Launch
import proofs.«117717_j23003844838035_1_alg».proof.Proof.Gen.KernelIdeal.Skeleton
import proofs.«117717_j23003844838035_1_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-- The buffer contents a region is entered from, per core and reference. -/
abbrev Entry (F : FTy → Type) : Type := (c : Dev nD) → (b : Ref sig .tc) → Buf (Elt F) ((c : Thread nD τ).loc b)

variable (V : Entry F)

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA_1024x128 : Rect S1024x128 := Rect.unit (s := S1024x128) ![0, 0] S1024x128.size inb_S1024x128_S1024x128_0_0
abbrev rA_128x64 : Rect S128x64 := Rect.unit (s := S128x64) ![0, 0] S128x64.size inb_S128x64_S128x64_0_0
abbrev rA_64 : Rect S64 := Rect.unit (s := S64) ![0] S64.size inb_S64_S64_0
abbrev rA_128x128 : Rect S128x128 := Rect.unit (s := S128x128) ![0, 0] S128x128.size inb_S128x128_S128x128_0_0
abbrev rA_128 : Rect S128 := Rect.unit (s := S128) ![0] S128.size inb_S128_S128_0
abbrev rA_1024x64 : Rect S1024x64 := Rect.unit (s := S1024x64) ![0, 0] S1024x64.size inb_S1024x64_S1024x64_0_0
abbrev rA_1024x1 : Rect S1024x1 := Rect.unit (s := S1024x1) ![0, 0] S1024x1.size inb_S1024x1_S1024x1_0_0
abbrev rA_1024x1024 : Rect S1024x1024 := Rect.unit (s := S1024x1024) ![0, 0] S1024x1024.size inb_S1024x1024_S1024x1024_0_0

/-- Output window 6 (h1's row block) after the body: the one store of  x_blk·fc_w + fc_b. -/
def out0_6 (x0 : Vec F S1024x128 .f32) (x2 : Vec F S128x64 .f32) (x3 : Vec F S64 .f32) : Vec F S1024x64 .f32 :=
  View.canon [⟨rA_1024x64, k0_pay1 (View.ld x0 rA_1024x128) (View.ld x2 rA_128x64) (View.ld x3 rA_64)⟩]

/-- Output window 7 (h2a's row block) after the body: the one store of  max(nsx_blk·w1 + w1_b, 0). -/
def out0_7 (x1 : Vec F S1024x128 .f32) (x4 : Vec F S128x128 .f32) (x5 : Vec F S128 .f32) : Vec F S1024x128 .f32 :=
  View.canon [⟨rA_1024x128, k0_pay2 (View.ld x1 rA_1024x128) (View.ld x4 rA_128x128) (View.ld x5 rA_128)⟩]

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Output window 5 (h's row block) after the body: the one store of  (1 − eps)·h1 + eps·(nsh_blk·w2 + w2_b). -/
def out1_5 (x0 : Vec F S1024x128 .f32) (x1 : Vec F S128x64 .f32) (x2 : Vec F S64 .f32) (x3 : Vec F S1024x64 .f32) (x4 : Vec F S1024x1 .f32) : Vec F S1024x64 .f32 :=
  View.canon [⟨rA_1024x64, k1_pay1 (View.ld x0 rA_1024x128) (View.ld x1 rA_128x64) (View.ld x2 rA_64) (View.ld x4 rA_1024x1) (View.ld x3 rA_1024x64)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-! ## Region 2 -/

/-- Window `w`'s block at point `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Output window 4 (the tile of the result) after the body: the one store of  (h_i·h_jᵀ + x_i·x_jᵀ)·½. -/
def out2_4 (x0 : Vec F S1024x64 .f32) (x1 : Vec F S1024x128 .f32) (x2 : Vec F S1024x64 .f32) (x3 : Vec F S1024x128 .f32) : Vec F S1024x1024 .f32 :=
  View.canon [⟨rA_1024x1024, k2_pay1 (View.ld x0 rA_1024x64) (View.ld x1 rA_1024x128) (View.ld x2 rA_1024x64) (View.ld x3 rA_1024x128)⟩]

/-- Region 2's proof data on core `c`: windows 0 and 2 read one array (h), windows 1 and 3 another (x); each
    of a pair holds one half of the array's share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

end Cert.KernelIdeal.Hand

end
-- ==== Proof.KI.Chain.lean ====
/-
  The contents of every unscoped buffer of the idealized program at each boundary of @main's eight segments — five
  stretches of host operations and the three kernel regions. They are a fold from the launch memory: a host
  stretch applies its operations, a region replaces its output arrays by what its write-backs leave and keeps
  everything else.
-/
import proofs.«117717_j23003844838035_1_alg».proof.Proof.KI.Dats
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the neighbour sum of x): region 0's entry. -/
abbrev W1 : Dev nD → Valuation τ sig (Elt F) := fun c => StableHlo.after hostOps0 (W0 m ρ c)
abbrev V1 : Entry F := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : Entry F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the neighbour sum of h2a, eps as a column): region 1's entry. -/
abbrev W3 : Dev nD → Valuation τ sig (Elt F) := fun c => StableHlo.after hostOps1 (W2 m ρ c)
abbrev V3 : Entry F := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : Entry F := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the three stretches of the batch normalisation (the column mean, the variance, the affine tail): region 2's entry. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev V7 : Entry F := fun c b => W7 m ρ c b
/-- What region 2 leaves in its one output array. -/
abbrev res42 (c : Dev nD) : Buf (Elt F) ((c : Thread nD τ).loc main_v42) := (dat2 (V7 m ρ) c).arrAt 4 cfg2.N
/-- At region 2's exit (the return): the result array at what the pipeline leaves, every other buffer as entered. -/
def W8 (c : Dev nD) : Valuation τ sig (Elt F) :=
  Function.update (W7 m ρ c) (Proc.devRef .tc main_v42) (res42 m ρ c)
abbrev V8 : Entry F := fun c b => W8 m ρ c b
theorem W8_v42 (c : Dev nD) : W8 m ρ c (Proc.devRef .tc main_v42) = res42 m ρ c := by
  unfold W8; exact Function.update_self _ _ _
theorem W8_of_ne (c : Dev nD) (b : Ref sig .tc) (hb : b ≠ main_v42) :
    W8 m ρ c (Proc.devRef .tc b) = W7 m ρ c (Proc.devRef .tc b) := by
  unfold W8; exact Function.update_of_ne (StableHlo.devRef_ne_of_ne hb) _ _

end Cert.KernelIdeal.Hand

end
-- ==== Proof.KI.Share2.lean ====
/-
  Region 2 reads each of its two operand arrays through two windows. The unscoped buffers behind the region's
  windows are three: h, x and the result. Held whole, they are the pipeline's windowed arrays when each operand's
  ownership is halved between its row window and its column window — and conversely the five windows' holdings
  join back into the three whole buffers.
-/
import proofs.«117717_j23003844838035_1_alg».proof.Proof.KI.Dats
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-- The shares region 2's proof data holds its five windows' arrays at. -/
theorem share2_0 (V : Entry F) (c : Dev nD) : (dat2 V c).share 0 = fullShare.left := by
  unfold Dat.share; rw [if_neg (by decide)]; dsimp only [dat2]
theorem share2_1 (V : Entry F) (c : Dev nD) : (dat2 V c).share 1 = fullShare.left := by
  unfold Dat.share; rw [if_neg (by decide)]; dsimp only [dat2]
theorem share2_2 (V : Entry F) (c : Dev nD) : (dat2 V c).share 2 = fullShare.right := by
  unfold Dat.share; rw [if_neg (by decide)]; dsimp only [dat2]
theorem share2_3 (V : Entry F) (c : Dev nD) : (dat2 V c).share 3 = fullShare.right := by
  unfold Dat.share; rw [if_neg (by decide)]; dsimp only [dat2]
theorem share2_4 (V : Entry F) (c : Dev nD) : (dat2 V c).share 4 = fullShare := by
  unfold Dat.share; rw [if_pos (by decide)]

variable (V : Entry F) (c : Dev nD) (V' : (b : Ref sig .tc) → Buf (Elt F) ((c : Thread nD τ).loc b))
    (G : (w : Fin cfg2.W) → Buf (Elt F) ((cfg2.win w).arr.view.loc (c : Thread nD τ)))
    (hG0 : G 0 = V' (Pipeline.arrRef spec2 0)) (hG1 : G 1 = V' (Pipeline.arrRef spec2 1)) (hG2 : G 2 = V' (Pipeline.arrRef spec2 2))
    (hG3 : G 3 = V' (Pipeline.arrRef spec2 3)) (hG4 : G 4 = V' (Pipeline.arrRef spec2 4))

include hG0 in
/-- Each window's holding, spelt over its buffer: the whole array at the window's share. -/
theorem piece2_0 : ((cfg2.win 0).arr.view.loc (c : Thread nD τ) ↦[(cfg2.win 0).arr.view.set]{(dat2 V c).share 0} G 0 : sProp 𝕄)
    = ((c : Thread nD τ).loc main_v22 ↦{fullShare.left} V' main_v22) := by
  rw [(arr_whole2 0).set_eq_univ, share2_0 V c, hG0]
include hG1 in
theorem piece2_1 : ((cfg2.win 1).arr.view.loc (c : Thread nD τ) ↦[(cfg2.win 1).arr.view.set]{(dat2 V c).share 1} G 1 : sProp 𝕄)
    = ((c : Thread nD τ).loc main_arg0 ↦{fullShare.left} V' main_arg0) := by
  rw [(arr_whole2 1).set_eq_univ, share2_1 V c, hG1]
include hG2 in
theorem piece2_2 : ((cfg2.win 2).arr.view.loc (c : Thread nD τ) ↦[(cfg2.win 2).arr.view.set]{(dat2 V c).share 2} G 2 : sProp 𝕄)
    = ((c : Thread nD τ).loc main_v22 ↦{fullShare.right} V' main_v22) := by
  rw [(arr_whole2 2).set_eq_univ, share2_2 V c, hG2]
include hG3 in
theorem piece2_3 : ((cfg2.win 3).arr.view.loc (c : Thread nD τ) ↦[(cfg2.win 3).arr.view.set]{(dat2 V c).share 3} G 3 : sProp 𝕄)
    = ((c : Thread nD τ).loc main_arg0 ↦{fullShare.right} V' main_arg0) := by
  rw [(arr_whole2 3).set_eq_univ, share2_3 V c, hG3]
include hG4 in
theorem piece2_4 : ((cfg2.win 4).arr.view.loc (c : Thread nD τ) ↦[(cfg2.win 4).arr.view.set]{(dat2 V c).share 4} G 4 : sProp 𝕄)
    = ((c : Thread nD τ).loc main_v42 ↦{fullShare} V' main_v42) := by
  rw [(arr_whole2 4).set_eq_univ, share2_4 V c, hG4]

include hG0 hG1 hG2 hG3 hG4 in
/-- The five windows' holdings as one chain over the three buffers. -/
theorem arrays2_eq : ((dat2 V c).arrays G : sProp 𝕄)
    = iprop(((c : Thread nD τ).loc main_v22 ↦{fullShare.left} V' main_v22) ∗ ((c : Thread nD τ).loc main_arg0 ↦{fullShare.left} V' main_arg0)
      ∗ ((c : Thread nD τ).loc main_v22 ↦{fullShare.right} V' main_v22) ∗ ((c : Thread nD τ).loc main_arg0 ↦{fullShare.right} V' main_arg0)
      ∗ ((c : Thread nD τ).loc main_v42 ↦{fullShare} V' main_v42)) := by
  unfold Dat.arrays
  rw [bigSep_W2]
  exact congrArg₂ _ (piece2_0 V c V' G hG0) (congrArg₂ _ (piece2_1 V c V' G hG1) (congrArg₂ _ (piece2_2 V c V' G hG2)
    (congrArg₂ _ (piece2_3 V c V' G hG3) (piece2_4 V c V' G hG4))))

/-- The three buffers behind the windows, whole. -/
theorem arrBufs2_eq : (Pipeline.arrBufs spec2 c V' : sProp 𝕄)
    = iprop(((c : Thread nD τ).loc main_v22 ↦{fullShare} V' main_v22) ∗ ((c : Thread nD τ).loc main_arg0 ↦{fullShare} V' main_arg0)
      ∗ ((c : Thread nD τ).loc main_v42 ↦{fullShare} V' main_v42)) := by
  unfold Pipeline.arrBufs
  rw [bigSep_eq_bigSepL_of_eq [main_v22, main_arg0, main_v42] (by decide) (by decide)]
  rfl

include hG0 hG1 hG2 hG3 hG4 in
/-- Entry: the whole buffers halve into the windows' holdings. -/
theorem arrays2_of_bufs : (Pipeline.arrBufs spec2 c V' : sProp 𝕄) ⊢ (dat2 V c).arrays G := by
  rw [arrays2_eq V c V' G hG0 hG1 hG2 hG3 hG4, arrBufs2_eq c V']
  iintro ⟨Hh, Hx, Ho⟩
  ihave Hh' := (pointsTo_share (PosShare.mem_left_op_right fullShare)).1 $$ Hh
  icases Hh' with ⟨Hh1, Hh2⟩
  ihave Hx' := (pointsTo_share (PosShare.mem_left_op_right fullShare)).1 $$ Hx
  icases Hx' with ⟨Hx1, Hx2⟩
  isplitl [Hh1]; · iexact Hh1
  isplitl [Hx1]; · iexact Hx1
  isplitl [Hh2]; · iexact Hh2
  isplitl [Hx2]; · iexact Hx2
  iexact Ho

include hG0 hG1 hG2 hG3 hG4 in
/-- Exit: the windows' holdings join into the whole buffers. -/
theorem bufs_of_arrays2 : ((dat2 V c).arrays G : sProp 𝕄) ⊢ Pipeline.arrBufs spec2 c V' := by
  rw [arrays2_eq V c V' G hG0 hG1 hG2 hG3 hG4, arrBufs2_eq c V']
  iintro ⟨Hh1, Hx1, Hh2, Hx2, Ho⟩
  isplitl [Hh1 Hh2]
  · iapply (pointsTo_share (PosShare.mem_left_op_right fullShare)).2
    isplitl [Hh1]; · iexact Hh1
    iexact Hh2
  isplitl [Hx1 Hx2]
  · iapply (pointsTo_share (PosShare.mem_left_op_right fullShare)).2
    isplitl [Hx1]; · iexact Hx1
    iexact Hx2
  iexact Ho

end Cert.KernelIdeal.Hand

end
-- ==== Proof.KI.Body0.lean ====
/-
  Region 0's kernel body. Run on whole staging buffers — the six input buffers reading their blocks, the two output
  buffers holding anything — it returns the inputs as they were and each output at its one store's payload over
  the loaded inputs:  x_blk·fc_w + fc_b  in window 6,  max(nsx_blk·w1 + w1_b, 0)  in window 7. At a grid point of
  the pipeline every input buffer holds its block (the weights and biases, fetched at the first point only, still
  hold theirs), which gives the body obligation of the region's proof data.
-/
import proofs.«117717_j23003844838035_1_alg».proof.Proof.KI.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-buffer rectangle of these extents is looked up structurally, one step per coordinate of
-- the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input windows' buffers at a point -/

/-- Input window 0's current staging buffer holds its block at every point, whether the pipeline fetched it
    there or not (unfetched, the block index has not moved since the fetch), for any proof data over the entry
    contents `V` whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, whether the pipeline fetched it
    there or not (unfetched, the block index has not moved since the fetch), for any proof data over the entry
    contents `V` whose body leaves the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, whether the pipeline fetched it
    there or not (unfetched, the block index has not moved since the fetch), for any proof data over the entry
    contents `V` whose body leaves the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point, whether the pipeline fetched it
    there or not (unfetched, the block index has not moved since the fetch), for any proof data over the entry
    contents `V` whose body leaves the block in place; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point, whether the pipeline fetched it
    there or not (unfetched, the block index has not moved since the fetch), for any proof data over the entry
    contents `V` whose body leaves the block in place; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_4 (c : Dev nD) (t : Fin cfg0.N) (d) : (dat0 V c).before 4 t d = iblk0 V c 4 t :=
  before0_4_of V (dat0 V c) (A_eq0 V c 4) (after0_4 V c) t d

/-- Input window 5's current staging buffer holds its block at every point, whether the pipeline fetched it
    there or not (unfetched, the block index has not moved since the fetch), for any proof data over the entry
    contents `V` whose body leaves the block in place; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_5 (c : Dev nD) (t : Fin cfg0.N) (d) : (dat0 V c).before 5 t d = iblk0 V c 5 t :=
  before0_5_of V (dat0 V c) (A_eq0 V c 5) (after0_5 V c) t d

/-! ## The body's stores cover the output buffers -/

/-- Output window 6's one store is through the whole-buffer rectangle, which tiles the buffer (one tile), so it
    covers it. -/
theorem storeCover0_6 (p0 : Vec F S1024x64 .f32) (y : S1024x64.Idx) :
    ∃ pc ∈ ([⟨rA_1024x64, p0⟩] : List (View.Piece (Elt F) S1024x64 .f32)), y ∈ pc.1.set :=
  View.cover_of_tiled [⟨rA_1024x64, p0⟩] S1024x64.size (by rfl) y

/-- Output window 7's one store is through the whole-buffer rectangle, which tiles the buffer (one tile), so it
    covers it. -/
theorem storeCover0_7 (p0 : Vec F S1024x128 .f32) (y : S1024x128.Idx) :
    ∃ pc ∈ ([⟨rA_1024x128, p0⟩] : List (View.Piece (Elt F) S1024x128 .f32)), y ∈ pc.1.set :=
  View.cover_of_tiled [⟨rA_1024x128, p0⟩] S1024x128.size (by rfl) y

/-! ## The body's triple -/

set_option maxHeartbeats 1000000 in
/-- The kernel body on whole staging buffers, the inputs' reading `x_w` and the outputs' holding anything, runs to
    the continuation with the inputs' as they were and each output's at its store's payload over the loaded inputs
    (`out0_w`). The function is its skeleton of loads and stores over the named payloads; the loads read the
    buffers' contents through the whole-buffer rectangle, the load of an output buffer before its store reads a
    value nothing uses, and a buffer written whole reads as the canonical contents of its one piece. -/
theorem sound_kernel0 (c : Dev nD) (E : Set ℕ) (i : grid0.Coords) (arg1 : Memref sig .tc .vmem S1024x128 .f32) (harg1 : arg1.IsWhole) (arg2 : Memref sig .tc .vmem S1024x128 .f32) (harg2 : arg2.IsWhole) (arg3 : Memref sig .tc .vmem S128x64 .f32) (harg3 : arg3.IsWhole) (arg4 : Memref sig .tc .vmem S64 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1024x64 .f32) (harg7 : arg7.IsWhole) (arg8 : Memref sig .tc .vmem S1024x128 .f32) (harg8 : arg8.IsWhole)
    (x0 : Vec F S1024x128 .f32) (x1 : Vec F S1024x128 .f32) (x2 : Vec F S128x64 .f32) (x3 : Vec F S64 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x2 x3) ∗ owns (c : Thread nD τ) arg8 fullShare (out0_7 x1 x4 x5)) -∗ K ⟨⟩))
      ⊢ wp frame (wpE (defs₀ (F := F)) Variants.none c none) E (cc0__kernelA i arg1 harg1 arg2 harg2 arg3 harg3 arg4 harg4 arg5 harg5 arg6 harg6 arg7 harg7 arg8 harg8) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (storeCover0_6 _)
  iexists _; isplitr
  swap; · iexact H7
  ipureintro
  exact View.read_writes_eq_canon _ _ _ (storeCover0_7 _)

/-! ## The body obligation, at a generic point -/

/-- What the body is called with at point `t`: the class invariant, what the core owes, and every window's current
    staging buffer, whole, at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same, every buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks (`before0_w`), so the body's triple applies at the
    blocks; the invariant and what the core owes do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation for region 0's proof data, at every point: the windows conjoined one by one. -/
theorem body_obligation0 (V : Entry F) (c : Dev nD) : Pipeline.BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1's kernel body. Run on whole staging buffers — the five input buffers reading their blocks, the output
  buffer holding anything — it returns the inputs as they were and the output at its one store's payload over the
  loaded inputs:  (1 − eps)·h1_blk + eps·(nsh_blk·w2 + w2_b)  in window 5. At a grid point of the pipeline every
  input buffer holds its block (the weight and the bias, fetched at the first point only, still hold theirs),
  which gives the body obligation of the region's proof data.
-/
import proofs.«117717_j23003844838035_1_alg».proof.Proof.KI.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-buffer rectangle of these extents is looked up structurally, one step per coordinate of
-- the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input windows' buffers at a point -/

/-- Input window 0's current staging buffer holds its block at every point, whether the pipeline fetched it
    there or not (unfetched, the block index has not moved since the fetch), for any proof data over the entry
    contents `V` whose body leaves the block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, whether the pipeline fetched it
    there or not (unfetched, the block index has not moved since the fetch), for any proof data over the entry
    contents `V` whose body leaves the block in place; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, whether the pipeline fetched it
    there or not (unfetched, the block index has not moved since the fetch), for any proof data over the entry
    contents `V` whose body leaves the block in place; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, whether the pipeline fetched it
    there or not (unfetched, the block index has not moved since the fetch), for any proof data over the entry
    contents `V` whose body leaves the block in place; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, whether the pipeline fetched it
    there or not (unfetched, the block index has not moved since the fetch), for any proof data over the entry
    contents `V` whose body leaves the block in place; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_4 (c : Dev nD) (t : Fin cfg1.N) (d) : (dat1 V c).before 4 t d = iblk1 V c 4 t :=
  before1_4_of V (dat1 V c) (A_eq1 V c 4) (after1_4 V c) t d

/-! ## The body's stores cover the output buffers -/

/-- Output window 5's one store is through the whole-buffer rectangle, which tiles the buffer (one tile), so it
    covers it. -/
theorem storeCover1_5 (p0 : Vec F S1024x64 .f32) (y : S1024x64.Idx) :
    ∃ pc ∈ ([⟨rA_1024x64, p0⟩] : List (View.Piece (Elt F) S1024x64 .f32)), y ∈ pc.1.set :=
  View.cover_of_tiled [⟨rA_1024x64, p0⟩] S1024x64.size (by rfl) y

/-! ## The body's triple -/

set_option maxHeartbeats 1000000 in
/-- The kernel body on whole staging buffers, the inputs' reading `x_w` and the outputs' holding anything, runs to
    the continuation with the inputs' as they were and each output's at its store's payload over the loaded inputs
    (`out1_w`). The function is its skeleton of loads and stores over the named payloads; the loads read the
    buffers' contents through the whole-buffer rectangle, the load of an output buffer before its store reads a
    value nothing uses, and a buffer written whole reads as the canonical contents of its one piece. -/
theorem sound_kernel1 (c : Dev nD) (E : Set ℕ) (i : grid1.Coords) (arg1 : Memref sig .tc .vmem S1024x128 .f32) (harg1 : arg1.IsWhole) (arg2 : Memref sig .tc .vmem S128x64 .f32) (harg2 : arg2.IsWhole) (arg3 : Memref sig .tc .vmem S64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x64 .f32) (harg6 : arg6.IsWhole)
    (x0 : Vec F S1024x128 .f32) (x1 : Vec F S128x64 .f32) (x2 : Vec F S64 .f32) (x3 : Vec F S1024x64 .f32) (x4 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__kernelB i arg1 harg1 arg2 harg2 arg3 harg3 arg4 harg4 arg5 harg5 arg6 harg6) K := by
  simp only [cc1__kernelB_eq_skeleton]; unfold cc1__kernelB_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCover1_5 _)

/-! ## The body obligation, at a generic point -/

/-- What the body is called with at point `t`: the class invariant, what the core owes, and every window's current
    staging buffer, whole, at what it then holds; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same, every buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks (`before1_w`), so the body's triple applies at the
    blocks; the invariant and what the core owes do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for region 1's proof data, at every point: the windows conjoined one by one. -/
theorem body_obligation1 (V : Entry F) (c : Dev nD) : Pipeline.BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2's kernel body. Run on whole staging buffers — the four input buffers reading their blocks (the row
  blocks h_i, x_i and the column blocks h_j, x_j), the output buffer holding anything — it returns the inputs as
  they were and the output at its one store's payload over the loaded inputs:  (h_i·h_jᵀ + x_i·x_jᵀ)·½  in
  window 4. At a grid point of the pipeline every input buffer holds its block (a row block, fetched once per row
  of the grid, still holds it along the row), which gives the body obligation of the region's proof data. The
  staging buffers are held whole; that two windows read one array shows only in the arrays' shares, which the
  body does not touch.
-/
import proofs.«117717_j23003844838035_1_alg».proof.Proof.KI.Dats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a whole-buffer rectangle of these extents is looked up structurally, one step per coordinate of
-- the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input windows' buffers at a point -/

/-- Input window 0's current staging buffer holds its block at every point, whether the pipeline fetched it
    there or not (unfetched, the block index has not moved since the fetch), for any proof data over the entry
    contents `V` whose body leaves the block in place; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

/-- Input window 1's current staging buffer holds its block at every point, whether the pipeline fetched it
    there or not (unfetched, the block index has not moved since the fetch), for any proof data over the entry
    contents `V` whose body leaves the block in place; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

/-- Input window 2's current staging buffer holds its block at every point, whether the pipeline fetched it
    there or not (unfetched, the block index has not moved since the fetch), for any proof data over the entry
    contents `V` whose body leaves the block in place; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

/-- Input window 3's current staging buffer holds its block at every point, whether the pipeline fetched it
    there or not (unfetched, the block index has not moved since the fetch), for any proof data over the entry
    contents `V` whose body leaves the block in place; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_3 (c : Dev nD) (t : Fin cfg2.N) (d) : (dat2 V c).before 3 t d = iblk2 V c 3 t :=
  before2_3_of V (dat2 V c) (A_eq2 V c 3) (after2_3 V c) t d

/-! ## The body's stores cover the output buffers -/

/-- Output window 4's one store is through the whole-buffer rectangle, which tiles the buffer (one tile), so it
    covers it. -/
theorem storeCover2_4 (p0 : Vec F S1024x1024 .f32) (y : S1024x1024.Idx) :
    ∃ pc ∈ ([⟨rA_1024x1024, p0⟩] : List (View.Piece (Elt F) S1024x1024 .f32)), y ∈ pc.1.set :=
  View.cover_of_tiled [⟨rA_1024x1024, p0⟩] S1024x1024.size (by rfl) y

/-! ## The body's triple -/

set_option maxHeartbeats 1000000 in
/-- The kernel body on whole staging buffers, the inputs' reading `x_w` and the outputs' holding anything, runs to
    the continuation with the inputs' as they were and each output's at its store's payload over the loaded inputs
    (`out2_w`). The function is its skeleton of loads and stores over the named payloads; the loads read the
    buffers' contents through the whole-buffer rectangle, the load of an output buffer before its store reads a
    value nothing uses, and a buffer written whole reads as the canonical contents of its one piece. -/
theorem sound_kernel2 (c : Dev nD) (E : Set ℕ) (i : grid2.Coords) (arg2 : Memref sig .tc .vmem S1024x64 .f32) (harg2 : arg2.IsWhole) (arg3 : Memref sig .tc .vmem S1024x128 .f32) (harg3 : arg3.IsWhole) (arg4 : Memref sig .tc .vmem S1024x64 .f32) (harg4 : arg4.IsWhole) (arg5 : Memref sig .tc .vmem S1024x128 .f32) (harg5 : arg5.IsWhole) (arg6 : Memref sig .tc .vmem S1024x1024 .f32) (harg6 : arg6.IsWhole)
    (x0 : Vec F S1024x64 .f32) (x1 : Vec F S1024x128 .f32) (x2 : Vec F S1024x64 .f32) (x3 : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__kernelC i arg2 harg2 arg3 harg3 arg4 harg4 arg5 harg5 arg6 harg6) K := by
  simp only [cc2__kernelC_eq_skeleton]; unfold cc2__kernelC_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (storeCover2_4 _)

/-! ## The body obligation, at a generic point -/

/-- What the body is called with at point `t`: the class invariant, what the core owes, and every window's current
    staging buffer, whole, at what it then holds; -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: the same, every buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks (`before2_w`), so the body's triple applies at the
    blocks; the invariant and what the core owes do not depend on the point and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation for region 2's proof data, at every point: the windows conjoined one by one. -/
theorem body_obligation2 (V : Entry F) (c : Dev nD) : Pipeline.BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the idealized program: @main as eight segments — five stretches of host operations and the three
  kernel regions — from the launch memory to the return. Each region is a record around the thread state "every
  unscoped buffer at the boundary's contents, the generator register at some state, nothing owed": its arrays are
  split out of the unscoped buffers at entry and put back at exit. In region 2 the row and the column operand are
  windows onto ONE array (h, and likewise x): at entry that array's ownership is halved between its two windows,
  and at exit the halves are joined again.
  The result: every weakly fair execution terminates, nothing faults, and every unscoped buffer ends at the last
  boundary's contents.
-/
import proofs.«117717_j23003844838035_1_alg».proof.Proof.KI.Chain
import proofs.«117717_j23003844838035_1_alg».proof.Proof.KI.Share2
import proofs.«117717_j23003844838035_1_alg».proof.Proof.KI.Body0
import proofs.«117717_j23003844838035_1_alg».proof.Proof.KI.Body1
import proofs.«117717_j23003844838035_1_alg».proof.Proof.KI.Body2
import proofs.«117717_j23003844838035_1_alg».proof.Proof.Gen.KernelIdeal.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W8 m ρ c) ∗ ∃ r, prngReg c r)

/-! ## The regions as segments -/

set_option maxHeartbeats 2000000 in
set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2: one array behind two windows -/

/-- At region 2's exit every window's array holds what the last boundary says: the result what the write-backs leave,
    an operand what it held at entry. -/
theorem hF2_0 (c : Dev nD) : (dat2 (V7 m ρ) c).arrAt 0 cfg2.N = V8 m ρ c (Pipeline.arrRef spec2 0) :=
  ((dat2 (V7 m ρ) c).arrAt_in 0 rfl _).trans (W8_of_ne m ρ c main_v22 (by decide)).symm
theorem hF2_1 (c : Dev nD) : (dat2 (V7 m ρ) c).arrAt 1 cfg2.N = V8 m ρ c (Pipeline.arrRef spec2 1) :=
  ((dat2 (V7 m ρ) c).arrAt_in 1 rfl _).trans (W8_of_ne m ρ c main_arg0 (by decide)).symm
theorem hF2_2 (c : Dev nD) : (dat2 (V7 m ρ) c).arrAt 2 cfg2.N = V8 m ρ c (Pipeline.arrRef spec2 2) :=
  ((dat2 (V7 m ρ) c).arrAt_in 2 rfl _).trans (W8_of_ne m ρ c main_v22 (by decide)).symm
theorem hF2_3 (c : Dev nD) : (dat2 (V7 m ρ) c).arrAt 3 cfg2.N = V8 m ρ c (Pipeline.arrRef spec2 3) :=
  ((dat2 (V7 m ρ) c).arrAt_in 3 rfl _).trans (W8_of_ne m ρ c main_arg0 (by decide)).symm
theorem hF2_4 (c : Dev nD) : (dat2 (V7 m ρ) c).arrAt 4 cfg2.N = V8 m ρ c (Pipeline.arrRef spec2 4) :=
  (W8_v42 m ρ c).symm
theorem hrest2 (c : Dev nD) : ∀ b, b ∉ Finset.univ.image (Pipeline.arrRef spec2) → V8 m ρ c b = V7 m ρ c b :=
  fun b hb => W8_of_ne m ρ c b fun e => hb (Finset.mem_image.mpr ⟨4, Finset.mem_univ _, e.symm⟩)

set_option maxHeartbeats 2000000 in
set_option backward.isDefEq.respectTransparency.types false in
/-- Region 2 over the thread state: entered from every unscoped buffer at `W7`, left at `W8` (what the launch reads
    at the end). The three buffers behind its five windows are split out of the unscoped buffers, each operand's
    ownership halved between its two windows; at the exit the halves are joined and the buffers put back. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hub := Pipeline.unscopedBufs_split₀ (Ix := Unit) (Name := ℕ) (U := UR sig nD τ) (Lvl := ℕ) (Val := Elt F) cfgs 2
      winFacts₀2.arr_unscoped c (V7 m ρ c)
    rw [Pipeline.unscopedBufs_held] at hub
    have harr : (Pipeline.arrBufs spec2 c (V7 m ρ c) : sProp 𝕄) ⊢ (pdats m ρ 2 c).arrays ((pdats m ρ 2 c).arrAt · 0) :=
      arrays2_of_bufs (V7 m ρ) c (V7 m ρ c) ((dat2 (V7 m ρ) c).arrAt · 0) rfl rfl rfl rfl rfl
    iintro ⟨⟨Hub, Hp, HO⟩, -, -⟩
    ihave H := (Entails.of_eq hub) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) (Val := Elt F) cfgs 2
      winFacts₀2.arr_unscoped c (V8 m ρ c)
    rw [Pipeline.unscopedBufs_held] at hub
    have hbufs : ((pdats m ρ 2 c).arrays ((pdats m ρ 2 c).arrAt · (Pipeline.pin (pcfgs (F := F)) adm 2).N) : sProp 𝕄)
        ⊢ Pipeline.arrBufs spec2 c (V8 m ρ c) :=
      bufs_of_arrays2 (V7 m ρ) c (V8 m ρ c) ((dat2 (V7 m ρ) c).arrAt · cfg2.N) (hF2_0 m ρ c) (hF2_1 m ρ c) (hF2_2 m ρ c) (hF2_3 m ρ c) (hF2_4 m ρ c)
    have hrest : (Pipeline.unscopedRest (Ix := Unit) (Name := ℕ) (U := UR sig nD τ) (Lvl := ℕ) spec2 c (V7 m ρ c) : sProp 𝕄)
        = Pipeline.unscopedRest spec2 c (V8 m ρ c) := by
      unfold Pipeline.unscopedRest
      exact bigSep_congr fun b hb => by rw [hrest2 m ρ c b (Finset.mem_sdiff.mp hb).2]
    iintro ⟨Ha, HO, HY, Hrest⟩
    ihave Hb := hbufs $$ Ha
    ihave Hrest' := (Entails.of_eq hrest) $$ Hrest
    imodintro
    isplitl [Hb Hrest' HY]
    · isplitl [Hb Hrest']
      · iapply (Entails.of_eq hub.symm); isplitl [Hb] <;> iassumption
      iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ) ]

/-- @main is the run of the segments: the printed chain of its items, item by item. -/
theorem main_run (c : Dev nD) : main (F := F) c = Pipeline.Seg.run (segs m ρ) := by
  rw [main_chain c, Pipeline.Seg.run_eq_chain]
  rfl

set_option backward.isDefEq.respectTransparency.types false in
/-- THE RUN. From any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Hand

end
-- ==== Proof.KI.Args.lean ====
/-
  No segment of @main changes an argument: the idealized program's thirteen argument arrays hold their launch
  contents at the return. A host stretch keeps every reference it does not write; a kernel region keeps every
  array that is not one of its output windows' (an input window's array is never written back; any other
  buffer is not touched at all). Stated as lemmas for any reference, so that the same steps also carry the
  intermediate arrays from where they are made to where they are read.
-/
import proofs.«117717_j23003844838035_1_alg».proof.Proof.KI.Chain
import proofs.«117717_j23003844838035_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each segment keeps -/

/-- The launch contents are the memory's. -/
theorem W0_eq (c : Dev nD) (b : Ref sig .tc) : W0 m ρ c (Proc.devRef .tc b) = m ((c : Thread nD τ).loc b) := rfl

/-- The first host stretch keeps a reference it does not write. -/
theorem W1_keep (c : Dev nD) (b : Ref sig .tc) (h : b ∉ (hostOps0_W : List (Ref sig .tc))) :
    W1 m ρ c (Proc.devRef .tc b) = W0 m ρ c (Proc.devRef .tc b) :=
  StableHlo.after_of_writes_sub hostOps0 _ hostOps0_writes h

/-- Region 0's output windows' arrays are `main_v10_0` and `main_v10_1`. -/
theorem out0_refs : ∀ w : Fin cfg0.W, (cfg0.win w).isOut = true →
    Pipeline.arrRef spec0 w = main_v10_0 ∨ Pipeline.arrRef spec0 w = main_v10_1 := by decide

/-- Region 0 keeps every buffer but its two output arrays: an input window's array is never written back, and a
    buffer that is no window's array is not touched. -/
theorem W2_keep (c : Dev nD) (b : Ref sig .tc) (h6 : b ≠ main_v10_0) (h7 : b ≠ main_v10_1) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true =>
        rcases out0_refs w hw with e | e
        · exact absurd e h6
        · exact absurd e h7
    exact (W2_arr m ρ c w).trans (((dat0 (V1 m ρ) c).arrAt_in w hin _).trans (A_eq0 (V1 m ρ) c w))
  · exact W2_of_ne m ρ c b fun w e => h ⟨w, e⟩

/-- The second host stretch keeps a reference it does not write. -/
theorem W3_keep (c : Dev nD) (b : Ref sig .tc) (h : b ∉ (hostOps1_W : List (Ref sig .tc))) :
    W3 m ρ c (Proc.devRef .tc b) = W2 m ρ c (Proc.devRef .tc b) :=
  StableHlo.after_of_writes_sub hostOps1 _ hostOps1_writes h

/-- Region 1's output window's array is `main_v22`. -/
theorem out1_refs : ∀ w : Fin cfg1.W, (cfg1.win w).isOut = true → Pipeline.arrRef spec1 w = main_v22 := by decide

/-- Region 1 keeps every buffer but its output array. -/
theorem W4_keep (c : Dev nD) (b : Ref sig .tc) (h : b ≠ main_v22) :
    W4 m ρ c (Proc.devRef .tc b) = W3 m ρ c (Proc.devRef .tc b) := by
  by_cases hb : ∃ w, Pipeline.arrRef spec1 w = b
  · obtain ⟨w, rfl⟩ := hb
    have hin : (cfg1.win w).isOut = false := by
      cases hw : (cfg1.win w).isOut with
      | false => rfl
      | true => exact absurd (out1_refs w hw) h
    exact (W4_arr m ρ c w).trans (((dat1 (V3 m ρ) c).arrAt_in w hin _).trans (A_eq1 (V3 m ρ) c w))
  · exact W4_of_ne m ρ c b fun w e => hb ⟨w, e⟩

/-- The three host stretches of the batch normalisation keep a reference none of them writes. -/
theorem W7_keep (c : Dev nD) (b : Ref sig .tc) (h2 : b ∉ (hostOps2_W : List (Ref sig .tc)))
    (h21 : b ∉ (hostOps2_1_W : List (Ref sig .tc))) (h22 : b ∉ (hostOps2_2_W : List (Ref sig .tc))) :
    W7 m ρ c (Proc.devRef .tc b) = W4 m ρ c (Proc.devRef .tc b) :=
  (StableHlo.after_of_writes_sub hostOps2_2 _ hostOps2_2_writes h22).trans <|
    (StableHlo.after_of_writes_sub hostOps2_1 _ hostOps2_1_writes h21).trans
      (StableHlo.after_of_writes_sub hostOps2 _ hostOps2_writes h2)

/-! ## A reference nothing before a boundary writes holds its launch contents there -/

theorem W1_launch (c : Dev nD) (b : Ref sig .tc) (h0 : b ∉ (hostOps0_W : List (Ref sig .tc))) :
    W1 m ρ c (Proc.devRef .tc b) = m ((c : Thread nD τ).loc b) :=
  (W1_keep m ρ c b h0).trans (W0_eq m ρ c b)

theorem W2_launch (c : Dev nD) (b : Ref sig .tc) (h0 : b ∉ (hostOps0_W : List (Ref sig .tc)))
    (h6 : b ≠ main_v10_0) (h7 : b ≠ main_v10_1) : W2 m ρ c (Proc.devRef .tc b) = m ((c : Thread nD τ).loc b) :=
  (W2_keep m ρ c b h6 h7).trans (W1_launch m ρ c b h0)

theorem W3_launch (c : Dev nD) (b : Ref sig .tc) (h0 : b ∉ (hostOps0_W : List (Ref sig .tc)))
    (h6 : b ≠ main_v10_0) (h7 : b ≠ main_v10_1) (h1 : b ∉ (hostOps1_W : List (Ref sig .tc))) :
    W3 m ρ c (Proc.devRef .tc b) = m ((c : Thread nD τ).loc b) :=
  (W3_keep m ρ c b h1).trans (W2_launch m ρ c b h0 h6 h7)

theorem W4_launch (c : Dev nD) (b : Ref sig .tc) (h0 : b ∉ (hostOps0_W : List (Ref sig .tc)))
    (h6 : b ≠ main_v10_0) (h7 : b ≠ main_v10_1) (h1 : b ∉ (hostOps1_W : List (Ref sig .tc))) (h22 : b ≠ main_v22) :
    W4 m ρ c (Proc.devRef .tc b) = m ((c : Thread nD τ).loc b) :=
  (W4_keep m ρ c b h22).trans (W3_launch m ρ c b h0 h6 h7 h1)

theorem W7_launch (c : Dev nD) (b : Ref sig .tc) (h0 : b ∉ (hostOps0_W : List (Ref sig .tc)))
    (h6 : b ≠ main_v10_0) (h7 : b ≠ main_v10_1) (h1 : b ∉ (hostOps1_W : List (Ref sig .tc))) (h22 : b ≠ main_v22)
    (h2 : b ∉ (hostOps2_W : List (Ref sig .tc))) (h21 : b ∉ (hostOps2_1_W : List (Ref sig .tc)))
    (h2' : b ∉ (hostOps2_2_W : List (Ref sig .tc))) : W7 m ρ c (Proc.devRef .tc b) = m ((c : Thread nD τ).loc b) :=
  (W7_keep m ρ c b h2 h21 h2').trans (W4_launch m ρ c b h0 h6 h7 h1 h22)

/-! ## The arguments at the return -/

/-- `main_arg0` reaches the return as launched. -/
theorem W8_main_arg0 (c : Dev nD) : W8 m ρ c (Proc.devRef .tc main_arg0) = m ((c : Thread nD τ).loc main_arg0) :=
  (W8_of_ne m ρ c main_arg0 (by decide)).trans <| (W7_keep m ρ c main_arg0 (by decide) (by decide) (by decide)).trans <|
    (W4_keep m ρ c main_arg0 (by decide)).trans <| (W3_keep m ρ c main_arg0 (by decide)).trans <|
    (W2_keep m ρ c main_arg0 (by decide) (by decide)).trans <| (W1_keep m ρ c main_arg0 (by decide)).trans (W0_eq m ρ c main_arg0)

/-- `main_arg1` reaches the return as launched. -/
theorem W8_main_arg1 (c : Dev nD) : W8 m ρ c (Proc.devRef .tc main_arg1) = m ((c : Thread nD τ).loc main_arg1) :=
  (W8_of_ne m ρ c main_arg1 (by decide)).trans <| (W7_keep m ρ c main_arg1 (by decide) (by decide) (by decide)).trans <|
    (W4_keep m ρ c main_arg1 (by decide)).trans <| (W3_keep m ρ c main_arg1 (by decide)).trans <|
    (W2_keep m ρ c main_arg1 (by decide) (by decide)).trans <| (W1_keep m ρ c main_arg1 (by decide)).trans (W0_eq m ρ c main_arg1)

/-- `main_arg2` reaches the return as launched. -/
theorem W8_main_arg2 (c : Dev nD) : W8 m ρ c (Proc.devRef .tc main_arg2) = m ((c : Thread nD τ).loc main_arg2) :=
  (W8_of_ne m ρ c main_arg2 (by decide)).trans <| (W7_keep m ρ c main_arg2 (by decide) (by decide) (by decide)).trans <|
    (W4_keep m ρ c main_arg2 (by decide)).trans <| (W3_keep m ρ c main_arg2 (by decide)).trans <|
    (W2_keep m ρ c main_arg2 (by decide) (by decide)).trans <| (W1_keep m ρ c main_arg2 (by decide)).trans (W0_eq m ρ c main_arg2)

/-- `main_arg3` reaches the return as launched. -/
theorem W8_main_arg3 (c : Dev nD) : W8 m ρ c (Proc.devRef .tc main_arg3) = m ((c : Thread nD τ).loc main_arg3) :=
  (W8_of_ne m ρ c main_arg3 (by decide)).trans <| (W7_keep m ρ c main_arg3 (by decide) (by decide) (by decide)).trans <|
    (W4_keep m ρ c main_arg3 (by decide)).trans <| (W3_keep m ρ c main_arg3 (by decide)).trans <|
    (W2_keep m ρ c main_arg3 (by decide) (by decide)).trans <| (W1_keep m ρ c main_arg3 (by decide)).trans (W0_eq m ρ c main_arg3)

/-- `main_arg4` reaches the return as launched. -/
theorem W8_main_arg4 (c : Dev nD) : W8 m ρ c (Proc.devRef .tc main_arg4) = m ((c : Thread nD τ).loc main_arg4) :=
  (W8_of_ne m ρ c main_arg4 (by decide)).trans <| (W7_keep m ρ c main_arg4 (by decide) (by decide) (by decide)).trans <|
    (W4_keep m ρ c main_arg4 (by decide)).trans <| (W3_keep m ρ c main_arg4 (by decide)).trans <|
    (W2_keep m ρ c main_arg4 (by decide) (by decide)).trans <| (W1_keep m ρ c main_arg4 (by decide)).trans (W0_eq m ρ c main_arg4)

/-- `main_arg5` reaches the return as launched. -/
theorem W8_main_arg5 (c : Dev nD) : W8 m ρ c (Proc.devRef .tc main_arg5) = m ((c : Thread nD τ).loc main_arg5) :=
  (W8_of_ne m ρ c main_arg5 (by decide)).trans <| (W7_keep m ρ c main_arg5 (by decide) (by decide) (by decide)).trans <|
    (W4_keep m ρ c main_arg5 (by decide)).trans <| (W3_keep m ρ c main_arg5 (by decide)).trans <|
    (W2_keep m ρ c main_arg5 (by decide) (by decide)).trans <| (W1_keep m ρ c main_arg5 (by decide)).trans (W0_eq m ρ c main_arg5)

/-- `main_arg6` reaches the return as launched. -/
theorem W8_main_arg6 (c : Dev nD) : W8 m ρ c (Proc.devRef .tc main_arg6) = m ((c : Thread nD τ).loc main_arg6) :=
  (W8_of_ne m ρ c main_arg6 (by decide)).trans <| (W7_keep m ρ c main_arg6 (by decide) (by decide) (by decide)).trans <|
    (W4_keep m ρ c main_arg6 (by decide)).trans <| (W3_keep m ρ c main_arg6 (by decide)).trans <|
    (W2_keep m ρ c main_arg6 (by decide) (by decide)).trans <| (W1_keep m ρ c main_arg6 (by decide)).trans (W0_eq m ρ c main_arg6)

/-- `main_arg7` reaches the return as launched. -/
theorem W8_main_arg7 (c : Dev nD) : W8 m ρ c (Proc.devRef .tc main_arg7) = m ((c : Thread nD τ).loc main_arg7) :=
  (W8_of_ne m ρ c main_arg7 (by decide)).trans <| (W7_keep m ρ c main_arg7 (by decide) (by decide) (by decide)).trans <|
    (W4_keep m ρ c main_arg7 (by decide)).trans <| (W3_keep m ρ c main_arg7 (by decide)).trans <|
    (W2_keep m ρ c main_arg7 (by decide) (by decide)).trans <| (W1_keep m ρ c main_arg7 (by decide)).trans (W0_eq m ρ c main_arg7)

/-- `main_arg8` reaches the return as launched. -/
theorem W8_main_arg8 (c : Dev nD) : W8 m ρ c (Proc.devRef .tc main_arg8) = m ((c : Thread nD τ).loc main_arg8) :=
  (W8_of_ne m ρ c main_arg8 (by decide)).trans <| (W7_keep m ρ c main_arg8 (by decide) (by decide) (by decide)).trans <|
    (W4_keep m ρ c main_arg8 (by decide)).trans <| (W3_keep m ρ c main_arg8 (by decide)).trans <|
    (W2_keep m ρ c main_arg8 (by decide) (by decide)).trans <| (W1_keep m ρ c main_arg8 (by decide)).trans (W0_eq m ρ c main_arg8)

/-- `main_arg9` reaches the return as launched. -/
theorem W8_main_arg9 (c : Dev nD) : W8 m ρ c (Proc.devRef .tc main_arg9) = m ((c : Thread nD τ).loc main_arg9) :=
  (W8_of_ne m ρ c main_arg9 (by decide)).trans <| (W7_keep m ρ c main_arg9 (by decide) (by decide) (by decide)).trans <|
    (W4_keep m ρ c main_arg9 (by decide)).trans <| (W3_keep m ρ c main_arg9 (by decide)).trans <|
    (W2_keep m ρ c main_arg9 (by decide) (by decide)).trans <| (W1_keep m ρ c main_arg9 (by decide)).trans (W0_eq m ρ c main_arg9)

/-- `main_arg10` reaches the return as launched. -/
theorem W8_main_arg10 (c : Dev nD) : W8 m ρ c (Proc.devRef .tc main_arg10) = m ((c : Thread nD τ).loc main_arg10) :=
  (W8_of_ne m ρ c main_arg10 (by decide)).trans <| (W7_keep m ρ c main_arg10 (by decide) (by decide) (by decide)).trans <|
    (W4_keep m ρ c main_arg10 (by decide)).trans <| (W3_keep m ρ c main_arg10 (by decide)).trans <|
    (W2_keep m ρ c main_arg10 (by decide) (by decide)).trans <| (W1_keep m ρ c main_arg10 (by decide)).trans (W0_eq m ρ c main_arg10)

/-- `main_arg11` reaches the return as launched. -/
theorem W8_main_arg11 (c : Dev nD) : W8 m ρ c (Proc.devRef .tc main_arg11) = m ((c : Thread nD τ).loc main_arg11) :=
  (W8_of_ne m ρ c main_arg11 (by decide)).trans <| (W7_keep m ρ c main_arg11 (by decide) (by decide) (by decide)).trans <|
    (W4_keep m ρ c main_arg11 (by decide)).trans <| (W3_keep m ρ c main_arg11 (by decide)).trans <|
    (W2_keep m ρ c main_arg11 (by decide) (by decide)).trans <| (W1_keep m ρ c main_arg11 (by decide)).trans (W0_eq m ρ c main_arg11)

/-- `main_arg12` reaches the return as launched. -/
theorem W8_main_arg12 (c : Dev nD) : W8 m ρ c (Proc.devRef .tc main_arg12) = m ((c : Thread nD τ).loc main_arg12) :=
  (W8_of_ne m ρ c main_arg12 (by decide)).trans <| (W7_keep m ρ c main_arg12 (by decide) (by decide) (by decide)).trans <|
    (W4_keep m ρ c main_arg12 (by decide)).trans <| (W3_keep m ρ c main_arg12 (by decide)).trans <|
    (W2_keep m ρ c main_arg12 (by decide) (by decide)).trans <| (W1_keep m ρ c main_arg12 (by decide)).trans (W0_eq m ρ c main_arg12)

end Cert.KernelIdeal.Hand

end
-- ==== Proof.RefSpec.lean ====
/-
  The reference's two results as a composition of named stages, at the ideal instance.

  Each stage is the printed operations of the reference's host program composed in order over
  VARIABLES for the arrays it reads: the same operation names, the same dimension records and the
  same literal words as the program's text, so that the run of the program ends, by unfolding
  alone, at these terms applied to the launch contents of its arguments.

    nsum        the neighbour sum: gather the rows of `feat` at the (wrapped) source indices and
                add them into a zero array at the destination indices
    lin64       an affine map to 64 columns: a matrix product plus a broadcast bias
    lin128relu  an affine map to 128 columns followed by the maximum with zero
    mix         the convex combination (1 - eps) * h1 + eps * h2, eps broadcast along the columns
                (mixCol: the same over eps already a column)
    gram        (h hᵀ + x xᵀ) / 2
    bn          the column-wise normalisation (h - mean) * rsqrt (var + 1e-5) * gamma + beta
-/
import proofs.«117717_j23003844838035_1_alg».proof.ReferenceIdeal
import Idealize.ShloMosaic.PureOps.Ideal

noncomputable section

namespace Cert.RefSpec

open Cert.ReferenceIdeal Idealize.ShloMosaic
open Cert.ReferenceIdeal.Facts₀

variable [Cert.ReferenceIdeal.Facts]

/-- An f32 array of shape `s` at the ideal instance: an extended real at every index. -/
abbrev V (s : Shape) : Type := FVec Ideal s .f32
/-- An i32 array of shape `s`. -/
abbrev IV (s : Shape) : Type := IVec s 32

/-- The source indices as the gather reads them: a negative index wrapped by the row count, then a
    trailing unit axis. -/
def srcIdx (src : IV S262144) : IVec S262144x1 32 :=
  broadcastInDim S262144x1 ![0] bcast_S262144_S262144x1_0
    (select (cmpi .slt src (broadcastInDim S262144 ![] bcast_S_S262144 (constantI S_ 32 0#32)))
      (addi src (broadcastInDim S262144 ![] bcast_S_S262144 (constantI S_ 32 8192#32))) src)

/-- The neighbour sum: row `dst e` of the result collects row `src e` of `feat`, over the edges `e`. -/
def nsum (feat : V S8192x128) (src dst : IV S262144) : V S8192x128 :=
  Host.scatterAdd scatter_S8192x128_S262144x1_S262144x128_1_0_0_1
    (broadcastInDim S8192x128 ![] bcast_S_S8192x128 (constant (F := Ideal) S_ .f32 0x00000000#32))
    (broadcastInDim S262144x1 ![0] bcast_S262144_S262144x1_0 dst)
    (Host.gather gather_S8192x128_S262144x1_S262144x128_1_0_n_n_0_1_1128 feat (srcIdx src))

/-- `a · w + b`, the bias a row broadcast down the rows; 64 columns. -/
def lin64 (a : V S8192x128) (w : V S128x64) (b : V S64) : V S8192x64 :=
  addf (Host.dotGeneral dot_S8192x128_S128x64_S8192x64_1_0_0_1_n_n none a w)
    (broadcastInDim S8192x64 ![0, 1] bcast_S1x64_S8192x64_0_1 (broadcastInDim S1x64 ![1] bcast_S64_S1x64_1 b))

/-- `max (a · w + b) 0`; 128 columns. -/
def lin128relu (a : V S8192x128) (w : V S128x128) (b : V S128) : V S8192x128 :=
  maximumf
    (addf (Host.dotGeneral dot_S8192x128_S128x128_S8192x128_1_0_0_1_n_n none a w)
      (broadcastInDim S8192x128 ![0, 1] bcast_S1x128_S8192x128_0_1 (broadcastInDim S1x128 ![1] bcast_S128_S1x128_1 b)))
    (broadcastInDim S8192x128 ![] bcast_S_S8192x128 (constant (F := Ideal) S_ .f32 0x00000000#32))

/-- `(1 - epsc) * h1 + epsc * h2`, `epsc` a column (one number per row) broadcast along the columns. -/
def mixCol (epsc : V S8192x1) (h1 h2 : V S8192x64) : V S8192x64 :=
  addf
    (mulf (broadcastInDim S8192x64 ![0, 1] bcast_S8192x1_S8192x64_0_1
        (subf (broadcastInDim S8192x1 ![] bcast_S_S8192x1 (constant (F := Ideal) S_ .f32 0x3F800000#32)) epsc)) h1)
    (mulf (broadcastInDim S8192x64 ![0, 1] bcast_S8192x1_S8192x64_0_1 epsc) h2)

/-- `(1 - eps) * h1 + eps * h2`, `eps` one number per row. -/
def mix (eps : V S8192) (h1 h2 : V S8192x64) : V S8192x64 :=
  mixCol (broadcastInDim S8192x1 ![0] bcast_S8192_S8192x1_0 eps) h1 h2

/-- `(h hᵀ + x xᵀ) * 0.5`. -/
def gram (h : V S8192x64) (x : V S8192x128) : V S8192x8192 :=
  mulf
    (addf
      (Host.dotGeneral dot_S8192x64_S64x8192_S8192x8192_1_0_0_1_n_n none h
        (transpose S64x8192 [1, 0] h transposes_S8192x64_S64x8192_1_0))
      (Host.dotGeneral dot_S8192x128_S128x8192_S8192x8192_1_0_0_1_n_n none x
        (transpose S128x8192 [1, 0] x transposes_S8192x128_S128x8192_1_0)))
    (broadcastInDim S8192x8192 ![] bcast_S_S8192x8192 (constant (F := Ideal) S_ .f32 0x3F000000#32))

/-- The column means: the column sums over the 8192 rows, divided by 8192. -/
def colMean (h : V S8192x64) : V S64 :=
  Host.divf (Host.reduceAdd h (constant (F := Ideal) S_ .f32 0x00000000#32) reducesTo_S8192x64_S64_d0 h_S_)
    (broadcastInDim S64 ![] bcast_S_S64 (constant (F := Ideal) S_ .f32 0x46000000#32))

/-- The divisor of the variance: 8192 minus the degrees of freedom `ddof` (an integer scalar, here zero). -/
def varDen (ddof : IVec S_ 32) : V S_ :=
  subf (constant (F := Ideal) S_ .f32 0x46000000#32) (sitofp (F := Ideal) .f32 ddof)

/-- The column variances as the outlined variance function computes them: the mean kept as a row, the
    squared deviations summed and divided by `varDen`, and a not-a-number row where that divisor is not positive. -/
def colVar (h : V S8192x64) (ddof : IVec S_ 32) : V S64 :=
  (fun (p : IVec S_ 1) (a b : V S64) => select (broadcastInDim S64 ![] bcast_S_S64 p) a b)
    (cmpf .ogt (varDen ddof) (constant (F := Ideal) S_ .f32 0x00000000#32))
    (Host.divf
      (Host.reduceAdd
        (mulf
          (subf h (broadcastInDim S8192x64 ![0, 1] bcast_S1x64_S8192x64_0_1
            (Host.divf
              (broadcastInDim S1x64 ![1] bcast_S64_S1x64_1
                (Host.reduceAdd h (constant (F := Ideal) S_ .f32 0x00000000#32) reducesTo_S8192x64_S64_d0 h_S_))
              (broadcastInDim S1x64 ![] bcast_S_S1x64 (constant (F := Ideal) S_ .f32 0x46000000#32)))))
          (subf h (broadcastInDim S8192x64 ![0, 1] bcast_S1x64_S8192x64_0_1
            (Host.divf
              (broadcastInDim S1x64 ![1] bcast_S64_S1x64_1
                (Host.reduceAdd h (constant (F := Ideal) S_ .f32 0x00000000#32) reducesTo_S8192x64_S64_d0 h_S_))
              (broadcastInDim S1x64 ![] bcast_S_S1x64 (constant (F := Ideal) S_ .f32 0x46000000#32))))))
        (constant (F := Ideal) S_ .f32 0x00000000#32) reducesTo_S8192x64_S64_d0 h_S_)
      (broadcastInDim S64 ![] bcast_S_S64 (varDen ddof)))
    (broadcastInDim S64 ![] bcast_S_S64 (id (constant (F := Ideal) S_ .f32 0x7FC00000#32)))

/-- The column-wise normalisation: `(h - mean) * rsqrt (var + 1e-5) * gamma + beta`. -/
def bn (h : V S8192x64) (gamma beta : V S64) : V S8192x64 :=
  addf
    (mulf
      (mulf
        (subf h (broadcastInDim S8192x64 ![0, 1] bcast_S1x64_S8192x64_0_1 (broadcastInDim S1x64 ![1] bcast_S64_S1x64_1 (colMean h))))
        (broadcastInDim S8192x64 ![0, 1] bcast_S1x64_S8192x64_0_1
          (broadcastInDim S1x64 ![1] bcast_S64_S1x64_1
            (Host.rsqrt
              (addf (colVar h (constantI S_ 32 0#32))
                (broadcastInDim S64 ![] bcast_S_S64 (constant (F := Ideal) S_ .f32 0x3727C5AC#32)))))))
      (broadcastInDim S8192x64 ![0, 1] bcast_S1x64_S8192x64_0_1 (broadcastInDim S1x64 ![1] bcast_S64_S1x64_1 gamma)))
    (broadcastInDim S8192x64 ![0, 1] bcast_S1x64_S8192x64_0_1 (broadcastInDim S1x64 ![1] bcast_S64_S1x64_1 beta))

/-- The hidden state both results read: the first affine map of `x` mixed, row by row, with the second affine
    map of the neighbour sum of the rectified affine map of the neighbour sum of `x`. -/
def hOf (x : V S8192x128) (src dst : IV S262144) (fcw : V S128x64) (fcb : V S64) (w1 : V S128x128) (w1b : V S128)
    (w2 : V S128x64) (w2b : V S64) (eps : V S8192) : V S8192x64 :=
  mix eps (lin64 x fcw fcb) (lin64 (nsum (lin128relu (nsum x src dst) w1 w1b) src dst) w2 w2b)

/-- The first result. -/
def ret47 (x : V S8192x128) (src dst : IV S262144) (fcw : V S128x64) (fcb : V S64) (w1 : V S128x128) (w1b : V S128)
    (w2 : V S128x64) (w2b : V S64) (eps : V S8192) : V S8192x8192 :=
  gram (hOf x src dst fcw fcb w1 w1b w2 w2b eps) x

/-- The second result. -/
def out66 (x : V S8192x128) (src dst : IV S262144) (fcw : V S128x64) (fcb : V S64) (w1 : V S128x128) (w1b : V S128)
    (w2 : V S128x64) (w2b : V S64) (eps : V S8192) (gamma beta : V S64) : V S8192x64 :=
  bn (hOf x src dst fcw fcb w1 w1b w2 w2b eps) gamma beta

end Cert.RefSpec

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibDenseRows.lean ====
/-
  A dense layer read one row at a time, at the ideal values.

  A matrix of R rows is R rows: `row X p` is row p of X as a function of the column, `mat W` a weight matrix as a
  function of (input, output), `vec b` a bias vector as a function of the output. One row through a layer:
    mm h W    = h · W                 (the plain matrix product's row)
    lin h W b = h · W + b             (affine)
    relu h    = max h 0               (the maximum with the float zero, entry by entry)
  and the facts here say that the two programs' spellings of a layer compute exactly that, row by row, in the
  extended reals, with no finiteness asked:
    * a kernel's layer — `tpu.matmul` into the zero accumulator, the weights and a 1×N bias row re-cast to their own
      shapes, the row copied to every row, an addition; then a maximum with a splat zero and a change of float format;
    * a host's layer — `dot_general`, the length-N bias broadcast to 1×N and then to R×N, an addition; then a
      maximum with a rank-0 zero broadcast to R×N.
  The dimension record of each product may be any record equal to the plain one (for a printed record, `rfl`).
-/
import Idealize.ShloMosaic.PureOps.Ideal.Laws
import Idealize.ShloMosaic.Lib.Pipeline.Value
import Idealize.ShloMosaic.Lib.ValueIdx
import proofs.«117717_j23003844838035_1_alg».proof.Proof.LibPlainDot
import proofs.«117717_j23003844838035_1_alg».proof.Proof.LibRowVector
import proofs.«117717_j23003844838035_1_alg».proof.Proof.LibRowInDim

noncomputable section

open scoped BigOperators

namespace Cert.DenseRows

open Idealize.ShloMosaic Idealize.ShloMosaic.ValueIdx

/-! ## Rows, and one row through a layer -/

/-- Row p of a matrix, as a function of the column. -/
def row {α : Type} {R K : Nat} (X : (⟨2, ![R, K]⟩ : Shape).Idx → α) (p : Fin R) : Fin K → α := fun k => X (ix2 p k)

/-- A matrix as a function of (row, column). -/
def mat {α : Type} {K N : Nat} (W : (⟨2, ![K, N]⟩ : Shape).Idx → α) : Fin K → Fin N → α := fun k c => W (ix2 k c)

/-- A vector as a function of its coordinate. -/
def vec {α : Type} {N : Nat} (b : (⟨1, ![N]⟩ : Shape).Idx → α) : Fin N → α := fun c => b (ix1 c)

/-- One row through a matrix: h · W. -/
def mm {K N : Nat} (h : Fin K → EReal) (W : Fin K → Fin N → EReal) : Fin N → EReal :=
  fun c => ∑ k : Fin K, h k * W k c

/-- One row through an affine layer: h · W + b. -/
def lin {K N : Nat} (h : Fin K → EReal) (W : Fin K → Fin N → EReal) (b : Fin N → EReal) : Fin N → EReal :=
  fun c => (∑ k : Fin K, h k * W k c) + b c

/-- The maximum with the float zero, entry by entry. -/
def relu {N : Nat} (h : Fin N → EReal) : Fin N → EReal :=
  fun c => max (h c) (Ideal.ofBits .f32 0x00000000#32)

variable {R K N : Nat} {φ₁ φ₂ : FTy}

/-! ## A kernel's spelling -/

/-- A `tpu.matmul` into the zero accumulator, the right operand re-cast to its own shape: row p is (row p of X) · W. -/
theorem row_matmul (D : DotDims ⟨2, ![R, K]⟩ ⟨2, ![K, N]⟩ ⟨2, ![R, N]⟩) (hD : D = DotDims.plain R K N)
    (prec : Option ContractPrecision) (X : FVec Ideal ⟨2, ![R, K]⟩ φ₁) (W : FVec Ideal ⟨2, ![K, N]⟩ φ₂)
    (hW : (⟨2, ![K, N]⟩ : Shape).ShapeCasts ⟨2, ![K, N]⟩) (p : Fin R) :
    row (matmul D prec X (shapeCast ⟨2, ![K, N]⟩ W hW) (constant (F := Ideal) ⟨2, ![R, N]⟩ .f32 0x00000000#32)) p
      = mm (row X p) (mat W) := by
  funext c
  rw [shapeCast_self]
  exact PlainDot.matmul_zero_apply D hD prec X W p c

/-- The same with a 1×N bias row added to every row: row p is (row p of X) · W + b. -/
theorem row_matmul_bias (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ φ₁) (W : FVec Ideal ⟨2, ![K, N]⟩ φ₂)
    (b : FVec Ideal ⟨2, ![1, N]⟩ .f32)
    (hW : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![R, N]⟩) (p : Fin R) :
    row (addf (matmul D prec X (shapeCast ⟨2, ![K, N]⟩ W hW) (constant (F := Ideal) ⟨2, ![R, N]⟩ .f32 0x00000000#32))
        (broadcastTo ⟨2, ![R, N]⟩ (shapeCast ⟨2, ![1, N]⟩ b hb) hbc)) p
      = lin (row X p) (mat W) (row b 0) := by
  funext c
  show matmul D prec X (shapeCast ⟨2, ![K, N]⟩ W hW) (constant (F := Ideal) ⟨2, ![R, N]⟩ .f32 0x00000000#32) (ix2 p c)
      + broadcastTo ⟨2, ![R, N]⟩ (shapeCast ⟨2, ![1, N]⟩ b hb) hbc (ix2 p c) = _
  rw [shapeCast_self, shapeCast_self, RowVector.broadcastTo_row hN]
  exact congrArg (· + b (ix2 0 c)) (PlainDot.matmul_zero_apply D hD prec X W p c)

/-- A maximum with the splat zero, then a change of float format: row p is relu of row p. -/
theorem row_relu_trunc {ψ : FTy} (Y : FVec Ideal ⟨2, ![R, N]⟩ .f32) (h : ψ.bits < FTy.f32.bits) (p : Fin R) :
    row (truncf ψ (maximumf Y (broadcast ⟨2, ![R, N]⟩ (Scalar.ofBits (F := Ideal) .f32 0x00000000#32))) h) p
      = relu (row Y p) := rfl

/-- A change of float format keeps every row. -/
theorem row_trunc {ψ : FTy} (Y : FVec Ideal ⟨2, ![R, N]⟩ .f32) (h : ψ.bits < FTy.f32.bits) (p : Fin R) :
    row (truncf ψ Y h) p = row Y p := rfl

/-! ## A host's spelling -/

/-- A `dot_general` with the bias, a length-N vector, broadcast to 1×N and then to every row, added:
    row r is (row r of X) · W + b. -/
theorem row_dot_bias (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) :
    row (addf (Host.dotGeneral D prec X W)
        (broadcastInDim ⟨2, ![R, N]⟩ ![0, 1] h2 (broadcastInDim ⟨2, ![1, N]⟩ ![1] h1 b))) r
      = lin (row X r) (mat W) (vec b) := by
  funext c
  show FloatOps.dotGeneral D prec .single X W (ix2 r c)
      + broadcastInDim ⟨2, ![R, N]⟩ ![0, 1] h2 (broadcastInDim ⟨2, ![1, N]⟩ ![1] h1 b) (ix2 r c) = _
  rw [RowInDim.broadcastInDim_rows hN, PlainDot.dotGeneral_apply D hD]
  refine congrArg (_ + ·) ?_
  exact broadcastInDim_apply _ h1 b (ix2 0 c) (ix1 c) (fun a => match a with
    | ⟨0, _⟩ => by
      show c.val = if N = 1 then 0 else c.val
      rw [if_neg hN])

/-- A `dot_general` alone: row r is (row r of X) · W. -/
theorem row_dot (D : DotDims ⟨2, ![R, K]⟩ ⟨2, ![K, N]⟩ ⟨2, ![R, N]⟩) (hD : D = DotDims.plain R K N)
    (prec : Option ContractPrecision) (X : FVec Ideal ⟨2, ![R, K]⟩ φ₁) (W : FVec Ideal ⟨2, ![K, N]⟩ φ₂) (r : Fin R) :
    row (Host.dotGeneral D prec X W) r = mm (row X r) (mat W) :=
  funext fun c => PlainDot.dotGeneral_apply D hD prec .single X W r c

/-- A maximum with the rank-0 zero broadcast to every entry: row r is relu of row r. -/
theorem row_relu_host (Y : FVec Ideal ⟨2, ![R, N]⟩ .f32)
    (h0 : (⟨0, ![]⟩ : Shape).BroadcastsInDim ⟨2, ![R, N]⟩ (![] : Fin 0 → Fin 2)) (r : Fin R) :
    row (maximumf Y (broadcastInDim ⟨2, ![R, N]⟩ ![] h0 (constant (F := Ideal) ⟨0, ![]⟩ .f32 0x00000000#32))) r
      = relu (row Y r) := by
  funext c
  show max (Y (ix2 r c)) (broadcastInDim ⟨2, ![R, N]⟩ ![] h0 (constant (F := Ideal) ⟨0, ![]⟩ .f32 0x00000000#32) (ix2 r c)) = _
  rw [broadcastInDim_apply _ h0 _ (ix2 r c) ix0 (fun a => a.elim0)]
  rfl

end Cert.DenseRows

end
-- ==== Proof.KI.Val0.lean ====
/-
  What region 0 leaves in its two output arrays, each as one function of the arrays the region is entered with.

  Region 0 walks the 8192 rows in 8 blocks of 1024. At block t it multiplies rows 1024·t … 1024·t + 1023 of x by
  the whole 128×64 matrix fc_w and adds the bias fc_b to every row (the first output, h1), and multiplies the
  same rows of the neighbour sum ns_x by the whole 128×128 matrix w1, adds w1_b and takes the maximum with zero
  (the second output). A row of either product only reads that row of the left operand, so the block of rows the
  point writes back is that block of rows of the whole-array affine map: entry (p, q) of block t is
  ∑ k, x(1024·t + p, k) · W(k, q) + b(q), which is entry (1024·t + p, q) of x · W + b. The 8 blocks tile the
  array (row r lies in block r / 1024), so after the region each array is the whole-array map — the reference's
  stage, written there with a dot_general and the bias broadcast along the rows. Everything is in the extended
  reals, one sum of products on each side; no finiteness is used.
-/
import proofs.«117717_j23003844838035_1_alg».proof.Proof.KI.Dats
import proofs.«117717_j23003844838035_1_alg».proof.Proof.RefSpec
import proofs.«117717_j23003844838035_1_alg».proof.Proof.LibDenseRows
import proofs.«117717_j23003844838035_1_alg».proof.Proof.LibPlainDot
import proofs.«117717_j23003844838035_1_alg».proof.Proof.LibRowVector
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.DenseRows

variable [Cert.ReferenceIdeal.Facts]

/-! ## Zero offsets -/

theorem zeros2 : (![0, 0] : Fin 2 → Nat) = fun _ => 0 := funext fun a => by fin_cases a <;> rfl
theorem zeros1 : (![0] : Fin 1 → Nat) = fun _ => 0 := funext fun a => by fin_cases a; rfl

/-! ## The first output: h1 = x · fc_w + fc_b -/

/-- The first payload at an entry: row p of the block through the affine layer. -/
theorem pay0_6_apply (X : Vec Ideal S1024x128 .f32) (W : Vec Ideal S128x64 .f32) (b : Vec Ideal S64 .f32)
    (p : Fin 1024) (q : Fin 64) :
    k0_pay1 X W b (ix2 p q) = lin (row X p) (mat W) (vec b) q := by
  show FloatOps.matmul dot_S1024x128_S128x64_S1024x64_1_0_0_1_n_n none X W (constant (F := Ideal) S1024x64 .f32 0x00000000#32) (ix2 p q)
      + broadcastTo S1024x64 (shapeCast S1x64 b shapeCasts_S64_S1x64) broadcasts_S1x64_S1024x64 (ix2 p q) = _
  rw [RowVector.broadcastTo_row (by decide), RowVector.shapeCast_row]
  exact congrArg (· + b (ix1 q)) (PlainDot.matmul_zero_apply _ rfl none X W p q)

/-- The reference's affine map at an entry. -/
theorem lin64_apply (a : Cert.RefSpec.V Cert.ReferenceIdeal.S8192x128) (w : Cert.RefSpec.V Cert.ReferenceIdeal.S128x64)
    (b : Cert.RefSpec.V Cert.ReferenceIdeal.S64) (r : Fin 8192) (q : Fin 64) :
    Cert.RefSpec.lin64 a w b (ix2 r q) = lin (row a r) (mat w) (vec b) q :=
  congrFun (row_dot_bias _ rfl (by decide) none a w b _ _ r) q

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 1) = 0 :=
  (by decide +kernel : ∀ t : Fin grid0.N, win0_3.index t (0 : Fin 1) = 0)
theorem idx0_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- Window 0's block at point t holds rows 1024·t … 1024·t + 1023 of x. -/
theorem iblk0_0_apply (V : Entry Ideal) (c : Dev nD) (t : Fin cfg0.N) (p : Fin 1024) (k : Fin 128) (r : Fin 8192)
    (hr : r.val = 1024 * t.val + p.val) :
    (iblk0 V c 0 t : Vec Ideal S1024x128 .f32) (ix2 p k) = (V c main_arg0 : S8192x128.Idx → EReal) (ix2 r k) := by
  obtain ⟨e0, e1⟩ := idx0_0 t
  unfold iblk0
  rw [View.read_apply]
  show V c main_arg0 _ = V c main_arg0 _
  refine congrArg (V c main_arg0) ?_
  funext a
  apply Fin.ext
  match a with
  | ⟨0, _⟩ => show win0_0.index t (0 : Fin 2) * 1024 + 1 * p.val = r.val; omega
  | ⟨1, _⟩ => show win0_0.index t (1 : Fin 2) * 128 + 1 * k.val = k.val; omega

/-- Window 2's block is the whole weight matrix at every point. -/
theorem iblk0_2_eq (V : Entry Ideal) (c : Dev nD) (t : Fin cfg0.N) :
    (iblk0 V c 2 t : Vec Ideal S128x64 .f32) = (V c main_arg4 : S128x64.Idx → EReal) := by
  obtain ⟨e0, e1⟩ := idx0_2 t
  funext y
  unfold iblk0
  rw [View.read_apply]
  show V c main_arg4 _ = V c main_arg4 _
  refine congrArg (V c main_arg4) ?_
  funext a
  apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- Window 3's block is the whole bias vector at every point. -/
theorem iblk0_3_eq (V : Entry Ideal) (c : Dev nD) (t : Fin cfg0.N) :
    (iblk0 V c 3 t : Vec Ideal S64 .f32) = (V c main_arg5 : S64.Idx → EReal) := by
  have e0 := idx0_3 t
  funext y
  unfold iblk0
  rw [View.read_apply]
  show V c main_arg5 _ = V c main_arg5 _
  refine congrArg (V c main_arg5) ?_
  funext a
  apply Fin.ext
  match a with
  | ⟨0, _⟩ => show win0_3.index t (0 : Fin 1) * 64 + 1 * (y 0).val = (y 0).val; omega

/-- One entry of the first output block: when row p of the block is row r of x, the payload at (p, q) is the
    reference's affine map at (r, q). -/
theorem pay0_6_row (x : Cert.RefSpec.V Cert.ReferenceIdeal.S8192x128) (W : Vec Ideal S128x64 .f32) (b : Vec Ideal S64 .f32)
    (X : Vec Ideal S1024x128 .f32) (p : Fin 1024) (q : Fin 64) (r : Fin 8192)
    (hX : ∀ k : Fin 128, X (ix2 p k) = x (ix2 r k)) :
    k0_pay1 X W b (ix2 p q) = Cert.RefSpec.lin64 x W b (ix2 r q) := by
  rw [pay0_6_apply, lin64_apply, show row X p = row x r from funext hX]

theorem flushed0_6_eq (V : Entry Ideal) (c : Dev nD) (t : Fin cfg0.N) :
    (dat0 V c).flushed 6 t = ((cfg0.win 6).blk t).view.read (Elt Ideal)
      (Cert.RefSpec.lin64 (V c main_arg0) (V c main_arg4) (V c main_arg5)) := by
  show (cfg0.win 6).cut (grid0.coords t) ((dat0 V c).after 6 t) = _
  rw [after0_6]
  unfold out0_6
  rw [View.canon_unit_zero zeros2]
  simp only [View.ld_unit_zero (S := S1024x128) zeros2, View.ld_unit_zero (S := S128x64) zeros2, View.ld_unit_zero (S := S64) zeros1]
  rw [iblk0_2_eq, iblk0_3_eq]
  have ht : t.val < 8 := lt_of_lt_of_eq t.isLt N_0
  obtain ⟨e0, e1⟩ := idx0_6 t
  funext j
  obtain ⟨p, q, hj⟩ : ∃ (p : Fin 1024) (q : Fin 64), j = ix2 p q := ⟨j 0, j 1, eq_ix2 j⟩
  subst hj
  have hemb : ((cfg0.win 6).blk t).view.emb (ix2 p q) = ix2 (⟨1024 * t.val + p.val, by omega⟩ : Fin 8192) q := by
    funext a
    apply Fin.ext
    match a with
    | ⟨0, _⟩ => show win0_6.index t (0 : Fin 2) * 1024 + 1 * p.val = 1024 * t.val + p.val; omega
    | ⟨1, _⟩ => show win0_6.index t (1 : Fin 2) * 64 + 1 * q.val = q.val; omega
  show k0_pay1 (iblk0 V c 0 t) (V c main_arg4) (V c main_arg5) (ix2 p q)
    = Cert.RefSpec.lin64 (V c main_arg0) (V c main_arg4) (V c main_arg5) (((cfg0.win 6).blk t).view.emb (ix2 p q))
  rw [hemb]
  exact pay0_6_row (V c main_arg0) (V c main_arg4) (V c main_arg5) (iblk0 V c 0 t) p q _
    (fun k => iblk0_0_apply V c t p k _ rfl)

/-- An index of h1's array is in point t's block iff each coordinate is in the block's range on its axis. -/
theorem mem_blk0_6 (t : Fin cfg0.N) (i : S8192x64.Idx) :
    i ∈ ((cfg0.win 6).blk t).view.set ↔ ∀ a : Fin 2, win0_6.index t a * S1024x64.size a ≤ (i a).val
      ∧ (i a).val < win0_6.index t a * S1024x64.size a + S1024x64.size a := by
  show i ∈ ((View.whole main_v10_0).slice (win0_6.rect t)).set ↔ _
  rw [View.set_slice_whole, Rect.mem_set_unit]
  exact Iff.rfl

/-- Row r of h1's array is in the block of point r / 1024. -/
theorem cover0_6 (i : S8192x64.Idx) :
    ∃ t : Fin cfg0.N, (cfg0.win 6).flush t = true ∧ i ∈ ((cfg0.win 6).blk t).view.set := by
  have hi0 : (i 0).val < 8192 := (i 0).isLt
  have hi1 : (i 1).val < 64 := (i 1).isLt
  obtain ⟨t, ht⟩ : ∃ t : Fin cfg0.N, t.val = (i 0).val / 1024 :=
    ⟨⟨(i 0).val / 1024, by rw [show cfg0.N = 8 from N_0]; omega⟩, rfl⟩
  obtain ⟨e0, e1⟩ := idx0_6 t
  refine ⟨t, flush0_6 t, ?_⟩
  rw [mem_blk0_6]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 64 ≤ (i 1).val ∧ (i 1).val < win0_6.index t (1 : Fin 2) * 64 + 64
    omega

/-- After region 0, h1's array is the reference's first affine map of x. -/
theorem arr0_6 (V : Entry Ideal) (c : Dev nD) :
    (dat0 V c).arrAt 6 cfg0.N = Cert.RefSpec.lin64 (V c main_arg0) (V c main_arg4) (V c main_arg5) :=
  (dat0 V c).arrAt_eq_of_cover 6 _ (fun t _ => flushed0_6_eq V c t) cover0_6

/-! ## The second output: max (ns_x · w1 + w1_b, 0) -/

/-- The second payload at an entry: row p of the block through the affine layer, then the maximum with zero. -/
theorem pay0_7_apply (X : Vec Ideal S1024x128 .f32) (W : Vec Ideal S128x128 .f32) (b : Vec Ideal S128 .f32)
    (p : Fin 1024) (q : Fin 128) :
    k0_pay2 X W b (ix2 p q) = relu (lin (row X p) (mat W) (vec b)) q := by
  show max (FloatOps.matmul dot_S1024x128_S128x128_S1024x128_1_0_0_1_n_n none
        (shapeCast S1024x128 X shapeCasts_S1024x128_S1024x128) W (constant (F := Ideal) S1024x128 .f32 0x00000000#32) (ix2 p q)
      + broadcastTo S1024x128 (shapeCast S1x128 b shapeCasts_S128_S1x128) broadcasts_S1x128_S1024x128 (ix2 p q))
      (broadcast S1024x128 (Scalar.ofBits (F := Ideal) .f32 0x00000000#32) (ix2 p q)) = _
  rw [shapeCast_self, RowVector.broadcastTo_row (by decide), RowVector.shapeCast_row]
  exact congrArg (fun z => max (z + b (ix1 q)) (Ideal.ofBits .f32 0x00000000#32))
    (PlainDot.matmul_zero_apply _ rfl none X W p q)

/-- The reference's rectified affine map at an entry. -/
theorem lin128relu_apply (a : Cert.RefSpec.V Cert.ReferenceIdeal.S8192x128) (w : Cert.RefSpec.V Cert.ReferenceIdeal.S128x128)
    (b : Cert.RefSpec.V Cert.ReferenceIdeal.S128) (r : Fin 8192) (q : Fin 128) :
    Cert.RefSpec.lin128relu a w b (ix2 r q) = relu (lin (row a r) (mat w) (vec b)) q := by
  show row (Cert.RefSpec.lin128relu a w b) r q = _
  unfold Cert.RefSpec.lin128relu
  rw [row_relu_host]
  exact congrArg (fun h => relu h q)
    (row_dot_bias Cert.ReferenceIdeal.dot_S8192x128_S128x128_S8192x128_1_0_0_1_n_n rfl (by decide) none a w b _ _ r)

theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx0_5 : ∀ t : Fin cfg0.N, win0_5.index t (0 : Fin 1) = 0 :=
  (by decide +kernel : ∀ t : Fin grid0.N, win0_5.index t (0 : Fin 1) = 0)
theorem idx0_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Window 1's block at point t holds rows 1024·t … 1024·t + 1023 of the neighbour sum. -/
theorem iblk0_1_apply (V : Entry Ideal) (c : Dev nD) (t : Fin cfg0.N) (p : Fin 1024) (k : Fin 128) (r : Fin 8192)
    (hr : r.val = 1024 * t.val + p.val) :
    (iblk0 V c 1 t : Vec Ideal S1024x128 .f32) (ix2 p k) = (V c main_v9 : S8192x128.Idx → EReal) (ix2 r k) := by
  obtain ⟨e0, e1⟩ := idx0_1 t
  unfold iblk0
  rw [View.read_apply]
  show V c main_v9 _ = V c main_v9 _
  refine congrArg (V c main_v9) ?_
  funext a
  apply Fin.ext
  match a with
  | ⟨0, _⟩ => show win0_1.index t (0 : Fin 2) * 1024 + 1 * p.val = r.val; omega
  | ⟨1, _⟩ => show win0_1.index t (1 : Fin 2) * 128 + 1 * k.val = k.val; omega

/-- Window 4's block is the whole weight matrix at every point. -/
theorem iblk0_4_eq (V : Entry Ideal) (c : Dev nD) (t : Fin cfg0.N) :
    (iblk0 V c 4 t : Vec Ideal S128x128 .f32) = (V c main_arg6 : S128x128.Idx → EReal) := by
  obtain ⟨e0, e1⟩ := idx0_4 t
  funext y
  unfold iblk0
  rw [View.read_apply]
  show V c main_arg6 _ = V c main_arg6 _
  refine congrArg (V c main_arg6) ?_
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block is the whole bias vector at every point. -/
theorem iblk0_5_eq (V : Entry Ideal) (c : Dev nD) (t : Fin cfg0.N) :
    (iblk0 V c 5 t : Vec Ideal S128 .f32) = (V c main_arg7 : S128.Idx → EReal) := by
  have e0 := idx0_5 t
  funext y
  unfold iblk0
  rw [View.read_apply]
  show V c main_arg7 _ = V c main_arg7 _
  refine congrArg (V c main_arg7) ?_
  funext a
  apply Fin.ext
  match a with
  | ⟨0, _⟩ => show win0_5.index t (0 : Fin 1) * 128 + 1 * (y 0).val = (y 0).val; omega

/-- One entry of the second output block: when row p of the block is row r of the neighbour sum, the payload at
    (p, q) is the reference's rectified affine map at (r, q). -/
theorem pay0_7_row (x : Cert.RefSpec.V Cert.ReferenceIdeal.S8192x128) (W : Vec Ideal S128x128 .f32) (b : Vec Ideal S128 .f32)
    (X : Vec Ideal S1024x128 .f32) (p : Fin 1024) (q : Fin 128) (r : Fin 8192)
    (hX : ∀ k : Fin 128, X (ix2 p k) = x (ix2 r k)) :
    k0_pay2 X W b (ix2 p q) = Cert.RefSpec.lin128relu x W b (ix2 r q) := by
  rw [pay0_7_apply, lin128relu_apply, show row X p = row x r from funext hX]

/-- What point t writes back to the second output is block t of the reference's rectified affine map. -/
theorem flushed0_7_eq (V : Entry Ideal) (c : Dev nD) (t : Fin cfg0.N) :
    (dat0 V c).flushed 7 t = ((cfg0.win 7).blk t).view.read (Elt Ideal)
      (Cert.RefSpec.lin128relu (V c main_v9) (V c main_arg6) (V c main_arg7)) := by
  show (cfg0.win 7).cut (grid0.coords t) ((dat0 V c).after 7 t) = _
  rw [after0_7]
  unfold out0_7
  rw [View.canon_unit_zero zeros2]
  simp only [View.ld_unit_zero (S := S1024x128) zeros2, View.ld_unit_zero (S := S128x128) zeros2, View.ld_unit_zero (S := S128) zeros1]
  rw [iblk0_4_eq, iblk0_5_eq]
  have ht : t.val < 8 := lt_of_lt_of_eq t.isLt N_0
  obtain ⟨e0, e1⟩ := idx0_7 t
  funext j
  obtain ⟨p, q, hj⟩ : ∃ (p : Fin 1024) (q : Fin 128), j = ix2 p q := ⟨j 0, j 1, eq_ix2 j⟩
  subst hj
  have hemb : ((cfg0.win 7).blk t).view.emb (ix2 p q) = ix2 (⟨1024 * t.val + p.val, by omega⟩ : Fin 8192) q := by
    funext a
    apply Fin.ext
    match a with
    | ⟨0, _⟩ => show win0_7.index t (0 : Fin 2) * 1024 + 1 * p.val = 1024 * t.val + p.val; omega
    | ⟨1, _⟩ => show win0_7.index t (1 : Fin 2) * 128 + 1 * q.val = q.val; omega
  show k0_pay2 (iblk0 V c 1 t) (V c main_arg6) (V c main_arg7) (ix2 p q)
    = Cert.RefSpec.lin128relu (V c main_v9) (V c main_arg6) (V c main_arg7) (((cfg0.win 7).blk t).view.emb (ix2 p q))
  rw [hemb]
  exact pay0_7_row (V c main_v9) (V c main_arg6) (V c main_arg7) (iblk0 V c 1 t) p q _
    (fun k => iblk0_1_apply V c t p k _ rfl)

/-- An index of the second output's array is in point t's block iff each coordinate is in the block's range. -/
theorem mem_blk0_7 (t : Fin cfg0.N) (i : S8192x128.Idx) :
    i ∈ ((cfg0.win 7).blk t).view.set ↔ ∀ a : Fin 2, win0_7.index t a * S1024x128.size a ≤ (i a).val
      ∧ (i a).val < win0_7.index t a * S1024x128.size a + S1024x128.size a := by
  show i ∈ ((View.whole main_v10_1).slice (win0_7.rect t)).set ↔ _
  rw [View.set_slice_whole, Rect.mem_set_unit]
  exact Iff.rfl

/-- Row r of the second output's array is in the block of point r / 1024. -/
theorem cover0_7 (i : S8192x128.Idx) :
    ∃ t : Fin cfg0.N, (cfg0.win 7).flush t = true ∧ i ∈ ((cfg0.win 7).blk t).view.set := by
  have hi0 : (i 0).val < 8192 := (i 0).isLt
  have hi1 : (i 1).val < 128 := (i 1).isLt
  obtain ⟨t, ht⟩ : ∃ t : Fin cfg0.N, t.val = (i 0).val / 1024 :=
    ⟨⟨(i 0).val / 1024, by rw [show cfg0.N = 8 from N_0]; omega⟩, rfl⟩
  obtain ⟨e0, e1⟩ := idx0_7 t
  refine ⟨t, flush0_7 t, ?_⟩
  rw [mem_blk0_7]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 128 ≤ (i 1).val ∧ (i 1).val < win0_7.index t (1 : Fin 2) * 128 + 128
    omega

/-- After region 0, the second output's array is the reference's rectified affine map of the neighbour sum. -/
theorem arr0_7 (V : Entry Ideal) (c : Dev nD) :
    (dat0 V c).arrAt 7 cfg0.N = Cert.RefSpec.lin128relu (V c main_v9) (V c main_arg6) (V c main_arg7) :=
  (dat0 V c).arrAt_eq_of_cover 7 _ (fun t _ => flushed0_7_eq V c t) cover0_7

end Cert.KernelIdeal.Hand

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.KI.Val1.lean ====
/-
  What region 1 leaves in its output array, as one function of the arrays the region is entered with.

  Region 1 walks the 8192 rows in 8 blocks of 1024. At block t it multiplies rows 1024·t … 1024·t + 1023 of the
  second neighbour sum by the whole 128×64 matrix w2, adds the bias w2_b to every row, and mixes the result with
  the same rows of h1, row p with its own weight e_p (an 8192×1 column, one number per row, copied along the
  64 columns): entry (p, q) of block t is (1 − e) · h1(r, q) + e · (∑ k, ns(r, k) · w2(k, q) + w2_b(q)) with
  r = 1024·t + p and e = eps(r, 0). Every operand is read at row r only, so the block is that block of rows of
  the whole-array mix, the 8 blocks tile the array, and the array after the region is the reference's stage:
  its mix over the weights' column, h1 and its second affine map. In the extended reals, the same sums and
  products on each side; no finiteness is used.
-/
import proofs.«117717_j23003844838035_1_alg».proof.Proof.KI.Dats
import proofs.«117717_j23003844838035_1_alg».proof.Proof.KI.Val0
import proofs.«117717_j23003844838035_1_alg».proof.Proof.RefSpec
import proofs.«117717_j23003844838035_1_alg».proof.Proof.LibDenseRows
import proofs.«117717_j23003844838035_1_alg».proof.Proof.LibPlainDot
import proofs.«117717_j23003844838035_1_alg».proof.Proof.LibRowVector
import proofs.«117717_j23003844838035_1_alg».proof.Proof.LibKeepdims
import proofs.«117717_j23003844838035_1_alg».proof.Proof.LibColumnInDim
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.DenseRows

variable [Cert.ReferenceIdeal.Facts]

/-- The convex combination of two numbers with weight e on the second: (1 − e) · u + e · v. -/
def mixAt (e u v : EReal) : EReal := (Ideal.ofBits .f32 0x3F800000#32 - e) * u + e * v

/-- Region 1's payload at an entry: row p's weight mixes h1's entry with the affine map of row p of the block. -/
theorem pay1_5_apply (X : Vec Ideal S1024x128 .f32) (W : Vec Ideal S128x64 .f32) (b : Vec Ideal S64 .f32)
    (E : Vec Ideal S1024x1 .f32) (H : Vec Ideal S1024x64 .f32) (p : Fin 1024) (q : Fin 64) :
    k1_pay1 X W b E H (ix2 p q)
      = mixAt (E (ix2 p (0 : Fin 1))) (H (ix2 p q)) (lin (row X p) (mat W) (vec b) q) := by
  show broadcastTo S1024x64 (subf (broadcast S1024x1 (Scalar.ofBits (F := Ideal) .f32 0x3F800000#32))
          (shapeCast S1024x1 E shapeCasts_S1024x1_S1024x1)) broadcasts_S1024x1_S1024x64 (ix2 p q)
        * shapeCast S1024x64 H shapeCasts_S1024x64_S1024x64 (ix2 p q)
      + broadcastTo S1024x64 (shapeCast S1024x1 E shapeCasts_S1024x1_S1024x1) broadcasts_S1024x1_S1024x64 (ix2 p q)
        * (FloatOps.matmul dot_S1024x128_S128x64_S1024x64_1_0_0_1_n_n none
              (shapeCast S1024x128 X shapeCasts_S1024x128_S1024x128) W (constant (F := Ideal) S1024x64 .f32 0x00000000#32) (ix2 p q)
            + broadcastTo S1024x64 (shapeCast S1x64 b shapeCasts_S64_S1x64) broadcasts_S1x64_S1024x64 (ix2 p q)) = _
  rw [shapeCast_self, shapeCast_self, shapeCast_self, Keepdims.broadcastTo_a1_ab_apply, Keepdims.broadcastTo_a1_ab_apply,
    RowVector.broadcastTo_row (by decide), RowVector.shapeCast_row,
    PlainDot.matmul_zero_apply dot_S1024x128_S128x64_S1024x64_1_0_0_1_n_n rfl]
  rfl

/-- The reference's mix at an entry. -/
theorem mixCol_apply (epsc : Cert.RefSpec.V Cert.ReferenceIdeal.S8192x1) (h1 h2 : Cert.RefSpec.V Cert.ReferenceIdeal.S8192x64)
    (r : Fin 8192) (q : Fin 64) :
    Cert.RefSpec.mixCol epsc h1 h2 (ix2 r q) = mixAt (epsc (ix2 r (0 : Fin 1))) (h1 (ix2 r q)) (h2 (ix2 r q)) := by
  show broadcastInDim Cert.ReferenceIdeal.S8192x64 ![0, 1] _
          (subf (broadcastInDim Cert.ReferenceIdeal.S8192x1 ![] _ (constant (F := Ideal) Cert.ReferenceIdeal.S_ .f32 0x3F800000#32)) epsc) (ix2 r q)
        * h1 (ix2 r q)
      + broadcastInDim Cert.ReferenceIdeal.S8192x64 ![0, 1] _ epsc (ix2 r q) * h2 (ix2 r q) = _
  rw [ColumnInDim.broadcastInDim_lanes, ColumnInDim.broadcastInDim_lanes]
  show (broadcastInDim Cert.ReferenceIdeal.S8192x1 ![] _ (constant (F := Ideal) Cert.ReferenceIdeal.S_ .f32 0x3F800000#32) (ix2 r (0 : Fin 1))
          - epsc (ix2 r (0 : Fin 1))) * h1 (ix2 r q) + epsc (ix2 r (0 : Fin 1)) * h2 (ix2 r q) = _
  rw [broadcastInDim_apply _ _ _ (ix2 r (0 : Fin 1)) ix0 (fun a => a.elim0)]
  rfl

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 1) = 0 :=
  (by decide +kernel : ∀ t : Fin grid1.N, win1_2.index t (0 : Fin 1) = 0)
theorem idx1_3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)
theorem idx1_4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)
theorem idx1_5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)

/-- Window 0's block at point t holds rows 1024·t … 1024·t + 1023 of the second neighbour sum. -/
theorem iblk1_0_apply (V : Entry Ideal) (c : Dev nD) (t : Fin cfg1.N) (p : Fin 1024) (k : Fin 128) (r : Fin 8192)
    (hr : r.val = 1024 * t.val + p.val) :
    (iblk1 V c 0 t : Vec Ideal S1024x128 .f32) (ix2 p k) = (V c main_v20 : S8192x128.Idx → EReal) (ix2 r k) := by
  obtain ⟨e0, e1⟩ := idx1_0 t
  unfold iblk1
  rw [View.read_apply]
  show V c main_v20 _ = V c main_v20 _
  refine congrArg (V c main_v20) ?_
  funext a
  apply Fin.ext
  match a with
  | ⟨0, _⟩ => show win1_0.index t (0 : Fin 2) * 1024 + 1 * p.val = r.val; omega
  | ⟨1, _⟩ => show win1_0.index t (1 : Fin 2) * 128 + 1 * k.val = k.val; omega

/-- Window 1's block is the whole weight matrix at every point. -/
theorem iblk1_1_eq (V : Entry Ideal) (c : Dev nD) (t : Fin cfg1.N) :
    (iblk1 V c 1 t : Vec Ideal S128x64 .f32) = (V c main_arg8 : S128x64.Idx → EReal) := by
  obtain ⟨e0, e1⟩ := idx1_1 t
  funext y
  unfold iblk1
  rw [View.read_apply]
  show V c main_arg8 _ = V c main_arg8 _
  refine congrArg (V c main_arg8) ?_
  funext a
  apply Fin.ext
  match a with
  | ⟨0, _⟩ => show win1_1.index t (0 : Fin 2) * 128 + 1 * (y 0).val = (y 0).val; omega
  | ⟨1, _⟩ => show win1_1.index t (1 : Fin 2) * 64 + 1 * (y 1).val = (y 1).val; omega

/-- Window 2's block is the whole bias vector at every point. -/
theorem iblk1_2_eq (V : Entry Ideal) (c : Dev nD) (t : Fin cfg1.N) :
    (iblk1 V c 2 t : Vec Ideal S64 .f32) = (V c main_arg9 : S64.Idx → EReal) := by
  have e0 := idx1_2 t
  funext y
  unfold iblk1
  rw [View.read_apply]
  show V c main_arg9 _ = V c main_arg9 _
  refine congrArg (V c main_arg9) ?_
  funext a
  apply Fin.ext
  match a with
  | ⟨0, _⟩ => show win1_2.index t (0 : Fin 1) * 64 + 1 * (y 0).val = (y 0).val; omega

/-- Window 3's block at point t holds rows 1024·t … 1024·t + 1023 of h1. -/
theorem iblk1_3_apply (V : Entry Ideal) (c : Dev nD) (t : Fin cfg1.N) (p : Fin 1024) (q : Fin 64) (r : Fin 8192)
    (hr : r.val = 1024 * t.val + p.val) :
    (iblk1 V c 3 t : Vec Ideal S1024x64 .f32) (ix2 p q) = (V c main_v10_0 : S8192x64.Idx → EReal) (ix2 r q) := by
  obtain ⟨e0, e1⟩ := idx1_3 t
  unfold iblk1
  rw [View.read_apply]
  show V c main_v10_0 _ = V c main_v10_0 _
  refine congrArg (V c main_v10_0) ?_
  funext a
  apply Fin.ext
  match a with
  | ⟨0, _⟩ => show win1_3.index t (0 : Fin 2) * 1024 + 1 * p.val = r.val; omega
  | ⟨1, _⟩ => show win1_3.index t (1 : Fin 2) * 64 + 1 * q.val = q.val; omega

/-- Window 4's block at point t holds rows 1024·t … 1024·t + 1023 of the weights' column. -/
theorem iblk1_4_apply (V : Entry Ideal) (c : Dev nD) (t : Fin cfg1.N) (p : Fin 1024) (u : Fin 1) (r : Fin 8192)
    (hr : r.val = 1024 * t.val + p.val) :
    (iblk1 V c 4 t : Vec Ideal S1024x1 .f32) (ix2 p u) = (V c main_v21 : S8192x1.Idx → EReal) (ix2 r u) := by
  obtain ⟨e0, e1⟩ := idx1_4 t
  unfold iblk1
  rw [View.read_apply]
  show V c main_v21 _ = V c main_v21 _
  refine congrArg (V c main_v21) ?_
  funext a
  apply Fin.ext
  match a with
  | ⟨0, _⟩ => show win1_4.index t (0 : Fin 2) * 1024 + 1 * p.val = r.val; omega
  | ⟨1, _⟩ => show win1_4.index t (1 : Fin 2) * 1 + 1 * u.val = u.val; omega

/-- One entry of the output block: when row p of each row-blocked operand is row r of its array, the payload at
    (p, q) is the reference's mix at (r, q). -/
theorem pay1_5_row (x : Cert.RefSpec.V Cert.ReferenceIdeal.S8192x128) (W : Vec Ideal S128x64 .f32) (b : Vec Ideal S64 .f32)
    (e : Cert.RefSpec.V Cert.ReferenceIdeal.S8192x1) (h : Cert.RefSpec.V Cert.ReferenceIdeal.S8192x64)
    (X : Vec Ideal S1024x128 .f32) (E : Vec Ideal S1024x1 .f32) (H : Vec Ideal S1024x64 .f32)
    (p : Fin 1024) (q : Fin 64) (r : Fin 8192)
    (hX : ∀ k : Fin 128, X (ix2 p k) = x (ix2 r k)) (hE : E (ix2 p (0 : Fin 1)) = e (ix2 r (0 : Fin 1)))
    (hH : H (ix2 p q) = h (ix2 r q)) :
    k1_pay1 X W b E H (ix2 p q) = Cert.RefSpec.mixCol e h (Cert.RefSpec.lin64 x W b) (ix2 r q) := by
  rw [pay1_5_apply, mixCol_apply, lin64_apply, hE, hH, show row X p = row x r from funext hX]

/-- What point t writes back is block t of the reference's mix. -/
theorem flushed1_5_eq (V : Entry Ideal) (c : Dev nD) (t : Fin cfg1.N) :
    (dat1 V c).flushed 5 t = ((cfg1.win 5).blk t).view.read (Elt Ideal)
      (Cert.RefSpec.mixCol (V c main_v21) (V c main_v10_0)
        (Cert.RefSpec.lin64 (V c main_v20) (V c main_arg8) (V c main_arg9))) := by
  show (cfg1.win 5).cut (grid1.coords t) ((dat1 V c).after 5 t) = _
  rw [after1_5]
  unfold out1_5
  rw [View.canon_unit_zero zeros2]
  simp only [View.ld_unit_zero (S := S1024x128) zeros2, View.ld_unit_zero (S := S128x64) zeros2,
    View.ld_unit_zero (S := S64) zeros1, View.ld_unit_zero (S := S1024x1) zeros2, View.ld_unit_zero (S := S1024x64) zeros2]
  rw [iblk1_1_eq, iblk1_2_eq]
  have ht : t.val < 8 := lt_of_lt_of_eq t.isLt N_1
  obtain ⟨e0, e1⟩ := idx1_5 t
  funext j
  obtain ⟨p, q, hj⟩ : ∃ (p : Fin 1024) (q : Fin 64), j = ix2 p q := ⟨j 0, j 1, eq_ix2 j⟩
  subst hj
  have hemb : ((cfg1.win 5).blk t).view.emb (ix2 p q) = ix2 (⟨1024 * t.val + p.val, by omega⟩ : Fin 8192) q := by
    funext a
    apply Fin.ext
    match a with
    | ⟨0, _⟩ => show win1_5.index t (0 : Fin 2) * 1024 + 1 * p.val = 1024 * t.val + p.val; omega
    | ⟨1, _⟩ => show win1_5.index t (1 : Fin 2) * 64 + 1 * q.val = q.val; omega
  show k1_pay1 (iblk1 V c 0 t) (V c main_arg8) (V c main_arg9) (iblk1 V c 4 t) (iblk1 V c 3 t) (ix2 p q)
    = Cert.RefSpec.mixCol (V c main_v21) (V c main_v10_0)
        (Cert.RefSpec.lin64 (V c main_v20) (V c main_arg8) (V c main_arg9)) (((cfg1.win 5).blk t).view.emb (ix2 p q))
  rw [hemb]
  exact pay1_5_row (V c main_v20) (V c main_arg8) (V c main_arg9) (V c main_v21) (V c main_v10_0)
    (iblk1 V c 0 t) (iblk1 V c 4 t) (iblk1 V c 3 t) p q _
    (fun k => iblk1_0_apply V c t p k _ rfl) (iblk1_4_apply V c t p 0 _ rfl) (iblk1_3_apply V c t p q _ rfl)

/-- An index of h's array is in point t's block iff each coordinate is in the block's range on its axis. -/
theorem mem_blk1_5 (t : Fin cfg1.N) (i : S8192x64.Idx) :
    i ∈ ((cfg1.win 5).blk t).view.set ↔ ∀ a : Fin 2, win1_5.index t a * S1024x64.size a ≤ (i a).val
      ∧ (i a).val < win1_5.index t a * S1024x64.size a + S1024x64.size a := by
  show i ∈ ((View.whole main_v22).slice (win1_5.rect t)).set ↔ _
  rw [View.set_slice_whole, Rect.mem_set_unit]
  exact Iff.rfl

/-- Row r of h's array is in the block of point r / 1024. -/
theorem cover1_5 (i : S8192x64.Idx) :
    ∃ t : Fin cfg1.N, (cfg1.win 5).flush t = true ∧ i ∈ ((cfg1.win 5).blk t).view.set := by
  have hi0 : (i 0).val < 8192 := (i 0).isLt
  have hi1 : (i 1).val < 64 := (i 1).isLt
  obtain ⟨t, ht⟩ : ∃ t : Fin cfg1.N, t.val = (i 0).val / 1024 :=
    ⟨⟨(i 0).val / 1024, by rw [show cfg1.N = 8 from N_1]; omega⟩, rfl⟩
  obtain ⟨e0, e1⟩ := idx1_5 t
  refine ⟨t, flush1_5 t, ?_⟩
  rw [mem_blk1_5]
  intro a
  match a with
  | ⟨0, _⟩ =>
    show win1_5.index t (0 : Fin 2) * 1024 ≤ (i 0).val ∧ (i 0).val < win1_5.index t (0 : Fin 2) * 1024 + 1024
    omega
  | ⟨1, _⟩ =>
    show win1_5.index t (1 : Fin 2) * 64 ≤ (i 1).val ∧ (i 1).val < win1_5.index t (1 : Fin 2) * 64 + 64
    omega

/-- After region 1, h's array is the reference's mix of h1 with the second affine map of the second neighbour sum. -/
theorem arr1_5 (V : Entry Ideal) (c : Dev nD) :
    (dat1 V c).arrAt 5 cfg1.N = Cert.RefSpec.mixCol (V c main_v21) (V c main_v10_0)
      (Cert.RefSpec.lin64 (V c main_v20) (V c main_arg8) (V c main_arg9)) :=
  (dat1 V c).arrAt_eq_of_cover 5 _ (fun t _ => flushed1_5_eq V c t) cover1_5

end Cert.KernelIdeal.Hand

end
-- ==== Proof.KI.Val2.lean ====
/-
  The value of the third kernel region: the 8192 × 8192 array it writes, tile by tile over an 8 × 8 grid, is
  (h hᵀ + x xᵀ) · ½  of the two arrays it reads — h (8192 × 64) and x (8192 × 128).

  At a grid point (i, j) the body loads row block i and row block j of each array (1024 rows each), rounds them
  (the identity on the extended reals), transposes the second of each pair and multiplies into a zero
  accumulator, adds the two products and scales by one half. So entry (p, q) of the tile is

      (∑ k < 64, h(1024 i + p, k) · h(1024 j + q, k)  +  ∑ k < 128, x(1024 i + p, k) · x(1024 j + q, k)) · ½,

  which is entry (1024 i + p, 1024 j + q) of one function of the whole arrays. The 64 tiles cover the result
  (row r, column s lies in tile (r / 1024, s / 1024)), so the array ends holding that function; and the host
  program's stage — transpose, product, add, scale — is the same function read entry by entry: the same sums of
  the same products, with nothing to re-associate.
-/
import proofs.«117717_j23003844838035_1_alg».proof.Proof.KI.Dats
import proofs.«117717_j23003844838035_1_alg».proof.Proof.RefSpec
import proofs.«117717_j23003844838035_1_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## One entry of a tile -/

/-- One entry of the tile: the two row-by-row products added, times one half. -/
theorem pay2_apply (x0 : Vec Ideal S1024x64 .f32) (x1 : Vec Ideal S1024x128 .f32)
    (x2 : Vec Ideal S1024x64 .f32) (x3 : Vec Ideal S1024x128 .f32) (p q : Fin 1024) :
    k2_pay1 x0 x1 x2 x3 (ix2 p q)
      = ((∑ k : Fin 64, x0 (ix2 p k) * x2 (ix2 q k)) + (∑ k : Fin 128, x1 (ix2 p k) * x3 (ix2 q k)))
          * Ideal.ofBits .f32 0x3F000000#32 := by
  unfold k2_pay1
  dsimp only
  rw [shapeCast_self, shapeCast_self]
  refine congrArg₂ (· * ·) (congrArg₂ (· + ·) ?_ ?_) rfl
  · refine (Cert.PlainDot.matmul_zero_apply _ rfl none _ _ p q).trans ?_
    refine Finset.sum_congr rfl fun k _ => ?_
    refine congrArg₂ (· * ·) rfl ?_
    exact transpose_ix2_apply _ _ k q
  · refine (Cert.PlainDot.matmul_zero_apply _ rfl none _ _ p q).trans ?_
    refine Finset.sum_congr rfl fun k _ => ?_
    refine congrArg₂ (· * ·) rfl ?_
    exact transpose_ix2_apply _ _ k q

/-! ## The whole result as one function, and a tile as its block -/

theorem hz2 : (![0, 0] : Fin 2 → Nat) = fun _ => 0 := funext fun a => by fin_cases a <;> rfl

/-- The whole result as one function of the two operand arrays: entry (r, s) is the product of row r and
    row s of the first array plus the product of row r and row s of the second, times one half. -/
def gramG (h : S8192x64.Idx → EReal) (x : S8192x128.Idx → EReal) : S8192x8192.Idx → EReal := fun i =>
  ((∑ k : Fin 64, h (ix2 (i 0) k) * h (ix2 (i 1) k)) + (∑ k : Fin 128, x (ix2 (i 0) k) * x (ix2 (i 1) k)))
    * Ideal.ofBits .f32 0x3F000000#32

/-- A tile entry is the result's entry, once each of the four loaded blocks is known to hold the rows of its
    array that the entry's row and column name. -/
theorem tile_entry (h : S8192x64.Idx → EReal) (x : S8192x128.Idx → EReal)
    (x0 : Vec Ideal S1024x64 .f32) (x1 : Vec Ideal S1024x128 .f32)
    (x2 : Vec Ideal S1024x64 .f32) (x3 : Vec Ideal S1024x128 .f32) (j : S1024x1024.Idx) (i : S8192x8192.Idx)
    (h0 : ∀ k : Fin 64, x0 (ix2 (j 0) k) = h (ix2 (i 0) k))
    (h1 : ∀ k : Fin 128, x1 (ix2 (j 0) k) = x (ix2 (i 0) k))
    (h2 : ∀ k : Fin 64, x2 (ix2 (j 1) k) = h (ix2 (i 1) k))
    (h3 : ∀ k : Fin 128, x3 (ix2 (j 1) k) = x (ix2 (i 1) k)) :
    k2_pay1 x0 x1 x2 x3 j = gramG h x i := by
  have hj : j = ix2 (n0 := 1024) (n1 := 1024) (j 0) (j 1) := eq_ix2 (n0 := 1024) (n1 := 1024) j
  refine (congrArg (k2_pay1 x0 x1 x2 x3) hj).trans ?_
  refine (pay2_apply x0 x1 x2 x3 (j 0) (j 1)).trans ?_
  unfold gramG
  simp only [h0, h1, h2, h3]

/-- The printed index maps over the 64 grid points: the row operands' blocks follow the tile's row index, the
    column operands' blocks the tile's column index, and both stay below 8. -/
theorem idx_facts4 : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = win2_4.index t (1 : Fin 2) ∧ win2_2.index t (1 : Fin 2) = 0
    ∧ win2_3.index t (0 : Fin 2) = win2_4.index t (1 : Fin 2) ∧ win2_3.index t (1 : Fin 2) = 0
    ∧ win2_4.index t (0 : Fin 2) ≤ 7 ∧ win2_4.index t (1 : Fin 2) ≤ 7 :=
  (by decide +kernel : ∀ t : Fin grid2.N, _)

/-- Every tile is some grid point's. -/
theorem idx_onto4 : ∀ (q0 q1 : Fin 8), ∃ t : Fin cfg2.N, win2_4.index t = ![q0.val, q1.val] :=
  (by decide +kernel : ∀ (q0 q1 : Fin 8), ∃ t : Fin grid2.N, win2_4.index t = ![q0.val, q1.val])

variable (V : Entry Ideal)

/-- A row-operand block of the first array (window 0), at a point: rows of the array from the tile's row offset. -/
theorem iblk2_0_apply (c : Dev nD) (t : Fin cfg2.N) (p : Fin 1024) (k : Fin 64) (r : Fin 8192)
    (hr : r.val = win2_4.index t (0 : Fin 2) * 1024 + p.val) :
    (iblk2 V c 0 t : Vec Ideal S1024x64 .f32) (ix2 p k) = (V c main_v22 : S8192x64.Idx → EReal) (ix2 r k) := by
  obtain ⟨e0, e1, -⟩ := idx_facts4 t
  unfold iblk2
  rw [View.read_apply]
  show V c main_v22 _ = V c main_v22 _
  refine congrArg (V c main_v22) ?_
  funext a
  apply Fin.ext
  match a with
  | ⟨0, _⟩ => show win2_0.index t (0 : Fin 2) * 1024 + 1 * p.val = r.val; rw [e0, hr]; omega
  | ⟨1, _⟩ => show win2_0.index t (1 : Fin 2) * 64 + 1 * k.val = k.val; rw [e1]; omega

/-- A row-operand block of the second array (window 1), at a point. -/
theorem iblk2_1_apply (c : Dev nD) (t : Fin cfg2.N) (p : Fin 1024) (k : Fin 128) (r : Fin 8192)
    (hr : r.val = win2_4.index t (0 : Fin 2) * 1024 + p.val) :
    (iblk2 V c 1 t : Vec Ideal S1024x128 .f32) (ix2 p k) = (V c main_arg0 : S8192x128.Idx → EReal) (ix2 r k) := by
  obtain ⟨-, -, e0, e1, -⟩ := idx_facts4 t
  unfold iblk2
  rw [View.read_apply]
  show V c main_arg0 _ = V c main_arg0 _
  refine congrArg (V c main_arg0) ?_
  funext a
  apply Fin.ext
  match a with
  | ⟨0, _⟩ => show win2_1.index t (0 : Fin 2) * 1024 + 1 * p.val = r.val; rw [e0, hr]; omega
  | ⟨1, _⟩ => show win2_1.index t (1 : Fin 2) * 128 + 1 * k.val = k.val; rw [e1]; omega

/-- A column-operand block of the first array (window 2), at a point: rows from the tile's column offset. -/
theorem iblk2_2_apply (c : Dev nD) (t : Fin cfg2.N) (p : Fin 1024) (k : Fin 64) (r : Fin 8192)
    (hr : r.val = win2_4.index t (1 : Fin 2) * 1024 + p.val) :
    (iblk2 V c 2 t : Vec Ideal S1024x64 .f32) (ix2 p k) = (V c main_v22 : S8192x64.Idx → EReal) (ix2 r k) := by
  obtain ⟨-, -, -, -, e0, e1, -⟩ := idx_facts4 t
  unfold iblk2
  rw [View.read_apply]
  show V c main_v22 _ = V c main_v22 _
  refine congrArg (V c main_v22) ?_
  funext a
  apply Fin.ext
  match a with
  | ⟨0, _⟩ => show win2_2.index t (0 : Fin 2) * 1024 + 1 * p.val = r.val; rw [e0, hr]; omega
  | ⟨1, _⟩ => show win2_2.index t (1 : Fin 2) * 64 + 1 * k.val = k.val; rw [e1]; omega

/-- A column-operand block of the second array (window 3), at a point. -/
theorem iblk2_3_apply (c : Dev nD) (t : Fin cfg2.N) (p : Fin 1024) (k : Fin 128) (r : Fin 8192)
    (hr : r.val = win2_4.index t (1 : Fin 2) * 1024 + p.val) :
    (iblk2 V c 3 t : Vec Ideal S1024x128 .f32) (ix2 p k) = (V c main_arg0 : S8192x128.Idx → EReal) (ix2 r k) := by
  obtain ⟨-, -, -, -, -, -, e0, e1, -⟩ := idx_facts4 t
  unfold iblk2
  rw [View.read_apply]
  show V c main_arg0 _ = V c main_arg0 _
  refine congrArg (V c main_arg0) ?_
  funext a
  apply Fin.ext
  match a with
  | ⟨0, _⟩ => show win2_3.index t (0 : Fin 2) * 1024 + 1 * p.val = r.val; rw [e0, hr]; omega
  | ⟨1, _⟩ => show win2_3.index t (1 : Fin 2) * 128 + 1 * k.val = k.val; rw [e1]; omega

/-- What a grid point writes back is its tile of the whole result. -/
theorem flushed4_eq (c : Dev nD) (t : Fin cfg2.N) :
    (dat2 V c).flushed 4 t = ((cfg2.win 4).blk t).view.read (Elt Ideal) (gramG (V c main_v22) (V c main_arg0)) := by
  show (cfg2.win 4).cut (grid2.coords t) ((dat2 V c).after 4 t) = _
  rw [after2_4]
  unfold out2_4
  rw [View.canon_unit_zero hz2]
  simp only [View.ld_unit_zero (S := S1024x64) hz2, View.ld_unit_zero (S := S1024x128) hz2]
  funext j
  show k2_pay1 (iblk2 V c 0 t) (iblk2 V c 1 t) (iblk2 V c 2 t) (iblk2 V c 3 t) (j : S1024x1024.Idx)
    = gramG (V c main_v22) (V c main_arg0) (((cfg2.win 4).blk t).view.emb j)
  have r0 : ((((cfg2.win 4).blk t).view.emb j : S8192x8192.Idx) 0).val = win2_4.index t (0 : Fin 2) * 1024 + ((j : S1024x1024.Idx) 0).val := by
    show win2_4.index t (0 : Fin 2) * 1024 + 1 * ((j : S1024x1024.Idx) 0).val = _; omega
  have r1 : ((((cfg2.win 4).blk t).view.emb j : S8192x8192.Idx) 1).val = win2_4.index t (1 : Fin 2) * 1024 + ((j : S1024x1024.Idx) 1).val := by
    show win2_4.index t (1 : Fin 2) * 1024 + 1 * ((j : S1024x1024.Idx) 1).val = _; omega
  exact tile_entry (V c main_v22) (V c main_arg0) (iblk2 V c 0 t) (iblk2 V c 1 t) (iblk2 V c 2 t) (iblk2 V c 3 t) j
    (((cfg2.win 4).blk t).view.emb j)
    (fun k => iblk2_0_apply V c t _ k _ r0) (fun k => iblk2_1_apply V c t _ k _ r0)
    (fun k => iblk2_2_apply V c t _ k _ r1) (fun k => iblk2_3_apply V c t _ k _ r1)

/-- An index of the result is in a point's tile iff each coordinate is in the tile's range on its axis. -/
theorem mem_blk4 (t : Fin cfg2.N) (i : S8192x8192.Idx) :
    i ∈ ((cfg2.win 4).blk t).view.set ↔ ∀ a : Fin 2, win2_4.index t a * S1024x1024.size a ≤ (i a).val ∧ (i a).val < win2_4.index t a * S1024x1024.size a + S1024x1024.size a := by
  show i ∈ ((View.whole main_v42).slice (win2_4.rect t)).set ↔ _
  rw [View.set_slice_whole, Rect.mem_set_unit]
  exact Iff.rfl

/-- Every entry of the result is in some point's tile: row r, column s in tile (r / 1024, s / 1024). -/
theorem cover4 (i : S8192x8192.Idx) :
    ∃ t : Fin cfg2.N, (cfg2.win 4).flush t = true ∧ i ∈ ((cfg2.win 4).blk t).view.set := by
  have hi0 : (i 0).val < 8192 := (i 0).isLt
  have hi1 : (i 1).val < 8192 := (i 1).isLt
  obtain ⟨t, ht⟩ := idx_onto4 ⟨(i 0).val / 1024, by omega⟩ ⟨(i 1).val / 1024, by omega⟩
  have q0 : win2_4.index t (0 : Fin 2) = (i 0).val / 1024 := congrFun ht 0
  have q1 : win2_4.index t (1 : Fin 2) = (i 1).val / 1024 := congrFun ht 1
  refine ⟨t, flush2_4 t, ?_⟩
  rw [mem_blk4]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 1024 ≤ (i 1).val ∧ (i 1).val < win2_4.index t (1 : Fin 2) * 1024 + 1024; omega

/-- The result array after region 2: the one function of the two operand arrays. -/
theorem arr2_4_G (c : Dev nD) : (dat2 V c).arrAt 4 cfg2.N = gramG (V c main_v22) (V c main_arg0) :=
  (dat2 V c).arrAt_eq_of_cover 4 (gramG (V c main_v22) (V c main_arg0)) (fun t _ => flushed4_eq V c t) cover4

/-! ## The host program's stage is the same function -/

/-- The reference's stage  (h hᵀ + x xᵀ) · ½  read at an entry is the same two sums of products. -/
theorem gram_eq_gramG [Cert.ReferenceIdeal.Facts] (h : Cert.RefSpec.V Cert.ReferenceIdeal.S8192x64)
    (x : Cert.RefSpec.V Cert.ReferenceIdeal.S8192x128) : Cert.RefSpec.gram h x = gramG h x := by
  funext i
  have hi : i = ix2 (n0 := 8192) (n1 := 8192) (i 0) (i 1) := eq_ix2 (n0 := 8192) (n1 := 8192) i
  refine (congrArg (Cert.RefSpec.gram h x) hi).trans ?_
  unfold Cert.RefSpec.gram gramG
  refine congrArg₂ (· * ·) (congrArg₂ (· + ·) ?_ ?_) rfl
  · refine (Cert.PlainDot.dotGeneral_apply _ rfl none _ _ _ (i 0) (i 1)).trans ?_
    refine Finset.sum_congr rfl fun k _ => ?_
    refine congrArg₂ (· * ·) rfl ?_
    exact transpose_ix2_apply _ _ k (i 1)
  · refine (Cert.PlainDot.dotGeneral_apply _ rfl none _ _ _ (i 0) (i 1)).trans ?_
    refine Finset.sum_congr rfl fun k _ => ?_
    refine congrArg₂ (· * ·) rfl ?_
    exact transpose_ix2_apply _ _ k (i 1)

/-- The result array after region 2 is the reference's stage of the two arrays the region reads. -/
theorem arr2_4 [Cert.ReferenceIdeal.Facts] (V : Entry Ideal) (c : Dev nD) :
    (dat2 V c).arrAt 4 cfg2.N = Cert.RefSpec.gram (V c main_v22) (V c main_arg0) :=
  (arr2_4_G V c).trans (gram_eq_gramG (V c main_v22) (V c main_arg0)).symm

end Cert.KernelIdeal.Hand

end
-- ==== Proof.KI.HostVals.lean ====
/-
  The host stretches of the program, read as the stages of the reference.

  Between its three kernel regions the program runs straight lines of host operations. Each line is, operation for
  operation, a stretch of the reference's own text — the same gathers, scatters, reductions and broadcasts under
  the same dimension records — so what a line leaves in its last result buffer is one of the reference's named
  stages applied to the contents the line started from, whatever those contents are:

    the first stretch    the neighbour sum of the input rows;
    the second stretch   the neighbour sum of the rectified rows, and the mixing weights spread into a column;
    the last three       the column-wise normalisation of the hidden state (its column means, the outlined
                         variance, then the scaling by gamma and the shift by beta).

  A stretch changes only the buffers its operations write; every other buffer keeps its contents.
-/
import proofs.«117717_j23003844838035_1_alg».proof.Proof.Gen.KernelIdeal.Launch
import proofs.«117717_j23003844838035_1_alg».proof.Proof.Gen.KernelIdeal.Regions
import proofs.«117717_j23003844838035_1_alg».proof.Proof.RefSpec
import Idealize.ShloMosaic.Lib.StableHlo.Run

noncomputable section

namespace Cert.KernelIdeal.Hand

open Cert.KernelIdeal Cert.KernelIdeal.Gen
open Idealize.ShloMosaic Idealize.ShloMosaic.TcCoe
open Idealize.SL.Sem

variable [Cert.ReferenceIdeal.Facts]

/-! ## The first stretch: the neighbour sum of the input rows -/

theorem host0_v9 (W : Valuation τ sig (Elt Ideal)) :
    StableHlo.after hostOps0 W (Proc.devRef .tc main_v9)
      = Cert.RefSpec.nsum (W (Proc.devRef .tc main_arg0)) (W (Proc.devRef .tc main_arg2)) (W (Proc.devRef .tc main_arg3)) := by
  unfold hostOps0
  after_results
  generalize W (Proc.devRef .tc main_arg0) = a0
  generalize W (Proc.devRef .tc main_arg2) = a2
  generalize W (Proc.devRef .tc main_arg3) = a3
  rfl

/-! ## The second stretch: the neighbour sum of the rectified rows, and the mixing weights as a column -/

theorem host1_v20 (W : Valuation τ sig (Elt Ideal)) :
    StableHlo.after hostOps1 W (Proc.devRef .tc main_v20)
      = Cert.RefSpec.nsum (W (Proc.devRef .tc main_v10_1)) (W (Proc.devRef .tc main_arg2)) (W (Proc.devRef .tc main_arg3)) := by
  unfold hostOps1
  after_results
  generalize W (Proc.devRef .tc main_v10_1) = a0
  generalize W (Proc.devRef .tc main_arg2) = a2
  generalize W (Proc.devRef .tc main_arg3) = a3
  rfl

theorem host1_v21 (W : Valuation τ sig (Elt Ideal)) :
    StableHlo.after hostOps1 W (Proc.devRef .tc main_v21)
      = broadcastInDim Cert.ReferenceIdeal.S8192x1 ![0] Cert.ReferenceIdeal.Facts₀.bcast_S8192_S8192x1_0 (W (Proc.devRef .tc main_arg10)) := by
  unfold hostOps1
  after_results

/-! ## The last three stretches: the column-wise normalisation of the hidden state -/

theorem host2_v41 (W : Valuation τ sig (Elt Ideal)) :
    StableHlo.after hostOps2_2 (StableHlo.after hostOps2_1 (StableHlo.after hostOps2 W)) (Proc.devRef .tc main_v41)
      = Cert.RefSpec.bn (W (Proc.devRef .tc main_v22)) (W (Proc.devRef .tc main_arg11)) (W (Proc.devRef .tc main_arg12)) := by
  unfold hostOps2_2 hostOps2_1 hostOps2
  after_results_simp
  generalize W (Proc.devRef .tc main_v22) = h
  generalize W (Proc.devRef .tc main_arg11) = g
  generalize W (Proc.devRef .tc main_arg12) = b
  rfl

/-! ## What a stretch does not write it leaves alone -/

section Keep

variable {F : FTy → Type} [FloatOps F]

theorem host0_keep (W : Valuation τ sig (Elt F)) (b : Ref sig .tc) (h : b ∉ hostOps0_W) :
    StableHlo.after hostOps0 W (Proc.devRef .tc b) = W (Proc.devRef .tc b) :=
  StableHlo.after_of_writes_sub hostOps0 W hostOps0_writes h

theorem host1_keep (W : Valuation τ sig (Elt F)) (b : Ref sig .tc) (h : b ∉ hostOps1_W) :
    StableHlo.after hostOps1 W (Proc.devRef .tc b) = W (Proc.devRef .tc b) :=
  StableHlo.after_of_writes_sub hostOps1 W hostOps1_writes h

theorem host2_keep (W : Valuation τ sig (Elt F)) (b : Ref sig .tc) (h0 : b ∉ hostOps2_W) (h1 : b ∉ hostOps2_1_W)
    (h2 : b ∉ hostOps2_2_W) :
    StableHlo.after hostOps2_2 (StableHlo.after hostOps2_1 (StableHlo.after hostOps2 W)) (Proc.devRef .tc b)
      = W (Proc.devRef .tc b) :=
  (StableHlo.after_of_writes_sub hostOps2_2 _ hostOps2_2_writes h2).trans
    ((StableHlo.after_of_writes_sub hostOps2_1 _ hostOps2_1_writes h1).trans
      (StableHlo.after_of_writes_sub hostOps2 W hostOps2_writes h0))

end Keep

end Cert.KernelIdeal.Hand

end
-- ==== Proof.KI.Final.lean ====
/-
  The two results of the idealized program, read off the fold of its segments, are the reference's stages applied
  to the launch contents of the arguments.

  The hidden state h (region 1's output array) is the row-wise mix, by eps as a column, of region 0's first output
  — the affine map of x — with the second affine map of the neighbour sum of region 0's second output — the
  rectified affine map of the neighbour sum of x; every array on the way is carried unchanged from the segment
  that makes it to the segment that reads it, and every argument is read at its launch contents. The first result
  is region 2's output, the Gram stage of h and x; the second is the host's batch normalisation of h.
-/
import proofs.«117717_j23003844838035_1_alg».proof.Proof.KI.Args
import proofs.«117717_j23003844838035_1_alg».proof.Proof.RefSpec
import proofs.«117717_j23003844838035_1_alg».proof.Proof.KI.Val0
import proofs.«117717_j23003844838035_1_alg».proof.Proof.KI.Val1
import proofs.«117717_j23003844838035_1_alg».proof.Proof.KI.Val2
import proofs.«117717_j23003844838035_1_alg».proof.Proof.KI.HostVals

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable [Cert.ReferenceIdeal.Facts]

variable (m : (ℓ : Loc nD τ sig) → Buf (Elt Ideal) ℓ) (ρ : Dev nD → PrngReg)

/-! ## The intermediate arrays -/

/-- The neighbour sum of x, as region 0 finds it. -/
theorem W1_v9 (c : Dev nD) : W1 m ρ c (Proc.devRef .tc main_v9)
    = Cert.RefSpec.nsum (m ((c : Thread nD τ).loc main_arg0)) (m ((c : Thread nD τ).loc main_arg2)) (m ((c : Thread nD τ).loc main_arg3)) :=
  host0_v9 (W0 m ρ c)

/-- Region 0's first output: the affine map of x. -/
theorem W2_v10_0 (c : Dev nD) : W2 m ρ c (Proc.devRef .tc main_v10_0)
    = Cert.RefSpec.lin64 (m ((c : Thread nD τ).loc main_arg0)) (m ((c : Thread nD τ).loc main_arg4)) (m ((c : Thread nD τ).loc main_arg5)) := by
  refine (W2_arr m ρ c 6).trans ((arr0_6 (V1 m ρ) c).trans ?_)
  rw [show V1 m ρ c main_arg0 = m ((c : Thread nD τ).loc main_arg0) from W1_launch m ρ c main_arg0 (by decide),
    show V1 m ρ c main_arg4 = m ((c : Thread nD τ).loc main_arg4) from W1_launch m ρ c main_arg4 (by decide),
    show V1 m ρ c main_arg5 = m ((c : Thread nD τ).loc main_arg5) from W1_launch m ρ c main_arg5 (by decide)]

/-- Region 0's second output: the rectified affine map of the neighbour sum of x. -/
theorem W2_v10_1 (c : Dev nD) : W2 m ρ c (Proc.devRef .tc main_v10_1)
    = Cert.RefSpec.lin128relu (Cert.RefSpec.nsum (m ((c : Thread nD τ).loc main_arg0)) (m ((c : Thread nD τ).loc main_arg2)) (m ((c : Thread nD τ).loc main_arg3)))
        (m ((c : Thread nD τ).loc main_arg6)) (m ((c : Thread nD τ).loc main_arg7)) := by
  refine (W2_arr m ρ c 7).trans ((arr0_7 (V1 m ρ) c).trans ?_)
  rw [show V1 m ρ c main_v9 = _ from W1_v9 m ρ c,
    show V1 m ρ c main_arg6 = m ((c : Thread nD τ).loc main_arg6) from W1_launch m ρ c main_arg6 (by decide),
    show V1 m ρ c main_arg7 = m ((c : Thread nD τ).loc main_arg7) from W1_launch m ρ c main_arg7 (by decide)]

/-- The neighbour sum of region 0's second output, as region 1 finds it. -/
theorem W3_v20 (c : Dev nD) : W3 m ρ c (Proc.devRef .tc main_v20)
    = Cert.RefSpec.nsum (Cert.RefSpec.lin128relu (Cert.RefSpec.nsum (m ((c : Thread nD τ).loc main_arg0)) (m ((c : Thread nD τ).loc main_arg2)) (m ((c : Thread nD τ).loc main_arg3)))
        (m ((c : Thread nD τ).loc main_arg6)) (m ((c : Thread nD τ).loc main_arg7))) (m ((c : Thread nD τ).loc main_arg2)) (m ((c : Thread nD τ).loc main_arg3)) := by
  refine (host1_v20 (W2 m ρ c)).trans ?_
  rw [W2_v10_1 m ρ c, W2_launch m ρ c main_arg2 (by decide) (by decide) (by decide),
    W2_launch m ρ c main_arg3 (by decide) (by decide) (by decide)]

/-- eps as a column, as region 1 finds it. -/
theorem W3_v21 (c : Dev nD) : W3 m ρ c (Proc.devRef .tc main_v21)
    = broadcastInDim Cert.ReferenceIdeal.S8192x1 ![0] Cert.ReferenceIdeal.Facts₀.bcast_S8192_S8192x1_0 (m ((c : Thread nD τ).loc main_arg10)) := by
  refine (host1_v21 (W2 m ρ c)).trans ?_
  rw [W2_launch m ρ c main_arg10 (by decide) (by decide) (by decide)]

/-- Region 0's first output is still in place when region 1 reads it. -/
theorem W3_v10_0 (c : Dev nD) : W3 m ρ c (Proc.devRef .tc main_v10_0)
    = Cert.RefSpec.lin64 (m ((c : Thread nD τ).loc main_arg0)) (m ((c : Thread nD τ).loc main_arg4)) (m ((c : Thread nD τ).loc main_arg5)) :=
  (W3_keep m ρ c main_v10_0 (by decide)).trans (W2_v10_0 m ρ c)

/-! ## The hidden state and the two results -/

/-- Region 1's output array is the reference's hidden state of the arguments. -/
theorem h_eq (c : Dev nD) : W4 m ρ c (Proc.devRef .tc main_v22)
    = Cert.RefSpec.hOf (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) := by
  refine (W4_arr m ρ c 5).trans ((arr1_5 (V3 m ρ) c).trans ?_)
  rw [show V3 m ρ c main_v21 = _ from W3_v21 m ρ c, show V3 m ρ c main_v10_0 = _ from W3_v10_0 m ρ c,
    show V3 m ρ c main_v20 = _ from W3_v20 m ρ c,
    show V3 m ρ c main_arg8 = m ((c : Thread nD τ).loc main_arg8) from W3_launch m ρ c main_arg8 (by decide) (by decide) (by decide) (by decide),
    show V3 m ρ c main_arg9 = m ((c : Thread nD τ).loc main_arg9) from W3_launch m ρ c main_arg9 (by decide) (by decide) (by decide) (by decide)]
  rfl

/-- The hidden state is still in place when region 2 and the batch normalisation's stretches read it. -/
theorem W7_v22 (c : Dev nD) : W7 m ρ c (Proc.devRef .tc main_v22) = W4 m ρ c (Proc.devRef .tc main_v22) :=
  W7_keep m ρ c main_v22 (by decide) (by decide) (by decide)

/-- The first result: region 2's output array is the Gram stage of the hidden state and x. -/
theorem W8_v42_eq (c : Dev nD) : W8 m ρ c (Proc.devRef .tc main_v42)
    = Cert.RefSpec.ret47 (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) := by
  refine (W8_v42 m ρ c).trans ((arr2_4 (V7 m ρ) c).trans ?_)
  rw [show V7 m ρ c main_v22 = _ from (W7_v22 m ρ c).trans (h_eq m ρ c),
    show V7 m ρ c main_arg0 = m ((c : Thread nD τ).loc main_arg0) from
      W7_launch m ρ c main_arg0 (by decide) (by decide) (by decide) (by decide) (by decide) (by decide) (by decide) (by decide)]
  rfl

/-- The second result: the host's batch normalisation of the hidden state. -/
theorem W8_v41_eq (c : Dev nD) : W8 m ρ c (Proc.devRef .tc main_v41)
    = Cert.RefSpec.out66 (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) := by
  refine (W8_of_ne m ρ c main_v41 (by decide)).trans ((host2_v41 (W4 m ρ c)).trans ?_)
  rw [h_eq m ρ c,
    W4_launch m ρ c main_arg11 (by decide) (by decide) (by decide) (by decide) (by decide),
    W4_launch m ρ c main_arg12 (by decide) (by decide) (by decide) (by decide) (by decide)]
  rfl

end Cert.KernelIdeal.Hand

end
-- ==== Proof.RefRun.lean ====
/-
  The run of the reference program, read back.

  The reference's @main is a straight line of 102 array operations once its three outlined functions (the
  rectifier, the variance and, inside it, the select) are written out at their call sites over the buffers
  of each call. The line is cut into the stretches that compute one stage each of the specification:
  the affine map, the neighbour sum, the rectified affine map, the neighbour sum again, the second affine
  map, the convex combination, the first result, and the normalisation that is the second result. For each
  stretch, from ANY contents of the buffers, the buffer the stage ends in holds the stage's function of the
  buffers it reads, and every buffer the stretch does not write keeps its contents. Chained, the two result
  buffers hold the specification's two terms of the arguments' contents, and the arguments are unchanged.
-/
import proofs.«117717_j23003844838035_1_alg».proof.Proof.RefSpec
import proofs.«117717_j23003844838035_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-! ## The operations, stretch by stretch -/

/-- The first affine map of the features (%0 … %3). -/
abbrev W1 : List (HloOp τ sig (Elt F)) :=
  [ StableHlo.binary main_arg0 main_arg4 main_v0 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S8192x64 ![0, 1] bcast_S1x64_S8192x64_0_1 : (⟨S1x64, .f32⟩ : BufTy).Contents (Elt F) → (⟨S8192x64, .f32⟩ : BufTy).Contents (Elt F)),
    StableHlo.binary main_v0 main_v2 main_v3 (addf : (⟨S8192x64, .f32⟩ : BufTy).Contents (Elt F) → (⟨S8192x64, .f32⟩ : BufTy).Contents (Elt F) → (⟨S8192x64, .f32⟩ : BufTy).Contents (Elt F)) ]

/-- The neighbour sum of the features (%c … %13). -/
abbrev W2 : List (HloOp τ sig (Elt F)) :=
  [ StableHlo.nullary main_c (constantI S_ 32 0#32),
    StableHlo.unary main_c main_v4 (broadcastInDim S262144 ![] bcast_S_S262144 : (⟨S_, .i32⟩ : BufTy).Contents (Elt F) → (⟨S262144, .i32⟩ : BufTy).Contents (Elt F)),
    StableHlo.binary main_arg2 main_v4 main_v5 (cmpi .slt : (⟨S262144, .i32⟩ : BufTy).Contents (Elt F) → (⟨S262144, .i32⟩ : BufTy).Contents (Elt F) → (⟨S262144, .i1⟩ : BufTy).Contents (Elt F)),
    StableHlo.nullary main_c_0 (constantI S_ 32 8192#32),
    StableHlo.unary main_c_0 main_v6 (broadcastInDim S262144 ![] bcast_S_S262144 : (⟨S_, .i32⟩ : BufTy).Contents (Elt F) → (⟨S262144, .i32⟩ : BufTy).Contents (Elt F)),
    StableHlo.binary main_arg2 main_v6 main_v7 (addi : (⟨S262144, .i32⟩ : BufTy).Contents (Elt F) → (⟨S262144, .i32⟩ : BufTy).Contents (Elt F) → (⟨S262144, .i32⟩ : BufTy).Contents (Elt F)),
    StableHlo.ternary main_v5 main_v7 main_arg2 main_v8 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v8 main_v9 (broadcastInDim S262144x1 ![0] bcast_S262144_S262144x1_0 : (⟨S262144, .i32⟩ : BufTy).Contents (Elt F) → (⟨S262144x1, .i32⟩ : BufTy).Contents (Elt F)),
    StableHlo.binary main_arg0 main_v9 main_v10 ((fun x i => Host.gather gather_S8192x128_S262144x1_S262144x128_1_0_n_n_0_1_1128 x i) : (⟨S8192x128, .f32⟩ : BufTy).Contents (Elt F) → (⟨S262144x1, .i32⟩ : BufTy).Contents (Elt F) → (⟨S262144x128, .f32⟩ : BufTy).Contents (Elt F)),
    StableHlo.nullary main_cst (constant S_ .f32 0x00000000#32),
    StableHlo.unary main_cst main_v11 (broadcastInDim S8192x128 ![] bcast_S_S8192x128 : (⟨S_, .f32⟩ : BufTy).Contents (Elt F) → (⟨S8192x128, .f32⟩ : BufTy).Contents (Elt F)),
    StableHlo.unary main_arg3 main_v12 (broadcastInDim S262144x1 ![0] bcast_S262144_S262144x1_0 : (⟨S262144, .i32⟩ : BufTy).Contents (Elt F) → (⟨S262144x1, .i32⟩ : BufTy).Contents (Elt F)),
    StableHlo.ternary main_v11 main_v12 main_v10 main_v13 ((fun x i u => Host.scatterAdd scatter_S8192x128_S262144x1_S262144x128_1_0_0_1 x i u) : (⟨S8192x128, .f32⟩ : BufTy).Contents (Elt F) → (⟨S262144x1, .i32⟩ : BufTy).Contents (Elt F) → (⟨S262144x128, .f32⟩ : BufTy).Contents (Elt F) → (⟨S8192x128, .f32⟩ : BufTy).Contents (Elt F)) ]

/-- The affine map to 128 columns and the maximum with zero (%14 … %18, the rectifier's three operations inline). -/
abbrev W3 : List (HloOp τ sig (Elt F)) :=
  [ StableHlo.binary main_v13 main_arg6 main_v14 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg7 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S8192x128 ![0, 1] bcast_S1x128_S8192x128_0_1 : (⟨S1x128, .f32⟩ : BufTy).Contents (Elt F) → (⟨S8192x128, .f32⟩ : BufTy).Contents (Elt F)),
    StableHlo.binary main_v14 main_v16 main_v17 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S8192x128, .f32⟩) (broadcastInDim S8192x128 ![] bcast_S_S8192x128),
    StableHlo.TRef.binary (.of main_v17 : StableHlo.TRef sig ⟨S8192x128, .f32⟩) (.of main_call0_v0 : StableHlo.TRef sig ⟨S8192x128, .f32⟩) (.of main_v18 : StableHlo.TRef sig ⟨S8192x128, .f32⟩) maximumf ]

/-- The neighbour sum of the rectified rows (%c_1 … %28). -/
abbrev W4 : List (HloOp τ sig (Elt F)) :=
  [ StableHlo.nullary main_c_1 (constantI S_ 32 0#32),
    StableHlo.unary main_c_1 main_v19 (broadcastInDim S262144 ![] bcast_S_S262144 : (⟨S_, .i32⟩ : BufTy).Contents (Elt F) → (⟨S262144, .i32⟩ : BufTy).Contents (Elt F)),
    StableHlo.binary main_arg2 main_v19 main_v20 (cmpi .slt : (⟨S262144, .i32⟩ : BufTy).Contents (Elt F) → (⟨S262144, .i32⟩ : BufTy).Contents (Elt F) → (⟨S262144, .i1⟩ : BufTy).Contents (Elt F)),
    StableHlo.nullary main_c_2 (constantI S_ 32 8192#32),
    StableHlo.unary main_c_2 main_v21 (broadcastInDim S262144 ![] bcast_S_S262144 : (⟨S_, .i32⟩ : BufTy).Contents (Elt F) → (⟨S262144, .i32⟩ : BufTy).Contents (Elt F)),
    StableHlo.binary main_arg2 main_v21 main_v22 (addi : (⟨S262144, .i32⟩ : BufTy).Contents (Elt F) → (⟨S262144, .i32⟩ : BufTy).Contents (Elt F) → (⟨S262144, .i32⟩ : BufTy).Contents (Elt F)),
    StableHlo.ternary main_v20 main_v22 main_arg2 main_v23 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v23 main_v24 (broadcastInDim S262144x1 ![0] bcast_S262144_S262144x1_0 : (⟨S262144, .i32⟩ : BufTy).Contents (Elt F) → (⟨S262144x1, .i32⟩ : BufTy).Contents (Elt F)),
    StableHlo.binary main_v18 main_v24 main_v25 ((fun x i => Host.gather gather_S8192x128_S262144x1_S262144x128_1_0_n_n_0_1_1128 x i) : (⟨S8192x128, .f32⟩ : BufTy).Contents (Elt F) → (⟨S262144x1, .i32⟩ : BufTy).Contents (Elt F) → (⟨S262144x128, .f32⟩ : BufTy).Contents (Elt F)),
    StableHlo.nullary main_cst_3 (constant S_ .f32 0x00000000#32),
    StableHlo.unary main_cst_3 main_v26 (broadcastInDim S8192x128 ![] bcast_S_S8192x128 : (⟨S_, .f32⟩ : BufTy).Contents (Elt F) → (⟨S8192x128, .f32⟩ : BufTy).Contents (Elt F)),
    StableHlo.unary main_arg3 main_v27 (broadcastInDim S262144x1 ![0] bcast_S262144_S262144x1_0 : (⟨S262144, .i32⟩ : BufTy).Contents (Elt F) → (⟨S262144x1, .i32⟩ : BufTy).Contents (Elt F)),
    StableHlo.ternary main_v26 main_v27 main_v25 main_v28 ((fun x i u => Host.scatterAdd scatter_S8192x128_S262144x1_S262144x128_1_0_0_1 x i u) : (⟨S8192x128, .f32⟩ : BufTy).Contents (Elt F) → (⟨S262144x1, .i32⟩ : BufTy).Contents (Elt F) → (⟨S262144x128, .f32⟩ : BufTy).Contents (Elt F) → (⟨S8192x128, .f32⟩ : BufTy).Contents (Elt F)) ]

/-- The second affine map (%29 … %32). -/
abbrev W5 : List (HloOp τ sig (Elt F)) :=
  [ StableHlo.binary main_v28 main_arg8 main_v29 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    StableHlo.unary main_arg9 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S8192x64 ![0, 1] bcast_S1x64_S8192x64_0_1 : (⟨S1x64, .f32⟩ : BufTy).Contents (Elt F) → (⟨S8192x64, .f32⟩ : BufTy).Contents (Elt F)),
    StableHlo.binary main_v29 main_v31 main_v32 (addf : (⟨S8192x64, .f32⟩ : BufTy).Contents (Elt F) → (⟨S8192x64, .f32⟩ : BufTy).Contents (Elt F) → (⟨S8192x64, .f32⟩ : BufTy).Contents (Elt F)) ]

/-- The row-wise convex combination (%33 … %40). -/
abbrev W6 : List (HloOp τ sig (Elt F)) :=
  [ StableHlo.unary main_arg10 main_v33 (broadcastInDim S8192x1 ![0] bcast_S8192_S8192x1_0 : (⟨S8192, .f32⟩ : BufTy).Contents (Elt F) → (⟨S8192x1, .f32⟩ : BufTy).Contents (Elt F)),
    StableHlo.nullary main_cst_4 (constant S_ .f32 0x3F800000#32),
    StableHlo.unary main_cst_4 main_v34 (broadcastInDim S8192x1 ![] bcast_S_S8192x1 : (⟨S_, .f32⟩ : BufTy).Contents (Elt F) → (⟨S8192x1, .f32⟩ : BufTy).Contents (Elt F)),
    StableHlo.binary main_v34 main_v33 main_v35 (subf : (⟨S8192x1, .f32⟩ : BufTy).Contents (Elt F) → (⟨S8192x1, .f32⟩ : BufTy).Contents (Elt F) → (⟨S8192x1, .f32⟩ : BufTy).Contents (Elt F)),
    StableHlo.unary main_v35 main_v36 (broadcastInDim S8192x64 ![0, 1] bcast_S8192x1_S8192x64_0_1 : (⟨S8192x1, .f32⟩ : BufTy).Contents (Elt F) → (⟨S8192x64, .f32⟩ : BufTy).Contents (Elt F)),
    StableHlo.binary main_v36 main_v3 main_v37 (mulf : (⟨S8192x64, .f32⟩ : BufTy).Contents (Elt F) → (⟨S8192x64, .f32⟩ : BufTy).Contents (Elt F) → (⟨S8192x64, .f32⟩ : BufTy).Contents (Elt F)),
    StableHlo.unary main_v33 main_v38 (broadcastInDim S8192x64 ![0, 1] bcast_S8192x1_S8192x64_0_1 : (⟨S8192x1, .f32⟩ : BufTy).Contents (Elt F) → (⟨S8192x64, .f32⟩ : BufTy).Contents (Elt F)),
    StableHlo.binary main_v38 main_v32 main_v39 (mulf : (⟨S8192x64, .f32⟩ : BufTy).Contents (Elt F) → (⟨S8192x64, .f32⟩ : BufTy).Contents (Elt F) → (⟨S8192x64, .f32⟩ : BufTy).Contents (Elt F)),
    StableHlo.binary main_v37 main_v39 main_v40 (addf : (⟨S8192x64, .f32⟩ : BufTy).Contents (Elt F) → (⟨S8192x64, .f32⟩ : BufTy).Contents (Elt F) → (⟨S8192x64, .f32⟩ : BufTy).Contents (Elt F)) ]

/-- The first result (%41 … %47). -/
abbrev W7 : List (HloOp τ sig (Elt F)) :=
  [ StableHlo.unary main_v40 main_v41 ((transpose S64x8192 [1, 0] · transposes_S8192x64_S64x8192_1_0) : (⟨S8192x64, .f32⟩ : BufTy).Contents (Elt F) → (⟨S64x8192, .f32⟩ : BufTy).Contents (Elt F)),
    StableHlo.binary main_v40 main_v41 main_v42 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.unary main_arg0 main_v43 ((transpose S128x8192 [1, 0] · transposes_S8192x128_S128x8192_1_0) : (⟨S8192x128, .f32⟩ : BufTy).Contents (Elt F) → (⟨S128x8192, .f32⟩ : BufTy).Contents (Elt F)),
    StableHlo.binary main_arg0 main_v43 main_v44 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.binary main_v42 main_v44 main_v45 (addf : (⟨S8192x8192, .f32⟩ : BufTy).Contents (Elt F) → (⟨S8192x8192, .f32⟩ : BufTy).Contents (Elt F) → (⟨S8192x8192, .f32⟩ : BufTy).Contents (Elt F)),
    StableHlo.nullary main_cst_5 (constant S_ .f32 0x3F000000#32),
    StableHlo.unary main_cst_5 main_v46 (broadcastInDim S8192x8192 ![] bcast_S_S8192x8192 : (⟨S_, .f32⟩ : BufTy).Contents (Elt F) → (⟨S8192x8192, .f32⟩ : BufTy).Contents (Elt F)),
    StableHlo.binary main_v45 main_v46 main_v47 (mulf : (⟨S8192x8192, .f32⟩ : BufTy).Contents (Elt F) → (⟨S8192x8192, .f32⟩ : BufTy).Contents (Elt F) → (⟨S8192x8192, .f32⟩ : BufTy).Contents (Elt F)) ]

/-- The column sums and the row count, the last four operations of the first window of @main (%cst_6 … %49). -/
abbrev W8a : List (HloOp τ sig (Elt F)) :=
  [ StableHlo.nullary main_cst_6 (constant S_ .f32 0x00000000#32),
    StableHlo.binary main_v40 main_cst_6 main_v48 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    StableHlo.nullary main_cst_7 (constant S_ .f32 0x46000000#32),
    StableHlo.unary main_cst_7 main_v49 (broadcastInDim S64 ![] bcast_S_S64 : (⟨S_, .f32⟩ : BufTy).Contents (Elt F) → (⟨S64, .f32⟩ : BufTy).Contents (Elt F)) ]

/-- The second window of @main: the column means, the variance function's nineteen operations and the select function's three inline, then the normalisation (%50 … %66). -/
abbrev W8b : List (HloOp τ sig (Elt F)) :=
  [ StableHlo.binary main_v48 main_v49 main_v50 (Host.divf : (⟨S64, .f32⟩ : BufTy).Contents (Elt F) → (⟨S64, .f32⟩ : BufTy).Contents (Elt F) → (⟨S64, .f32⟩ : BufTy).Contents (Elt F)),
    StableHlo.nullary main_c_8 (constantI S_ 32 0#32),
    StableHlo.TRef.nullary (.of main_call1_cst : StableHlo.TRef sig ⟨S_, .f32⟩) (constant S_ .f32 0x00000000#32),
    StableHlo.TRef.binary (.of main_v40 : StableHlo.TRef sig ⟨S8192x64, .f32⟩) (.of main_call1_cst : StableHlo.TRef sig ⟨S_, .f32⟩) (.of main_call1_v0 : StableHlo.TRef sig ⟨S64, .f32⟩) (fun x v => Host.reduceAdd x v reducesTo_S8192x64_S64_d0 h_S_),
    StableHlo.TRef.unary (.of main_call1_v0 : StableHlo.TRef sig ⟨S64, .f32⟩) (.of main_call1_v1 : StableHlo.TRef sig ⟨S1x64, .f32⟩) (broadcastInDim S1x64 ![1] bcast_S64_S1x64_1),
    StableHlo.TRef.nullary (.of main_call1_cst_0 : StableHlo.TRef sig ⟨S_, .f32⟩) (constant S_ .f32 0x46000000#32),
    StableHlo.TRef.unary (.of main_call1_cst_0 : StableHlo.TRef sig ⟨S_, .f32⟩) (.of main_call1_v2 : StableHlo.TRef sig ⟨S1x64, .f32⟩) (broadcastInDim S1x64 ![] bcast_S_S1x64),
    StableHlo.TRef.binary (.of main_call1_v1 : StableHlo.TRef sig ⟨S1x64, .f32⟩) (.of main_call1_v2 : StableHlo.TRef sig ⟨S1x64, .f32⟩) (.of main_call1_v3 : StableHlo.TRef sig ⟨S1x64, .f32⟩) Host.divf,
    StableHlo.TRef.unary (.of main_call1_v3 : StableHlo.TRef sig ⟨S1x64, .f32⟩) (.of main_call1_v4 : StableHlo.TRef sig ⟨S8192x64, .f32⟩) (broadcastInDim S8192x64 ![0, 1] bcast_S1x64_S8192x64_0_1),
    StableHlo.TRef.binary (.of main_v40 : StableHlo.TRef sig ⟨S8192x64, .f32⟩) (.of main_call1_v4 : StableHlo.TRef sig ⟨S8192x64, .f32⟩) (.of main_call1_v5 : StableHlo.TRef sig ⟨S8192x64, .f32⟩) subf,
    StableHlo.TRef.binary (.of main_call1_v5 : StableHlo.TRef sig ⟨S8192x64, .f32⟩) (.of main_call1_v5 : StableHlo.TRef sig ⟨S8192x64, .f32⟩) (.of main_call1_v6 : StableHlo.TRef sig ⟨S8192x64, .f32⟩) mulf,
    StableHlo.TRef.unary (.of main_c_8 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x46000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S8192x64, .f32⟩) (.of main_call1_cst_2 : StableHlo.TRef sig ⟨S_, .f32⟩) (.of main_call1_v9 : StableHlo.TRef sig ⟨S64, .f32⟩) (fun x v => Host.reduceAdd x v reducesTo_S8192x64_S64_d0 h_S_),
    StableHlo.TRef.unary (.of main_call1_v8 : StableHlo.TRef sig ⟨S_, .f32⟩) (.of main_call1_v10 : StableHlo.TRef sig ⟨S64, .f32⟩) (broadcastInDim S64 ![] bcast_S_S64),
    StableHlo.TRef.binary (.of main_call1_v9 : StableHlo.TRef sig ⟨S64, .f32⟩) (.of main_call1_v10 : StableHlo.TRef sig ⟨S64, .f32⟩) (.of main_call1_v11 : StableHlo.TRef sig ⟨S64, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S64, .f32⟩) (broadcastInDim S64 ![] bcast_S_S64),
    StableHlo.TRef.ternary (.of main_call1_v12 : StableHlo.TRef sig ⟨S_, .i1⟩) (.of main_call1_v11 : StableHlo.TRef sig ⟨S64, .f32⟩) (.of main_call1_call0_v1 : StableHlo.TRef sig ⟨S64, .f32⟩) (.of main_v51 : StableHlo.TRef sig ⟨S64, .f32⟩) (fun p a b => select (broadcastInDim S64 ![] bcast_S_S64 p) a b),
    StableHlo.unary main_v50 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S8192x64 ![0, 1] bcast_S1x64_S8192x64_0_1 : (⟨S1x64, .f32⟩ : BufTy).Contents (Elt F) → (⟨S8192x64, .f32⟩ : BufTy).Contents (Elt F)),
    StableHlo.binary main_v40 main_v53 main_v54 (subf : (⟨S8192x64, .f32⟩ : BufTy).Contents (Elt F) → (⟨S8192x64, .f32⟩ : BufTy).Contents (Elt F) → (⟨S8192x64, .f32⟩ : BufTy).Contents (Elt F)),
    StableHlo.nullary main_cst_9 (constant S_ .f32 0x3727C5AC#32),
    StableHlo.unary main_cst_9 main_v55 (broadcastInDim S64 ![] bcast_S_S64 : (⟨S_, .f32⟩ : BufTy).Contents (Elt F) → (⟨S64, .f32⟩ : BufTy).Contents (Elt F)),
    StableHlo.binary main_v51 main_v55 main_v56 (addf : (⟨S64, .f32⟩ : BufTy).Contents (Elt F) → (⟨S64, .f32⟩ : BufTy).Contents (Elt F) → (⟨S64, .f32⟩ : BufTy).Contents (Elt F)),
    StableHlo.unary main_v56 main_v57 (Host.rsqrt : (⟨S64, .f32⟩ : BufTy).Contents (Elt F) → (⟨S64, .f32⟩ : BufTy).Contents (Elt F)),
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S8192x64 ![0, 1] bcast_S1x64_S8192x64_0_1 : (⟨S1x64, .f32⟩ : BufTy).Contents (Elt F) → (⟨S8192x64, .f32⟩ : BufTy).Contents (Elt F)),
    StableHlo.binary main_v54 main_v59 main_v60 (mulf : (⟨S8192x64, .f32⟩ : BufTy).Contents (Elt F) → (⟨S8192x64, .f32⟩ : BufTy).Contents (Elt F) → (⟨S8192x64, .f32⟩ : BufTy).Contents (Elt F)),
    StableHlo.unary main_arg11 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S8192x64 ![0, 1] bcast_S1x64_S8192x64_0_1 : (⟨S1x64, .f32⟩ : BufTy).Contents (Elt F) → (⟨S8192x64, .f32⟩ : BufTy).Contents (Elt F)),
    StableHlo.binary main_v60 main_v62 main_v63 (mulf : (⟨S8192x64, .f32⟩ : BufTy).Contents (Elt F) → (⟨S8192x64, .f32⟩ : BufTy).Contents (Elt F) → (⟨S8192x64, .f32⟩ : BufTy).Contents (Elt F)),
    StableHlo.unary main_arg12 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S8192x64 ![0, 1] bcast_S1x64_S8192x64_0_1 : (⟨S1x64, .f32⟩ : BufTy).Contents (Elt F) → (⟨S8192x64, .f32⟩ : BufTy).Contents (Elt F)),
    StableHlo.binary main_v63 main_v65 main_v66 (addf : (⟨S8192x64, .f32⟩ : BufTy).Contents (Elt F) → (⟨S8192x64, .f32⟩ : BufTy).Contents (Elt F) → (⟨S8192x64, .f32⟩ : BufTy).Contents (Elt F)) ]

/-- The first window of @main: sixty-two operations. -/
abbrev opsA : List (HloOp τ sig (Elt F)) := W1 ++ (W2 ++ (W3 ++ (W4 ++ (W5 ++ (W6 ++ (W7 ++ W8a))))))

/-- @main's 102 operations, in order. -/
abbrev ops : List (HloOp τ sig (Elt F)) := opsA ++ W8b

/-! ## @main is that line -/

set_option maxRecDepth 8192 in
set_option maxHeartbeats 4000000 in
/-- The first window of @main is its sixty-two operations in order, the rectifier's body unfolded at its call. -/
theorem main_part0_eq (c : Dev nD) : main_part0 (F := F) c = seq opsA := rfl

set_option maxRecDepth 8192 in
set_option maxHeartbeats 4000000 in
/-- The second window of @main is its forty operations in order, the variance function's body and, inside it, the
    select function's unfolded at their calls. -/
theorem main_part1_eq (c : Dev nD) : main_part1 (F := F) c = seq W8b := rfl

/-- @main runs its two windows in order: the concatenation of their operations run as one line. -/
theorem main_eq (c : Dev nD) : main (F := F) c = seq ops := by
  show (main_part0 (F := F) c >>= fun _ => main_part1 c) = seq (opsA ++ W8b)
  rw [seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

theorem W1_sub : (W1 : List (HloOp τ sig (Elt F))).Forall fun op => op.bufs ⊆ tcRefs τ sig :=
  ⟨binary_bufs_sub .., unary_bufs_sub .., unary_bufs_sub .., binary_bufs_sub ..⟩
theorem W2_sub : (W2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem W3_sub : (W3 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
theorem W4_sub : (W4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem W5_sub : (W5 : List (HloOp τ sig (Elt F))).Forall fun op => op.bufs ⊆ tcRefs τ sig :=
  ⟨binary_bufs_sub .., unary_bufs_sub .., unary_bufs_sub .., binary_bufs_sub ..⟩
theorem W6_sub : (W6 : List (HloOp τ sig (Elt F))).Forall fun op => op.bufs ⊆ tcRefs τ sig :=
  ⟨unary_bufs_sub .., nullary_bufs_sub .., unary_bufs_sub .., binary_bufs_sub .., unary_bufs_sub .., binary_bufs_sub .., unary_bufs_sub .., binary_bufs_sub .., binary_bufs_sub ..⟩
theorem W7_sub : (W7 : List (HloOp τ sig (Elt F))).Forall fun op => op.bufs ⊆ tcRefs τ sig :=
  ⟨unary_bufs_sub .., binary_bufs_sub .., unary_bufs_sub .., binary_bufs_sub .., binary_bufs_sub .., nullary_bufs_sub .., unary_bufs_sub .., binary_bufs_sub ..⟩
theorem W8a_sub : (W8a : List (HloOp τ sig (Elt F))).Forall fun op => op.bufs ⊆ tcRefs τ sig :=
  ⟨nullary_bufs_sub .., binary_bufs_sub .., nullary_bufs_sub .., unary_bufs_sub ..⟩
theorem W8b_sub : (W8b : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, opsA, List.mem_append] at h
    rcases h with ((h | h | h | h | h | h | h | h) | h)
    exacts [List.forall_iff_forall_mem.mp W1_sub op h, List.forall_iff_forall_mem.mp W2_sub op h,
      List.forall_iff_forall_mem.mp W3_sub op h, List.forall_iff_forall_mem.mp W4_sub op h,
      List.forall_iff_forall_mem.mp W5_sub op h, List.forall_iff_forall_mem.mp W6_sub op h,
      List.forall_iff_forall_mem.mp W7_sub op h, List.forall_iff_forall_mem.mp W8a_sub op h,
      List.forall_iff_forall_mem.mp W8b_sub op h]

/-! ## What each stretch writes, and that it leaves every other buffer alone -/

/-- The buffers the operations of `W1` write. -/
abbrev W1_W : List (Ref sig .tc) := [main_v0, main_v1, main_v2, main_v3]
theorem W1_writes : (W1 : List (HloOp τ sig (Elt F))).Forall fun op => op.writes ⊆ (W1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- The buffers the operations of `W2` write. -/
abbrev W2_W : List (Ref sig .tc) := [main_c, main_v4, main_v5, main_c_0, main_v6, main_v7, main_v8, main_v9, main_v10, main_cst, main_v11, main_v12, main_v13]
theorem W2_writes : (W2 : List (HloOp τ sig (Elt F))).Forall fun op => op.writes ⊆ (W2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- The buffers the operations of `W3` write. -/
abbrev W3_W : List (Ref sig .tc) := [main_v14, main_v15, main_v16, main_v17, main_call0_cst, main_call0_v0, main_v18]
theorem W3_writes : (W3 : List (HloOp τ sig (Elt F))).Forall fun op => op.writes ⊆ (W3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- The buffers the operations of `W4` write. -/
abbrev W4_W : List (Ref sig .tc) := [main_c_1, main_v19, main_v20, main_c_2, main_v21, main_v22, main_v23, main_v24, main_v25, main_cst_3, main_v26, main_v27, main_v28]
theorem W4_writes : (W4 : List (HloOp τ sig (Elt F))).Forall fun op => op.writes ⊆ (W4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- The buffers the operations of `W5` write. -/
abbrev W5_W : List (Ref sig .tc) := [main_v29, main_v30, main_v31, main_v32]
theorem W5_writes : (W5 : List (HloOp τ sig (Elt F))).Forall fun op => op.writes ⊆ (W5_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- The buffers the operations of `W6` write. -/
abbrev W6_W : List (Ref sig .tc) := [main_v33, main_cst_4, main_v34, main_v35, main_v36, main_v37, main_v38, main_v39, main_v40]
theorem W6_writes : (W6 : List (HloOp τ sig (Elt F))).Forall fun op => op.writes ⊆ (W6_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- The buffers the operations of `W7` write. -/
abbrev W7_W : List (Ref sig .tc) := [main_v41, main_v42, main_v43, main_v44, main_v45, main_cst_5, main_v46, main_v47]
theorem W7_writes : (W7 : List (HloOp τ sig (Elt F))).Forall fun op => op.writes ⊆ (W7_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- The buffers the operations of `W8a` write. -/
abbrev W8a_W : List (Ref sig .tc) := [main_cst_6, main_v48, main_cst_7, main_v49]
theorem W8a_writes : (W8a : List (HloOp τ sig (Elt F))).Forall fun op => op.writes ⊆ (W8a_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- The buffers the operations of `W8b` write. -/
abbrev W8b_W : List (Ref sig .tc) := [main_v50, main_c_8, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v51, main_v52, main_v53, main_v54, main_cst_9, main_v55, main_v56, main_v57, main_v58, main_v59, main_v60, main_v61, main_v62, main_v63, main_v64, main_v65, main_v66]
theorem W8b_writes : (W8b : List (HloOp τ sig (Elt F))).Forall fun op => op.writes ⊆ (W8b_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

theorem W1_keep (V : Valuation τ sig (Elt F)) (r : Ref sig .tc) (h : r ∉ W1_W) :
    after (W1 (F := F)) V (no_index (Proc.devRef .tc r)) = V (Proc.devRef .tc r) :=
  after_of_writes_sub W1 V W1_writes h
theorem W2_keep (V : Valuation τ sig (Elt F)) (r : Ref sig .tc) (h : r ∉ W2_W) :
    after (W2 (F := F)) V (no_index (Proc.devRef .tc r)) = V (Proc.devRef .tc r) :=
  after_of_writes_sub W2 V W2_writes h
theorem W3_keep (V : Valuation τ sig (Elt F)) (r : Ref sig .tc) (h : r ∉ W3_W) :
    after (W3 (F := F)) V (no_index (Proc.devRef .tc r)) = V (Proc.devRef .tc r) :=
  after_of_writes_sub W3 V W3_writes h
theorem W4_keep (V : Valuation τ sig (Elt F)) (r : Ref sig .tc) (h : r ∉ W4_W) :
    after (W4 (F := F)) V (no_index (Proc.devRef .tc r)) = V (Proc.devRef .tc r) :=
  after_of_writes_sub W4 V W4_writes h
theorem W5_keep (V : Valuation τ sig (Elt F)) (r : Ref sig .tc) (h : r ∉ W5_W) :
    after (W5 (F := F)) V (no_index (Proc.devRef .tc r)) = V (Proc.devRef .tc r) :=
  after_of_writes_sub W5 V W5_writes h
theorem W6_keep (V : Valuation τ sig (Elt F)) (r : Ref sig .tc) (h : r ∉ W6_W) :
    after (W6 (F := F)) V (no_index (Proc.devRef .tc r)) = V (Proc.devRef .tc r) :=
  after_of_writes_sub W6 V W6_writes h
theorem W7_keep (V : Valuation τ sig (Elt F)) (r : Ref sig .tc) (h : r ∉ W7_W) :
    after (W7 (F := F)) V (no_index (Proc.devRef .tc r)) = V (Proc.devRef .tc r) :=
  after_of_writes_sub W7 V W7_writes h
theorem W8a_keep (V : Valuation τ sig (Elt F)) (r : Ref sig .tc) (h : r ∉ W8a_W) :
    after (W8a (F := F)) V (no_index (Proc.devRef .tc r)) = V (Proc.devRef .tc r) :=
  after_of_writes_sub W8a V W8a_writes h
theorem W8b_keep (V : Valuation τ sig (Elt F)) (r : Ref sig .tc) (h : r ∉ W8b_W) :
    after (W8b (F := F)) V (no_index (Proc.devRef .tc r)) = V (Proc.devRef .tc r) :=
  after_of_writes_sub W8b V W8b_writes h

/-! ## What each stretch computes, at the ideal instance -/

section Stages

open Cert.RefSpec

/-- The contents of one device's buffers, at the ideal instance. -/
abbrev Vals : Type := Valuation τ sig (Elt Ideal)

/-- The first affine map: the features times the first weight matrix, plus its bias. -/
theorem W1_v3 (V : Vals) : after (W1 (F := Ideal)) V (no_index (Proc.devRef .tc main_v3))
    = lin64 (V (Proc.devRef .tc main_arg0)) (V (Proc.devRef .tc main_arg4)) (V (Proc.devRef .tc main_arg5)) := by
  simp only [W1]
  after_results_simp
  rfl

/-- The neighbour sum of the features. -/
theorem W2_v13 (V : Vals) : after (W2 (F := Ideal)) V (no_index (Proc.devRef .tc main_v13))
    = nsum (V (Proc.devRef .tc main_arg0)) (V (Proc.devRef .tc main_arg2)) (V (Proc.devRef .tc main_arg3)) := by
  simp only [W2]
  after_results_simp
  rfl

/-- The rectified affine map of what buffer %13 holds. -/
theorem W3_v18 (V : Vals) : after (W3 (F := Ideal)) V (no_index (Proc.devRef .tc main_v18))
    = lin128relu (V (Proc.devRef .tc main_v13)) (V (Proc.devRef .tc main_arg6)) (V (Proc.devRef .tc main_arg7)) := by
  simp only [W3]
  after_results_simp
  rfl

/-- The neighbour sum of what buffer %18 holds. -/
theorem W4_v28 (V : Vals) : after (W4 (F := Ideal)) V (no_index (Proc.devRef .tc main_v28))
    = nsum (V (Proc.devRef .tc main_v18)) (V (Proc.devRef .tc main_arg2)) (V (Proc.devRef .tc main_arg3)) := by
  simp only [W4]
  after_results_simp
  rfl

/-- The second affine map, of what buffer %28 holds. -/
theorem W5_v32 (V : Vals) : after (W5 (F := Ideal)) V (no_index (Proc.devRef .tc main_v32))
    = lin64 (V (Proc.devRef .tc main_v28)) (V (Proc.devRef .tc main_arg8)) (V (Proc.devRef .tc main_arg9)) := by
  simp only [W5]
  after_results_simp
  rfl

/-- The convex combination of what buffers %3 and %32 hold, by the per-row weights. -/
theorem W6_v40 (V : Vals) : after (W6 (F := Ideal)) V (no_index (Proc.devRef .tc main_v40))
    = mix (V (Proc.devRef .tc main_arg10)) (V (Proc.devRef .tc main_v3)) (V (Proc.devRef .tc main_v32)) := by
  simp only [W6]
  after_results_simp
  rfl

/-- The first result, from what buffer %40 holds and the features. -/
theorem W7_v47 (V : Vals) : after (W7 (F := Ideal)) V (no_index (Proc.devRef .tc main_v47))
    = gram (V (Proc.devRef .tc main_v40)) (V (Proc.devRef .tc main_arg0)) := by
  simp only [W7]
  after_results_simp
  rfl

set_option maxRecDepth 8192 in
set_option maxHeartbeats 4000000 in
/-- The second result, from what buffer %40 holds and the scale and shift rows: the last four operations of @main's
    first window and the forty of its second. -/
theorem W8_v66 (V : Vals) : after (W8b (F := Ideal)) (after (W8a (F := Ideal)) V) (no_index (Proc.devRef .tc main_v66))
    = bn (V (Proc.devRef .tc main_v40)) (V (Proc.devRef .tc main_arg11)) (V (Proc.devRef .tc main_arg12)) := by
  simp only [W8a, W8b]
  after_results_simp
  rfl

/-! ## The whole line -/

/-- The buffers the line writes: every buffer but the thirteen arguments'. -/
abbrev ops_W : List (Ref sig .tc) :=
  W1_W ++ (W2_W ++ (W3_W ++ (W4_W ++ (W5_W ++ (W6_W ++ (W7_W ++ (W8a_W ++ W8b_W)))))))

/-- The line as its stretches run one after the other. -/
theorem after_ops (V : Valuation τ sig (Elt F)) :
    after (ops (F := F)) V = after W8b (after W8a (after W7 (after W6 (after W5 (after W4 (after W3 (after W2 (after W1 V)))))))) := by
  simp only [ops, opsA, after_append]

/-- A buffer the line does not write keeps its contents. -/
theorem ops_keep (V : Valuation τ sig (Elt F)) (r : Ref sig .tc) (h : r ∉ ops_W) :
    after (ops (F := F)) V (Proc.devRef .tc r) = V (Proc.devRef .tc r) := by
  simp only [ops_W, List.mem_append, not_or] at h
  obtain ⟨h1, h2, h3, h4, h5, h6, h7, h8, h9⟩ := h
  rw [after_ops, W8b_keep _ r h9, W8a_keep _ r h8, W7_keep _ r h7, W6_keep _ r h6, W5_keep _ r h5, W4_keep _ r h4,
    W3_keep _ r h3, W2_keep _ r h2, W1_keep _ r h1]

/-- The hidden state: what buffer %40 holds after the first six stretches. -/
theorem ops_v40 (V : Vals) :
    after (W6 (F := Ideal)) (after W5 (after W4 (after W3 (after W2 (after W1 V))))) (Proc.devRef .tc main_v40)
      = hOf (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp (disch := decide) only [W6_v40, W6_keep, W5_v32, W5_keep, W4_v28, W4_keep, W3_v18, W3_keep, W2_v13, W2_keep, W1_v3, W1_keep]
  rfl

/-- The first result buffer holds the specification's first term of the arguments. -/
theorem ops_v47 (V : Vals) : after (ops (F := Ideal)) V (Proc.devRef .tc main_v47)
    = ret47 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_ops, W8b_keep _ main_v47 (by decide), W8a_keep _ main_v47 (by decide), W7_v47, ops_v40,
    W6_keep _ main_arg0 (by decide), W5_keep _ main_arg0 (by decide), W4_keep _ main_arg0 (by decide),
    W3_keep _ main_arg0 (by decide), W2_keep _ main_arg0 (by decide), W1_keep _ main_arg0 (by decide)]
  rfl

/-- The second result buffer holds the specification's second term of the arguments. -/
theorem ops_v66 (V : Vals) : after (ops (F := Ideal)) V (Proc.devRef .tc main_v66)
    = out66 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops, W8_v66, W7_keep _ main_v40 (by decide), ops_v40,
    W7_keep _ main_arg11 (by decide), W6_keep _ main_arg11 (by decide), W5_keep _ main_arg11 (by decide), W4_keep _ main_arg11 (by decide),
    W3_keep _ main_arg11 (by decide), W2_keep _ main_arg11 (by decide), W1_keep _ main_arg11 (by decide),
    W7_keep _ main_arg12 (by decide), W6_keep _ main_arg12 (by decide), W5_keep _ main_arg12 (by decide), W4_keep _ main_arg12 (by decide),
    W3_keep _ main_arg12 (by decide), W2_keep _ main_arg12 (by decide), W1_keep _ main_arg12 (by decide)]
  rfl

end Stages

/-! ## The run -/

/-- On the device, at the ideal instance, from any memory with zero counters: every weakly fair execution of @main
    terminates with the two result buffers at the specification's two terms of the arguments' launch contents, and the
    thirteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47) = Cert.RefSpec.ret47 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v66) = Cert.RefSpec.out66 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v47).trans (ops_v47 (launchContents m c)),
      (h c main_v66).trans (ops_v66 (launchContents m c)),
      (h c main_arg0).trans (ops_keep (launchContents m c) main_arg0 (by decide)),
      (h c main_arg1).trans (ops_keep (launchContents m c) main_arg1 (by decide)),
      (h c main_arg2).trans (ops_keep (launchContents m c) main_arg2 (by decide)),
      (h c main_arg3).trans (ops_keep (launchContents m c) main_arg3 (by decide)),
      (h c main_arg4).trans (ops_keep (launchContents m c) main_arg4 (by decide)),
      (h c main_arg5).trans (ops_keep (launchContents m c) main_arg5 (by decide)),
      (h c main_arg6).trans (ops_keep (launchContents m c) main_arg6 (by decide)),
      (h c main_arg7).trans (ops_keep (launchContents m c) main_arg7 (by decide)),
      (h c main_arg8).trans (ops_keep (launchContents m c) main_arg8 (by decide)),
      (h c main_arg9).trans (ops_keep (launchContents m c) main_arg9 (by decide)),
      (h c main_arg10).trans (ops_keep (launchContents m c) main_arg10 (by decide)),
      (h c main_arg11).trans (ops_keep (launchContents m c) main_arg11 (by decide)),
      (h c main_arg12).trans (ops_keep (launchContents m c) main_arg12 (by decide))⟩)
    (run_seq scopedRefs_eq scopedSems_eq defs main (fun _ => ops) main_eq (fun _ => ops_sub) m ρ)

end Cert.ReferenceIdeal.RefRun

end
-- ==== Proof.lean ====
/-
  The certificate's claims, assembled.

  THE REFERENCE computes, from node features x [8192 × 128], edge lists src, dst [262144], three affine layers
  (fc, w1, w2 with their biases), per-node weights eps [8192] and a scale and shift gamma, beta [64]:
      h1 = x · fc_w + fc_b,      h2 = nsum (max (nsum x · w1 + w1_b) 0) · w2 + w2_b,      h = (1 - eps) * h1 + eps * h2,
  where nsum f adds, into row dst e of a zero array, row src e of f over the edges e; and returns
      ret = (h hᵀ + x xᵀ) / 2      and      h_bn = (h - mean h) * rsqrt (var h + 1e-5) * gamma + beta   (column statistics).
  The adjacency argument is read by neither program.

  THE KERNEL PROGRAM computes the same two arrays with the neighbour sums, the column statistics and the
  normalisation as array operations of @main, and the rest in three grid kernels: one for h1 and the rectified
  layer (rows in blocks of 1024), one for h2 and the mix h, one for ret in 1024 × 1024 tiles of the outer products.

  What joins them, at the ideal instance (floats the extended reals, every operation exact):
    · the reference's run ends with its two result buffers at the specification's terms `ret47`, `out66` of the
      launch contents of its arguments, the arguments unchanged (RefRun.run);
    · the kernel program's run ends with every unscoped buffer at the last boundary's contents `W8` (KI.Run), where
      the two result buffers hold the SAME two terms of its own arguments' launch contents (KI.Final: block by block a
      kernel's stored tile is the stage's function on that block, and the tiles cover the array) and each argument
      its launch contents (KI.Args);
    · so from memories that agree on the arguments both runs end at equal results: the terms at equal arrays.
  The frame claims are the same runs read at the arguments only, at the word-level instance for the program as
  printed (K.Run, K.Args) and at the ideal instance for its idealization and for the reference. The idealization
  rewrote no operation, so nothing is to be preserved.
-/
import proofs.«117717_j23003844838035_1_alg».proof.Defs
import proofs.«117717_j23003844838035_1_alg».proof.Proof.Gen.Kernel
import proofs.«117717_j23003844838035_1_alg».proof.Proof.Gen.KernelIdeal
import proofs.«117717_j23003844838035_1_alg».proof.Proof.Gen.ReferenceIdeal
import proofs.«117717_j23003844838035_1_alg».proof.Proof.Gen.Pre_finite_inputs
import proofs.«117717_j23003844838035_1_alg».proof.Proof.K.Run
import proofs.«117717_j23003844838035_1_alg».proof.Proof.K.Args
import proofs.«117717_j23003844838035_1_alg».proof.Proof.KI.Run
import proofs.«117717_j23003844838035_1_alg».proof.Proof.KI.Args
import proofs.«117717_j23003844838035_1_alg».proof.Proof.KI.Final
import proofs.«117717_j23003844838035_1_alg».proof.Proof.RefRun

noncomputable section

namespace Cert.Proof

open Idealize.ShloMosaic Idealize.ShloMosaic.TcCoe Idealize.SL.Sem

/-! ## The two result terms at equal arrays -/

/-- The first result's term at equal arrays. -/
theorem ret47_congr {x x' : Cert.RefSpec.V Cert.ReferenceIdeal.S8192x128} {src src' dst dst' : Cert.RefSpec.IV Cert.ReferenceIdeal.S262144}
    {fcw fcw' : Cert.RefSpec.V Cert.ReferenceIdeal.S128x64} {fcb fcb' : Cert.RefSpec.V Cert.ReferenceIdeal.S64}
    {w1 w1' : Cert.RefSpec.V Cert.ReferenceIdeal.S128x128} {w1b w1b' : Cert.RefSpec.V Cert.ReferenceIdeal.S128}
    {w2 w2' : Cert.RefSpec.V Cert.ReferenceIdeal.S128x64} {w2b w2b' : Cert.RefSpec.V Cert.ReferenceIdeal.S64}
    {eps eps' : Cert.RefSpec.V Cert.ReferenceIdeal.S8192}
    (h0 : x = x') (h2 : src = src') (h3 : dst = dst') (h4 : fcw = fcw') (h5 : fcb = fcb') (h6 : w1 = w1') (h7 : w1b = w1b')
    (h8 : w2 = w2') (h9 : w2b = w2b') (h10 : eps = eps') :
    Cert.RefSpec.ret47 x src dst fcw fcb w1 w1b w2 w2b eps = Cert.RefSpec.ret47 x' src' dst' fcw' fcb' w1' w1b' w2' w2b' eps' := by
  subst h0 h2 h3 h4 h5 h6 h7 h8 h9 h10; rfl

/-- The second result's term at equal arrays. -/
theorem out66_congr {x x' : Cert.RefSpec.V Cert.ReferenceIdeal.S8192x128} {src src' dst dst' : Cert.RefSpec.IV Cert.ReferenceIdeal.S262144}
    {fcw fcw' : Cert.RefSpec.V Cert.ReferenceIdeal.S128x64} {fcb fcb' : Cert.RefSpec.V Cert.ReferenceIdeal.S64}
    {w1 w1' : Cert.RefSpec.V Cert.ReferenceIdeal.S128x128} {w1b w1b' : Cert.RefSpec.V Cert.ReferenceIdeal.S128}
    {w2 w2' : Cert.RefSpec.V Cert.ReferenceIdeal.S128x64} {w2b w2b' : Cert.RefSpec.V Cert.ReferenceIdeal.S64}
    {eps eps' : Cert.RefSpec.V Cert.ReferenceIdeal.S8192} {gamma gamma' beta beta' : Cert.RefSpec.V Cert.ReferenceIdeal.S64}
    (h0 : x = x') (h2 : src = src') (h3 : dst = dst') (h4 : fcw = fcw') (h5 : fcb = fcb') (h6 : w1 = w1') (h7 : w1b = w1b')
    (h8 : w2 = w2') (h9 : w2b = w2b') (h10 : eps = eps') (h11 : gamma = gamma') (h12 : beta = beta') :
    Cert.RefSpec.out66 x src dst fcw fcb w1 w1b w2 w2b eps gamma beta
      = Cert.RefSpec.out66 x' src' dst' fcw' fcb' w1' w1b' w2' w2b' eps' gamma' beta' := by
  subst h0 h2 h3 h4 h5 h6 h7 h8 h9 h10 h11 h12; rfl

/-! ## The frames -/

/-- The program as printed, at the word-level instance: it runs, and each argument buffer, unscoped, ends at the last
    boundary's contents, which are its launch contents. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W8_main_arg0 m ρ c),
     (h c _ (Cert.Kernel.Hand.mem_uc Cert.Kernel.main_arg1 (by decide))).trans (Cert.Kernel.Hand.W8_main_arg1 m ρ c),
     (h c _ (Cert.Kernel.Hand.mem_uc Cert.Kernel.main_arg2 (by decide))).trans (Cert.Kernel.Hand.W8_main_arg2 m ρ c),
     (h c _ (Cert.Kernel.Hand.mem_uc Cert.Kernel.main_arg3 (by decide))).trans (Cert.Kernel.Hand.W8_main_arg3 m ρ c),
     (h c _ (Cert.Kernel.Hand.mem_uc Cert.Kernel.main_arg4 (by decide))).trans (Cert.Kernel.Hand.W8_main_arg4 m ρ c),
     (h c _ (Cert.Kernel.Hand.mem_uc Cert.Kernel.main_arg5 (by decide))).trans (Cert.Kernel.Hand.W8_main_arg5 m ρ c),
     (h c _ (Cert.Kernel.Hand.mem_uc Cert.Kernel.main_arg6 (by decide))).trans (Cert.Kernel.Hand.W8_main_arg6 m ρ c),
     (h c _ (Cert.Kernel.Hand.mem_uc Cert.Kernel.main_arg7 (by decide))).trans (Cert.Kernel.Hand.W8_main_arg7 m ρ c),
     (h c _ (Cert.Kernel.Hand.mem_uc Cert.Kernel.main_arg8 (by decide))).trans (Cert.Kernel.Hand.W8_main_arg8 m ρ c),
     (h c _ (Cert.Kernel.Hand.mem_uc Cert.Kernel.main_arg9 (by decide))).trans (Cert.Kernel.Hand.W8_main_arg9 m ρ c),
     (h c _ (Cert.Kernel.Hand.mem_uc Cert.Kernel.main_arg10 (by decide))).trans (Cert.Kernel.Hand.W8_main_arg10 m ρ c),
     (h c _ (Cert.Kernel.Hand.mem_uc Cert.Kernel.main_arg11 (by decide))).trans (Cert.Kernel.Hand.W8_main_arg11 m ρ c),
     (h c _ (Cert.Kernel.Hand.mem_uc Cert.Kernel.main_arg12 (by decide))).trans (Cert.Kernel.Hand.W8_main_arg12 m ρ c)⟩)
    (Cert.Kernel.Hand.run_all (F := Bits) m ρ)

/-- The same of the idealized program, at the ideal instance. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W8_main_arg0 m ρ c),
     (h c _ (Cert.KernelIdeal.Hand.mem_uc Cert.KernelIdeal.main_arg1 (by decide))).trans (Cert.KernelIdeal.Hand.W8_main_arg1 m ρ c),
     (h c _ (Cert.KernelIdeal.Hand.mem_uc Cert.KernelIdeal.main_arg2 (by decide))).trans (Cert.KernelIdeal.Hand.W8_main_arg2 m ρ c),
     (h c _ (Cert.KernelIdeal.Hand.mem_uc Cert.KernelIdeal.main_arg3 (by decide))).trans (Cert.KernelIdeal.Hand.W8_main_arg3 m ρ c),
     (h c _ (Cert.KernelIdeal.Hand.mem_uc Cert.KernelIdeal.main_arg4 (by decide))).trans (Cert.KernelIdeal.Hand.W8_main_arg4 m ρ c),
     (h c _ (Cert.KernelIdeal.Hand.mem_uc Cert.KernelIdeal.main_arg5 (by decide))).trans (Cert.KernelIdeal.Hand.W8_main_arg5 m ρ c),
     (h c _ (Cert.KernelIdeal.Hand.mem_uc Cert.KernelIdeal.main_arg6 (by decide))).trans (Cert.KernelIdeal.Hand.W8_main_arg6 m ρ c),
     (h c _ (Cert.KernelIdeal.Hand.mem_uc Cert.KernelIdeal.main_arg7 (by decide))).trans (Cert.KernelIdeal.Hand.W8_main_arg7 m ρ c),
     (h c _ (Cert.KernelIdeal.Hand.mem_uc Cert.KernelIdeal.main_arg8 (by decide))).trans (Cert.KernelIdeal.Hand.W8_main_arg8 m ρ c),
     (h c _ (Cert.KernelIdeal.Hand.mem_uc Cert.KernelIdeal.main_arg9 (by decide))).trans (Cert.KernelIdeal.Hand.W8_main_arg9 m ρ c),
     (h c _ (Cert.KernelIdeal.Hand.mem_uc Cert.KernelIdeal.main_arg10 (by decide))).trans (Cert.KernelIdeal.Hand.W8_main_arg10 m ρ c),
     (h c _ (Cert.KernelIdeal.Hand.mem_uc Cert.KernelIdeal.main_arg11 (by decide))).trans (Cert.KernelIdeal.Hand.W8_main_arg11 m ρ c),
     (h c _ (Cert.KernelIdeal.Hand.mem_uc Cert.KernelIdeal.main_arg12 (by decide))).trans (Cert.KernelIdeal.Hand.W8_main_arg12 m ρ c)⟩)
    (Cert.KernelIdeal.Hand.run_all (F := Ideal) m ρ)

/-- The reference's run, read at the arguments only. -/
theorem frame_ri : Cert.frame_ReferenceIdeal := fun m ρ _ =>
  (θ_run Cert.ReferenceIdeal.defs _ _).mono (fun _ h c => (h c).2.2) (Cert.ReferenceIdeal.RefRun.run m ρ)

/-! ## Equal results -/

/-- At the ideal instance, from memories that agree on the arguments: the kernel program's two result buffers end at
    the specification's two terms of ITS arguments' launch contents, the reference's at the same terms of its own; the
    arguments agree, so the terms are equal. -/
theorem algebraic : Cert.algebraic_KernelIdeal_ReferenceIdeal := by
  intro m ρ m' ρ' _ hagree
  refine ⟨fun (c : Dev Cert.KernelIdeal.nD) => Cert.RefSpec.ret47 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun (c : Dev Cert.KernelIdeal.nD) => Cert.RefSpec.out66 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c =>
      ⟨(h c _ (Cert.KernelIdeal.Hand.mem_uc Cert.KernelIdeal.main_v42 (by decide))).trans (Cert.KernelIdeal.Hand.W8_v42_eq m ρ c),
       (h c _ (Cert.KernelIdeal.Hand.mem_uc Cert.KernelIdeal.main_v41 (by decide))).trans (Cert.KernelIdeal.Hand.W8_v41_eq m ρ c),
       (h c _ (Cert.KernelIdeal.Hand.mem_uc Cert.KernelIdeal.main_arg0 (by decide))).trans (Cert.KernelIdeal.Hand.W8_main_arg0 m ρ c),
       (h c _ (Cert.KernelIdeal.Hand.mem_uc Cert.KernelIdeal.main_arg1 (by decide))).trans (Cert.KernelIdeal.Hand.W8_main_arg1 m ρ c),
       (h c _ (Cert.KernelIdeal.Hand.mem_uc Cert.KernelIdeal.main_arg2 (by decide))).trans (Cert.KernelIdeal.Hand.W8_main_arg2 m ρ c),
       (h c _ (Cert.KernelIdeal.Hand.mem_uc Cert.KernelIdeal.main_arg3 (by decide))).trans (Cert.KernelIdeal.Hand.W8_main_arg3 m ρ c),
       (h c _ (Cert.KernelIdeal.Hand.mem_uc Cert.KernelIdeal.main_arg4 (by decide))).trans (Cert.KernelIdeal.Hand.W8_main_arg4 m ρ c),
       (h c _ (Cert.KernelIdeal.Hand.mem_uc Cert.KernelIdeal.main_arg5 (by decide))).trans (Cert.KernelIdeal.Hand.W8_main_arg5 m ρ c),
       (h c _ (Cert.KernelIdeal.Hand.mem_uc Cert.KernelIdeal.main_arg6 (by decide))).trans (Cert.KernelIdeal.Hand.W8_main_arg6 m ρ c),
       (h c _ (Cert.KernelIdeal.Hand.mem_uc Cert.KernelIdeal.main_arg7 (by decide))).trans (Cert.KernelIdeal.Hand.W8_main_arg7 m ρ c),
       (h c _ (Cert.KernelIdeal.Hand.mem_uc Cert.KernelIdeal.main_arg8 (by decide))).trans (Cert.KernelIdeal.Hand.W8_main_arg8 m ρ c),
       (h c _ (Cert.KernelIdeal.Hand.mem_uc Cert.KernelIdeal.main_arg9 (by decide))).trans (Cert.KernelIdeal.Hand.W8_main_arg9 m ρ c),
       (h c _ (Cert.KernelIdeal.Hand.mem_uc Cert.KernelIdeal.main_arg10 (by decide))).trans (Cert.KernelIdeal.Hand.W8_main_arg10 m ρ c),
       (h c _ (Cert.KernelIdeal.Hand.mem_uc Cert.KernelIdeal.main_arg11 (by decide))).trans (Cert.KernelIdeal.Hand.W8_main_arg11 m ρ c),
       (h c _ (Cert.KernelIdeal.Hand.mem_uc Cert.KernelIdeal.main_arg12 (by decide))).trans (Cert.KernelIdeal.Hand.W8_main_arg12 m ρ c)⟩)
      (Cert.KernelIdeal.Hand.run_all (F := Ideal) m ρ)
  · refine (θ_run Cert.ReferenceIdeal.defs _ _).mono (fun r h c => ?_) (Cert.ReferenceIdeal.RefRun.run m' ρ')
    obtain ⟨h47, h66, hargs⟩ := h c
    obtain ⟨a0, a1, a2, a3, a4, a5, a6, a7, a8, a9, a10, a11, a12⟩ := hagree c
    exact ⟨h47.trans (ret47_congr a0 a2 a3 a4 a5 a6 a7 a8 a9 a10),
      h66.trans (out66_congr a0 a2 a3 a4 a5 a6 a7 a8 a9 a10 a11 a12), hargs⟩

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
